-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x20000 : Shape := ⟨2, ![256, 20000]⟩
abbrev S500x20000 : Shape := ⟨2, ![500, 20000]⟩
abbrev S_ : Shape := ⟨0, ![]⟩

class Facts : Prop where
  bcast_S_S256x20000 : S_.BroadcastsInDim S256x20000 (![] : Fin 0 → Fin S256x20000.rank)
  reducesTo_S256x20000_S_d0_1 : S256x20000.ReducesTo [0, 1] S_
  h_S_ : 0 < S_.numel
  bcast_S_S500x20000 : S_.BroadcastsInDim S500x20000 (![] : Fin 0 → Fin S500x20000.rank)
  reducesTo_S500x20000_S_d0_1 : S500x20000.ReducesTo [0, 1] S_

variable [Facts]

def fn {F : FTy → Type} [FloatOps F] (main_arg0 : FVec F S256x20000 .f32) (main_arg1 : FVec F S256x20000 .f32) (main_arg2 : FVec F S500x20000 .f32) : IVec S_ 1 :=
  let main_v0 : FVec F S256x20000 .f32 := Host.absf main_arg0
  let main_cst : FVec F S_ .f32 := constant S_ .f32 0x7F800000#32
  let main_v1 : FVec F S256x20000 .f32 := broadcastInDim S256x20000 ![] bcast_S_S256x20000 main_cst
  let main_v2 : IVec S256x20000 1 := cmpf .olt main_v0 main_v1
  let main_c : IVec S_ 1 := constantI S_ 1 1#1
  let main_v3 : IVec S_ 1 := (fun x v => Host.reduce IntOp.andi x v reducesTo_S256x20000_S_d0_1 h_S_) main_v2 main_c
  let main_v4 : FVec F S256x20000 .f32 := Host.absf main_arg1
  let main_cst_0 : FVec F S_ .f32 := constant S_ .f32 0x7F800000#32
  let main_v5 : FVec F S256x20000 .f32 := broadcastInDim S256x20000 ![] bcast_S_S256x20000 main_cst_0
  let main_v6 : IVec S256x20000 1 := cmpf .olt main_v4 main_v5
  let main_c_1 : IVec S_ 1 := constantI S_ 1 1#1
  let main_v7 : IVec S_ 1 := (fun x v => Host.reduce IntOp.andi x v reducesTo_S256x20000_S_d0_1 h_S_) main_v6 main_c_1
  let main_v8 : IVec S_ 1 := andi main_v3 main_v7
  let main_v9 : FVec F S500x20000 .f32 := Host.absf main_arg2
  let main_cst_2 : FVec F S_ .f32 := constant S_ .f32 0x7F800000#32
  let main_v10 : FVec F S500x20000 .f32 := broadcastInDim S500x20000 ![] bcast_S_S500x20000 main_cst_2
  let main_v11 : IVec S500x20000 1 := cmpf .olt main_v9 main_v10
  let main_c_3 : IVec S_ 1 := constantI S_ 1 1#1
  let main_v12 : IVec S_ 1 := (fun x v => Host.reduce IntOp.andi x v reducesTo_S500x20000_S_d0_1 h_S_) main_v11 main_c_3
  let main_v13 : IVec S_ 1 := andi main_v8 main_v12
  main_v13
-- ==== Kernel.lean ====
abbrev S256x20000 : Shape := ⟨2, ![256, 20000]⟩
abbrev S500x20000 : Shape := ⟨2, ![500, 20000]⟩
abbrev S20000x256 : Shape := ⟨2, ![20000, 256]⟩
abbrev S1x1 : Shape := ⟨2, ![1, 1]⟩
abbrev S2560x256 : Shape := ⟨2, ![2560, 256]⟩
abbrev S500x2560 : Shape := ⟨2, ![500, 2560]⟩
abbrev S500x256 : Shape := ⟨2, ![500, 256]⟩
abbrev S500x8 : Shape := ⟨2, ![500, 8]⟩
abbrev S2560x8 : Shape := ⟨2, ![2560, 8]⟩
abbrev S500x1 : Shape := ⟨2, ![500, 1]⟩
abbrev S500 : Shape := ⟨1, ![500]⟩
abbrev S1x500x1 : Shape := ⟨3, ![1, 500, 1]⟩
abbrev S1 : Shape := ⟨1, ![1]⟩
abbrev S1x1x1 : Shape := ⟨3, ![1, 1, 1]⟩
abbrev S_ : Shape := ⟨0, ![]⟩

abbrev nBuf : Space → Nat
  | .hbm => 7
  | .vmem => 9
  | .smem => 0
  | _ => 0

abbrev bufTy : (tb : Table) → Fin (tcTables nBuf tb) → BufTy
  | .hbm, ⟨0, _⟩ => ⟨S256x20000, .f32⟩
  | .hbm, ⟨1, _⟩ => ⟨S256x20000, .f32⟩
  | .hbm, ⟨2, _⟩ => ⟨S500x20000, .f32⟩
  | .hbm, ⟨3, _⟩ => ⟨S20000x256, .f32⟩
  | .hbm, ⟨4, _⟩ => ⟨S20000x256, .f32⟩
  | .hbm, ⟨5, _⟩ => ⟨S1x1, .f32⟩
  | .hbm, ⟨6, _⟩ => ⟨S_, .f32⟩
  | .local _ .vmem, ⟨0, _⟩ => ⟨S2560x256, .f32⟩
  | .local _ .vmem, ⟨1, _⟩ => ⟨S2560x256, .f32⟩
  | .local _ .vmem, ⟨2, _⟩ => ⟨S2560x256, .f32⟩
  | .local _ .vmem, ⟨3, _⟩ => ⟨S2560x256, .f32⟩
  | .local _ .vmem, ⟨4, _⟩ => ⟨S500x2560, .f32⟩
  | .local _ .vmem, ⟨5, _⟩ => ⟨S500x2560, .f32⟩
  | .local _ .vmem, ⟨6, _⟩ => ⟨S1x1, .f32⟩
  | .local _ .vmem, ⟨7, _⟩ => ⟨S500x256, .f32⟩
  | .local _ .vmem, ⟨8, _⟩ => ⟨S500x8, .f32⟩
  | _, _ => ⟨S256x20000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v34 : BitVec 1 := Scalar.cmpi .eq arg0 c7_i32
  let v35 : BitVec 32 := Scalar.extui v34
  let c0_i32_18 : BitVec 32 := 0#32
  let v36 : BitVec 1 := Scalar.cmpi .ne v35 c0_i32_18
  v36

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2560x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2560x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S500x2560 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

class Facts₀ : Prop where
  transposes_S256x20000_S20000x256_1_0 : S256x20000.Transposes [1, 0] S20000x256
  inb_S500x256_S500x256_0_0 : ∀ a, (![0, 0] : Fin 2 → Nat) a + S500x256.size a ≤ S500x256.size a
  h_S500x256 : 0 < S500x256.numel
  shapeCasts_S500x256_S500x256 : S500x256.ShapeCasts S500x256
  inb_S500x8_S500x8_0_0 : ∀ a, (![0, 0] : Fin 2 → Nat) a + S500x8.size a ≤ S500x8.size a
  h_S500x8 : 0 < S500x8.numel
  shapeCasts_S500x8_S500x8 : S500x8.ShapeCasts S500x8
  iota_S2560x256_d0_w32 : S2560x256.Iotas .tc 32 [0]
  iota_S500x2560_d1_w32 : S500x2560.Iotas .tc 32 [1]
  inb_S2560x256_S2560x256_0_0 : ∀ a, (![0, 0] : Fin 2 → Nat) a + S2560x256.size a ≤ S2560x256.size a
  h_S2560x256 : 0 < S2560x256.numel
  shapeCasts_S2560x256_S2560x256 : S2560x256.ShapeCasts S2560x256
  inb_S500x2560_S500x2560_0_0 : ∀ a, (![0, 0] : Fin 2 → Nat) a + S500x2560.size a ≤ S500x2560.size a
  h_S500x2560 : 0 < S500x2560.numel
  inb_S500x8_S500x1_0_0 : ∀ a, (![0, 0] : Fin 2 → Nat) a + S500x1.size a ≤ S500x8.size a
  h_S500x1 : 0 < S500x1.numel
  broadcasts_S500x1_S500x256 : S500x1.Broadcasts S500x256
  reduces_S500x256_S500 : S500x256.Reduces [1] S500
  shapeCasts_S500_S500x1 : S500.ShapeCasts S500x1
  natLt_1_32 : 1 < 32
  shapeCasts_S500x1_S1x500x1 : S500x1.ShapeCasts S1x500x1
  reduces_S1x500x1_S1 : S1x500x1.Reduces [1, 2] S1
  shapeCasts_S1_S1x1x1 : S1.ShapeCasts S1x1x1
  inpos_S1x1x1_p0_0_0 : ∀ a, (![0, 0, 0] : Fin 3 → Nat) a < S1x1x1.size a
  inb_S1x1_S1x1_0_0 : ∀ a, (![0, 0] : Fin 2 → Nat) a + S1x1.size a ≤ S1x1.size a
  h_S1x1 : 0 < S1x1.numel
  shapeCasts_S1x1_S_ : S1x1.ShapeCasts S_
  dot_S500x2560_S2560x256_S500x256_1_0_0_1_n_n_wf : DotDims.WF S500x2560 S2560x256 S500x256 [1] [0] [0] [1] [] []
  dot_S500x2560_S2560x8_S500x8_1_0_0_1_n_n_wf : DotDims.WF S500x2560 S2560x8 S500x8 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S2560x256.size a < S20000x256.size a
  hwx0_0 : ∀ i : grid0.Coords, EltTy.bits .f32 = 32 ∨ (Rect.unit (s := S20000x256) (fun a => cc0_transform_0 i a * S2560x256.size a) (fun a => (Pipeline.Clip.of (cc0_transform_0 i a) (S2560x256.size a) (S20000x256.size a)).extent (S2560x256.size a)) fun a => Pipeline.Clip.inb (Pipeline.Clip.ok_of (hstart0_0 i a))).WholeWords (EltTy.packing .f32)
  hwxs0_0 : ∀ i : grid0.Coords, EltTy.bits .f32 = 32 ∨ (Rect.unit (s := S2560x256) (fun _ => 0) (fun a => (Pipeline.Clip.of (cc0_transform_0 i a) (S2560x256.size a) (S20000x256.size a)).extent (S2560x256.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S2560x256.size a < S20000x256.size a
  hwx0_1 : ∀ i : grid0.Coords, EltTy.bits .f32 = 32 ∨ (Rect.unit (s := S20000x256) (fun a => cc0_transform_1 i a * S2560x256.size a) (fun a => (Pipeline.Clip.of (cc0_transform_1 i a) (S2560x256.size a) (S20000x256.size a)).extent (S2560x256.size a)) fun a => Pipeline.Clip.inb (Pipeline.Clip.ok_of (hstart0_1 i a))).WholeWords (EltTy.packing .f32)
  hwxs0_1 : ∀ i : grid0.Coords, EltTy.bits .f32 = 32 ∨ (Rect.unit (s := S2560x256) (fun _ => 0) (fun a => (Pipeline.Clip.of (cc0_transform_1 i a) (S2560x256.size a) (S20000x256.size a)).extent (S2560x256.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S500x2560.size a < S500x20000.size a
  hwx0_2 : ∀ i : grid0.Coords, EltTy.bits .f32 = 32 ∨ (Rect.unit (s := S500x20000) (fun a => cc0_transform_2 i a * S500x2560.size a) (fun a => (Pipeline.Clip.of (cc0_transform_2 i a) (S500x2560.size a) (S500x20000.size a)).extent (S500x2560.size a)) fun a => Pipeline.Clip.inb (Pipeline.Clip.ok_of (hstart0_2 i a))).WholeWords (EltTy.packing .f32)
  hwxs0_2 : ∀ i : grid0.Coords, EltTy.bits .f32 = 32 ∨ (Rect.unit (s := S500x2560) (fun _ => 0) (fun a => (Pipeline.Clip.of (cc0_transform_2 i a) (S500x2560.size a) (S500x20000.size a)).extent (S500x2560.size a)) fun a => (Nat.zero_add _).trans_le (Pipeline.Clip.extent_le (Pipeline.Clip.ok_of (hstart0_2 i a)))).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)

variable [Facts₀]

def dot_S500x2560_S2560x256_S500x256_1_0_0_1_n_n : DotDims S500x2560 S2560x256 S500x256 where
  lhsContracting := [1]
  rhsContracting := [0]
  lhsNonContracting := [0]
  rhsNonContracting := [1]
  lhsBatch := []
  rhsBatch := []
  wf := dot_S500x2560_S2560x256_S500x256_1_0_0_1_n_n_wf
def dot_S500x2560_S2560x8_S500x8_1_0_0_1_n_n : DotDims S500x2560 S2560x8 S500x8 where
  lhsContracting := [1]
  rhsContracting := [0]
  lhsNonContracting := [0]
  rhsNonContracting := [1]
  lhsBatch := []
  rhsBatch := []
  wf := dot_S500x2560_S2560x8_S500x8_1_0_0_1_n_n_wf

abbrev win0_0 : Pipeline.Window sig grid0 :=
  Pipeline.Window.ofSpecClip (Memref.whole main_v0) S2560x256.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_v1) S2560x256.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_arg2) S500x2560.size cc0_transform_2 reads0_2 false false 2 stage0_2 sem0_2
    hrank0 hreads0_2 hstart0_2 nbuf0_2 (Memref.isWhole_whole _) hwx0_2 hwxs0_2 hstage0_2

abbrev win0_3 : Pipeline.Window sig grid0 :=
  Pipeline.Window.ofSpec (Memref.whole main_v2) S1x1.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S256x20000 : Shape := ⟨2, ![256, 20000]⟩
abbrev S500x20000 : Shape := ⟨2, ![500, 20000]⟩
abbrev S_ : Shape := ⟨0, ![]⟩
abbrev S500 : Shape := ⟨1, ![500]⟩
abbrev S20000x500 : Shape := ⟨2, ![20000, 500]⟩
abbrev S256x500 : Shape := ⟨2, ![256, 500]⟩
abbrev S1x500 : Shape := ⟨2, ![1, 500]⟩

abbrev nBuf : Space → Nat
  | .hbm => 44
  | .vmem => 0
  | .smem => 0
  | _ => 0

abbrev bufTy : (tb : Table) → Fin (tcTables nBuf tb) → BufTy
  | .hbm, ⟨0, _⟩ => ⟨S256x20000, .f32⟩
  | .hbm, ⟨1, _⟩ => ⟨S256x20000, .f32⟩
  | .hbm, ⟨2, _⟩ => ⟨S500x20000, .f32⟩
  | .hbm, ⟨3, _⟩ => ⟨S_, .f32⟩
  | .hbm, ⟨4, _⟩ => ⟨S500, .f32⟩
  | .hbm, ⟨5, _⟩ => ⟨S_, .f32⟩
  | .hbm, ⟨6, _⟩ => ⟨S500, .f32⟩
  | .hbm, ⟨7, _⟩ => ⟨S500, .i1⟩
  | .hbm, ⟨8, _⟩ => ⟨S_, .f32⟩
  | .hbm, ⟨9, _⟩ => ⟨S500, .f32⟩
  | .hbm, ⟨10, _⟩ => ⟨S500, .f32⟩
  | .hbm, ⟨11, _⟩ => ⟨S20000x500, .f32⟩
  | .hbm, ⟨12, _⟩ => ⟨S256x500, .f32⟩
  | .hbm, ⟨13, _⟩ => ⟨S1x500, .f32⟩
  | .hbm, ⟨14, _⟩ => ⟨S256x500, .f32⟩
  | .hbm, ⟨15, _⟩ => ⟨S256x500, .f32⟩
  | .hbm, ⟨16, _⟩ => ⟨S20000x500, .f32⟩
  | .hbm, ⟨17, _⟩ => ⟨S256x500, .f32⟩
  | .hbm, ⟨18, _⟩ => ⟨S1x500, .f32⟩
  | .hbm, ⟨19, _⟩ => ⟨S256x500, .f32⟩
  | .hbm, ⟨20, _⟩ => ⟨S256x500, .f32⟩
  | .hbm, ⟨21, _⟩ => ⟨S256x500, .f32⟩
  | .hbm, ⟨22, _⟩ => ⟨S256x500, .f32⟩
  | .hbm, ⟨23, _⟩ => ⟨S_, .f32⟩
  | .hbm, ⟨24, _⟩ => ⟨S500, .f32⟩
  | .hbm, ⟨25, _⟩ => ⟨S_, .f32⟩
  | .hbm, ⟨26, _⟩ => ⟨S500, .f32⟩
  | .hbm, ⟨27, _⟩ => ⟨S500, .f32⟩
  | .hbm, ⟨28, _⟩ => ⟨S500, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S500, .f32⟩
  | .hbm, ⟨34, _⟩ => ⟨S500, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .i1⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | _, _ => ⟨S256x20000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_cst_5 : Ref sig .tc := ⟨.hbm, 31, rfl⟩
abbrev main_call0_v0 : Ref sig .tc := ⟨.hbm, 32, rfl⟩
abbrev main_call0_v1 : Ref sig .tc := ⟨.hbm, 33, rfl⟩
abbrev main_v22 : Ref sig .tc := ⟨.hbm, 34, rfl⟩
abbrev main_cst_6 : Ref sig .tc := ⟨.hbm, 35, rfl⟩
abbrev main_v23 : Ref sig .tc := ⟨.hbm, 36, rfl⟩
abbrev main_cst_7 : Ref sig .tc := ⟨.hbm, 37, rfl⟩
abbrev main_v24 : Ref sig .tc := ⟨.hbm, 38, rfl⟩
abbrev main_cst_8 : Ref sig .tc := ⟨.hbm, 39, rfl⟩
abbrev main_v25 : Ref sig .tc := ⟨.hbm, 40, rfl⟩
abbrev main_v26 : Ref sig .tc := ⟨.hbm, 41, rfl⟩
abbrev main_cst_9 : Ref sig .tc := ⟨.hbm, 42, rfl⟩
abbrev main_v27 : Ref sig .tc := ⟨.hbm, 43, rfl⟩

abbrev nD : Nat := 1
abbrev τ : Topo := Topo.v7x

variable {F : FTy → Type} [FloatOps F]

class Facts₀ : Prop where
  reducesTo_S500x20000_S500_d1 : S500x20000.ReducesTo [1] S500
  h_S_ : 0 < S_.numel
  bcast_S_S500 : S_.BroadcastsInDim S500 (![] : Fin 0 → Fin S500.rank)
  transposes_S500x20000_S20000x500_1_0 : S500x20000.Transposes [1, 0] S20000x500
  bcast_S500_S1x500_1 : S500.BroadcastsInDim S1x500 (![1] : Fin 1 → Fin S1x500.rank)
  bcast_S1x500_S256x500_0_1 : S1x500.BroadcastsInDim S256x500 (![0, 1] : Fin 2 → Fin S256x500.rank)
  reducesTo_S256x500_S500_d0 : S256x500.ReducesTo [0] S500
  reducesTo_S500_S_d0 : S500.ReducesTo [0] S_
  dot_S256x20000_S20000x500_S256x500_1_0_0_1_n_n_wf : DotDims.WF S256x20000 S20000x500 S256x500 [1] [0] [0] [1] [] []

variable [Facts₀]

def dot_S256x20000_S20000x500_S256x500_1_0_0_1_n_n : DotDims S256x20000 S20000x500 S256x500 where
  lhsContracting := [1]
  rhsContracting := [0]
  lhsNonContracting := [0]
  rhsNonContracting := [1]
  lhsBatch := []
  rhsBatch := []
  wf := dot_S256x20000_S20000x500_S256x500_1_0_0_1_n_n_wf

class Facts : Prop extends Facts₀ where

variable [Facts]
-- ==== Proof.K.Runs.lean ====
/-
  What the three runs of the kernel body share: the two branch conditions of the body decided over the grid (the
  first point resets the two accumulators, the last point computes the loss), where the result's window is idle, the
  staging and scratch buffers as memrefs, and the region's invariant with the two scratch buffers spelled out.
-/
import proofs.«171851_g66838281060554_cont_sun_c4_581_21_alg».proof.Proof.Gen.Kernel.Launch
import proofs.«171851_g66838281060554_cont_sun_c4_581_21_alg».proof.Proof.Gen.Kernel.Skeleton
import proofs.«171851_g66838281060554_cont_sun_c4_581_21_alg».proof.Proof.Gen.Kernel.Points
import proofs.«171851_g66838281060554_cont_sun_c4_581_21_alg».proof.Proof.Gen.Kernel.Frame
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two branch conditions -/

/-- "This is the first grid point": the condition under which the body resets the two accumulators. -/
abbrev cond0_0 (i : grid0.Coords) : Prop := (Scalar.cmpi .ne (Scalar.extui (Scalar.cmpi .eq (BitVec.ofNat 32 (i 0).val) 0#32)) 0#32) = 1#1
/-- It holds at point 0 only. -/
theorem hcond0_0 : ∀ t : Fin cfg0.N, cond0_0 (grid0.coords t) ↔ t.val % 8 = 0 :=
  (by decide +kernel : ∀ t : Fin grid0.N, cond0_0 (grid0.coords t) ↔ t.val % 8 = 0)

/-- "This is the last grid point": the condition under which the body computes the loss and stores it. -/
abbrev cond0_1 (i : grid0.Coords) : Prop := k0_cond2 i = 1#1
/-- It holds at point 7 only. -/
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

/-- The three inputs are never idle. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Away from the last point the body stores nothing into the result's window, and the pipeline does not write it back. -/
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
/-- At the last point the body stores the loss into it. -/
theorem liveAt0_3 : ∀ t : Fin cfg0.N, cond0_1 (grid0.coords t) → cfg0.idle 3 (grid0.coords t) = false := by decide +kernel

/-! ## The buffers the body is called with -/

/-- One staging buffer of the result's window, through which its contents are stated. -/
abbrev VO0_3 : View sig .tc .vmem S1x1 .f32 := (Memref.whole cc0_stg3_0 : Memref sig .tc .vmem S1x1 .f32).view
/-- Each window's current staging memref at point `t`, and its wholeness. -/
abbrev ms0_0 (t : Fin cfg0.N) : Memref sig .tc .vmem S2560x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2560x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S500x2560 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1 .f32 := win0_3.stage (cfg0.slots t 3)
abbrev hs0_3 (t : Fin cfg0.N) : (ms0_3 t).IsWhole := hstage0_3 ((cfg0.slots t 3).cast nbuf0_3)
/-- The two accumulators: whole scoped buffers of the kernel's own. -/
abbrev scM0_0 : Memref sig .tc .vmem S500x256 .f32 := Memref.whole cc0_scratch0
abbrev scM0_1 : Memref sig .tc .vmem S500x8 .f32 := Memref.whole cc0_scratch1
abbrev VS0_0 : View sig .tc .vmem S500x256 .f32 := scM0_0.view
abbrev VS0_1 : View sig .tc .vmem S500x8 .f32 := scM0_1.view

/-- The region's invariant with the two accumulators as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Kernel.Hand

end
-- ==== Proof.K.RunB.lean ====
/-
  The kernel body at a middle grid point (neither the first nor the last): on whole buffers holding the two
  gene-major blocks, the membership block and the two accumulators, it runs to the end leaving the inputs as they
  were, the result's buffer untouched, and each accumulator overwritten whole by one store; the stored pieces are
  the witness the symbolic run finds.
-/
import proofs.«171851_g66838281060554_cont_sun_c4_581_21_alg».proof.Proof.K.Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a middle point: the pieces its stores leave in the two accumulators, with the run. -/
noncomputable def kernelRun0_B (c : Dev nD) (i : grid0.Coords) (arg1 : Memref sig .tc .vmem S2560x256 .f32) (harg1 : arg1.IsWhole) (arg2 : Memref sig .tc .vmem S2560x256 .f32) (harg2 : arg2.IsWhole) (arg3 : Memref sig .tc .vmem S500x2560 .f32) (harg3 : arg3.IsWhole) (arg4 : Memref sig .tc .vmem S1x1 .f32) (harg4 : arg4.IsWhole) (arg5 : Memref sig .tc .vmem S500x256 .f32) (harg5 : arg5.IsWhole) (arg6 : Memref sig .tc .vmem S500x8 .f32) (harg6 : arg6.IsWhole) (hc0 : ¬cond0_0 i) (hc1 : ¬cond0_1 i)
    (x0 x1 : Vec F S2560x256 .f32) (x2 : Vec F S500x2560 .f32) (xs0 : Vec F S500x256 .f32) (xs1 : Vec F S500x8 .f32) :
    Σ' (LS0 : List (View.Piece (Elt F) S500x256 .f32)), { LS1 : List (View.Piece (Elt F) S500x8 .f32) //
      ∀ (xi3 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xi3
            ∗ owns (c : Thread nD τ) arg5 fullShare xs0 ∗ owns (c : Thread nD τ) arg6 fullShare xs1
            ∗ (iprop(owns (c : Thread nD τ) arg1 fullShare x0 ∗ owns (c : Thread nD τ) arg2 fullShare x1 ∗ owns (c : Thread nD τ) arg3 fullShare x2 ∗ owns (c : Thread nD τ) arg4 fullShare xi3
                ∗ (∃ f, arg5.view.loc (c : Thread nD τ) ↦[arg5.view.set]{fullShare} arg5.view.writes (Elt F) f LS0)
                ∗ (∃ f, arg6.view.loc (c : Thread nD τ) ↦[arg6.view.set]{fullShare} arg6.view.writes (Elt F) f LS1)) -∗ K ⟨⟩))
          ⊢ wp frame (wpE (defs₀ (F := F)) Variants.none c none) E (cc0__pcl_body i arg1 harg1 arg2 harg2 arg3 harg3 arg4 harg4 arg5 harg5 arg6 harg6) K } := by
  refine ⟨?_, ?_, fun xi3 E K => ?run⟩
  case run =>
    simp only [cc0__pcl_body_eq_skeleton]; unfold cc0__pcl_body_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg1.eq_unread hf0; obtain rfl := harg2.eq_unread hf1; obtain rfl := harg3.eq_unread hf2
    obtain rfl := harg4.eq_unread hf3; obtain rfl := harg5.eq_unread hfs0; obtain rfl := harg6.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [HS0]; · iexists _; iexact HS0
    iexists _; iexact HS1

end Cert.Kernel.Hand

end
-- ==== Proof.K.RunA.lean ====
/-
  The kernel body at the first grid point: it first overwrites both accumulators with zeros, so it needs them at no
  particular contents; then, as at every point, it overwrites each whole by one store. The result's buffer is untouched.
-/
import proofs.«171851_g66838281060554_cont_sun_c4_581_21_alg».proof.Proof.K.RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at the first point: the pieces its stores leave in the two accumulators, with the run. -/
noncomputable def kernelRun0_A (c : Dev nD) (i : grid0.Coords) (arg1 : Memref sig .tc .vmem S2560x256 .f32) (harg1 : arg1.IsWhole) (arg2 : Memref sig .tc .vmem S2560x256 .f32) (harg2 : arg2.IsWhole) (arg3 : Memref sig .tc .vmem S500x2560 .f32) (harg3 : arg3.IsWhole) (arg4 : Memref sig .tc .vmem S1x1 .f32) (harg4 : arg4.IsWhole) (arg5 : Memref sig .tc .vmem S500x256 .f32) (harg5 : arg5.IsWhole) (arg6 : Memref sig .tc .vmem S500x8 .f32) (harg6 : arg6.IsWhole) (hc0 : cond0_0 i) (hc1 : ¬cond0_1 i)
    (x0 x1 : Vec F S2560x256 .f32) (x2 : Vec F S500x2560 .f32) :
    Σ' (LS0 : List (View.Piece (Elt F) S500x256 .f32)), { LS1 : List (View.Piece (Elt F) S500x8 .f32) //
      ∀ (xi3 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xi3
            ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare xi3
                ∗ (∃ f, arg5.view.loc (c : Thread nD τ) ↦[arg5.view.set]{fullShare} arg5.view.writes (Elt F) f LS0)
                ∗ (∃ f, arg6.view.loc (c : Thread nD τ) ↦[arg6.view.set]{fullShare} arg6.view.writes (Elt F) f LS1)) -∗ K ⟨⟩))
          ⊢ wp frame (wpE (defs₀ (F := F)) Variants.none c none) E (cc0__pcl_body i arg1 harg1 arg2 harg2 arg3 harg3 arg4 harg4 arg5 harg5 arg6 harg6) K } := by
  refine ⟨?_, ?_, fun xi3 E K => ?run⟩
  case run =>
    simp only [cc0__pcl_body_eq_skeleton]; unfold cc0__pcl_body_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
    obtain rfl := harg1.eq_unread hf0; obtain rfl := harg2.eq_unread hf1; obtain rfl := harg3.eq_unread hf2
    obtain rfl := harg4.eq_unread hf3
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [HS0]; · iexists _; iexact HS0
    iexists _; iexact HS1

end Cert.Kernel.Hand

end
-- ==== Proof.K.RunC.lean ====
/-
  The kernel body at the last grid point: after the two accumulating stores it loads the first column of the sizes
  and the weighted sums back, computes the loss, and stores it into the result's buffer, which it therefore needs at
  no particular contents.
-/
import proofs.«171851_g66838281060554_cont_sun_c4_581_21_alg».proof.Proof.K.RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at the last point: the pieces its stores leave in the result's buffer and the two accumulators, with the run. -/
noncomputable def kernelRun0_C (c : Dev nD) (i : grid0.Coords) (arg1 : Memref sig .tc .vmem S2560x256 .f32) (harg1 : arg1.IsWhole) (arg2 : Memref sig .tc .vmem S2560x256 .f32) (harg2 : arg2.IsWhole) (arg3 : Memref sig .tc .vmem S500x2560 .f32) (harg3 : arg3.IsWhole) (arg4 : Memref sig .tc .vmem S1x1 .f32) (harg4 : arg4.IsWhole) (arg5 : Memref sig .tc .vmem S500x256 .f32) (harg5 : arg5.IsWhole) (arg6 : Memref sig .tc .vmem S500x8 .f32) (harg6 : arg6.IsWhole) (hc0 : ¬cond0_0 i) (hc1 : cond0_1 i)
    (x0 x1 : Vec F S2560x256 .f32) (x2 : Vec F S500x2560 .f32) (xs0 : Vec F S500x256 .f32) (xs1 : Vec F S500x8 .f32) :
    Σ' (L3 : List (View.Piece (Elt F) S1x1 .f32)) (LS0 : List (View.Piece (Elt F) S500x256 .f32)), { LS1 : List (View.Piece (Elt F) S500x8 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d)
            ∗ owns (c : Thread nD τ) arg5 fullShare xs0 ∗ owns (c : Thread nD τ) arg6 fullShare xs1
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L3)
                ∗ (∃ f, arg5.view.loc (c : Thread nD τ) ↦[arg5.view.set]{fullShare} arg5.view.writes (Elt F) f LS0)
                ∗ (∃ f, arg6.view.loc (c : Thread nD τ) ↦[arg6.view.set]{fullShare} arg6.view.writes (Elt F) f LS1)) -∗ K ⟨⟩))
          ⊢ wp frame (wpE (defs₀ (F := F)) Variants.none c none) E (cc0__pcl_body i arg1 harg1 arg2 harg2 arg3 harg3 arg4 harg4 arg5 harg5 arg6 harg6) K } := by
  refine ⟨?_, ?_, ?_, fun E K => ?run⟩
  case run =>
    simp only [cc0__pcl_body_eq_skeleton]; unfold cc0__pcl_body_skel
    simp only [k0_part1_eq_skeleton]; unfold k0_part1_skel
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, Hk⟩
    obtain rfl := harg1.eq_unread hf0; obtain rfl := harg2.eq_unread hf1; obtain rfl := harg3.eq_unread hf2
    obtain rfl := harg5.eq_unread hfs0; obtain rfl := harg6.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [HS0]; · iexists _; iexact HS0
    iexists _; iexact HS1

end Cert.Kernel.Hand

end
-- ==== Proof.K.Pieces.lean ====
/-
  What each run's stores leave, read back: every store of the body overwrites its whole buffer, so each accumulator
  ends at the last stored value — the new weighted sums and the new sizes as functions of the three blocks and of what
  the accumulators held (zeros at the first point) — and at the last point the result's buffer ends at the loss computed
  from the first column of the new sizes and the new weighted sums.
-/
import proofs.«171851_g66838281060554_cont_sun_c4_581_21_alg».proof.Proof.K.RunC
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The pieces cover the buffers -/

theorem scover0_A_0 (c : Dev nD) (i : grid0.Coords) (arg1 : Memref sig .tc .vmem S2560x256 .f32) (harg1 : arg1.IsWhole) (arg2 : Memref sig .tc .vmem S2560x256 .f32) (harg2 : arg2.IsWhole) (arg3 : Memref sig .tc .vmem S500x2560 .f32) (harg3 : arg3.IsWhole) (arg4 : Memref sig .tc .vmem S1x1 .f32) (harg4 : arg4.IsWhole) (arg5 : Memref sig .tc .vmem S500x256 .f32) (harg5 : arg5.IsWhole) (arg6 : Memref sig .tc .vmem S500x8 .f32) (harg6 : arg6.IsWhole) (hc0 : cond0_0 i) (hc1 : ¬cond0_1 i)
    (x0 x1 : Vec F S2560x256 .f32) (x2 : Vec F S500x2560 .f32) (y : S500x256.Idx) :
    ∃ pc ∈ (kernelRun0_A c i arg1 harg1 arg2 harg2 arg3 harg3 arg4 harg4 arg5 harg5 arg6 harg6 hc0 hc1 x0 x1 x2).1, y ∈ pc.1.set :=
  View.cover_of_tiledL (kernelRun0_A c i arg1 harg1 arg2 harg2 arg3 harg3 arg4 harg4 arg5 harg5 arg6 harg6 hc0 hc1 x0 x1 x2).1 S500x256.size (by sl_kernel_rfl) y
theorem scover0_A_1 (c : Dev nD) (i : grid0.Coords) (arg1 : Memref sig .tc .vmem S2560x256 .f32) (harg1 : arg1.IsWhole) (arg2 : Memref sig .tc .vmem S2560x256 .f32) (harg2 : arg2.IsWhole) (arg3 : Memref sig .tc .vmem S500x2560 .f32) (harg3 : arg3.IsWhole) (arg4 : Memref sig .tc .vmem S1x1 .f32) (harg4 : arg4.IsWhole) (arg5 : Memref sig .tc .vmem S500x256 .f32) (harg5 : arg5.IsWhole) (arg6 : Memref sig .tc .vmem S500x8 .f32) (harg6 : arg6.IsWhole) (hc0 : cond0_0 i) (hc1 : ¬cond0_1 i)
    (x0 x1 : Vec F S2560x256 .f32) (x2 : Vec F S500x2560 .f32) (y : S500x8.Idx) :
    ∃ pc ∈ (kernelRun0_A c i arg1 harg1 arg2 harg2 arg3 harg3 arg4 harg4 arg5 harg5 arg6 harg6 hc0 hc1 x0 x1 x2).2.1, y ∈ pc.1.set :=
  View.cover_of_tiledL (kernelRun0_A c i arg1 harg1 arg2 harg2 arg3 harg3 arg4 harg4 arg5 harg5 arg6 harg6 hc0 hc1 x0 x1 x2).2.1 S500x8.size (by sl_kernel_rfl) y
theorem scover0_B_0 (c : Dev nD) (i : grid0.Coords) (arg1 : Memref sig .tc .vmem S2560x256 .f32) (harg1 : arg1.IsWhole) (arg2 : Memref sig .tc .vmem S2560x256 .f32) (harg2 : arg2.IsWhole) (arg3 : Memref sig .tc .vmem S500x2560 .f32) (harg3 : arg3.IsWhole) (arg4 : Memref sig .tc .vmem S1x1 .f32) (harg4 : arg4.IsWhole) (arg5 : Memref sig .tc .vmem S500x256 .f32) (harg5 : arg5.IsWhole) (arg6 : Memref sig .tc .vmem S500x8 .f32) (harg6 : arg6.IsWhole) (hc0 : ¬cond0_0 i) (hc1 : ¬cond0_1 i)
    (x0 x1 : Vec F S2560x256 .f32) (x2 : Vec F S500x2560 .f32) (xs0 : Vec F S500x256 .f32) (xs1 : Vec F S500x8 .f32) (y : S500x256.Idx) :
    ∃ pc ∈ (kernelRun0_B c i arg1 harg1 arg2 harg2 arg3 harg3 arg4 harg4 arg5 harg5 arg6 harg6 hc0 hc1 x0 x1 x2 xs0 xs1).1, y ∈ pc.1.set :=
  View.cover_of_tiledL (kernelRun0_B c i arg1 harg1 arg2 harg2 arg3 harg3 arg4 harg4 arg5 harg5 arg6 harg6 hc0 hc1 x0 x1 x2 xs0 xs1).1 S500x256.size (by sl_kernel_rfl) y
theorem scover0_B_1 (c : Dev nD) (i : grid0.Coords) (arg1 : Memref sig .tc .vmem S2560x256 .f32) (harg1 : arg1.IsWhole) (arg2 : Memref sig .tc .vmem S2560x256 .f32) (harg2 : arg2.IsWhole) (arg3 : Memref sig .tc .vmem S500x2560 .f32) (harg3 : arg3.IsWhole) (arg4 : Memref sig .tc .vmem S1x1 .f32) (harg4 : arg4.IsWhole) (arg5 : Memref sig .tc .vmem S500x256 .f32) (harg5 : arg5.IsWhole) (arg6 : Memref sig .tc .vmem S500x8 .f32) (harg6 : arg6.IsWhole) (hc0 : ¬cond0_0 i) (hc1 : ¬cond0_1 i)
    (x0 x1 : Vec F S2560x256 .f32) (x2 : Vec F S500x2560 .f32) (xs0 : Vec F S500x256 .f32) (xs1 : Vec F S500x8 .f32) (y : S500x8.Idx) :
    ∃ pc ∈ (kernelRun0_B c i arg1 harg1 arg2 harg2 arg3 harg3 arg4 harg4 arg5 harg5 arg6 harg6 hc0 hc1 x0 x1 x2 xs0 xs1).2.1, y ∈ pc.1.set :=
  View.cover_of_tiledL (kernelRun0_B c i arg1 harg1 arg2 harg2 arg3 harg3 arg4 harg4 arg5 harg5 arg6 harg6 hc0 hc1 x0 x1 x2 xs0 xs1).2.1 S500x8.size (by sl_kernel_rfl) y
theorem cover0_C_3 (c : Dev nD) (i : grid0.Coords) (arg1 : Memref sig .tc .vmem S2560x256 .f32) (harg1 : arg1.IsWhole) (arg2 : Memref sig .tc .vmem S2560x256 .f32) (harg2 : arg2.IsWhole) (arg3 : Memref sig .tc .vmem S500x2560 .f32) (harg3 : arg3.IsWhole) (arg4 : Memref sig .tc .vmem S1x1 .f32) (harg4 : arg4.IsWhole) (arg5 : Memref sig .tc .vmem S500x256 .f32) (harg5 : arg5.IsWhole) (arg6 : Memref sig .tc .vmem S500x8 .f32) (harg6 : arg6.IsWhole) (hc0 : ¬cond0_0 i) (hc1 : cond0_1 i)
    (x0 x1 : Vec F S2560x256 .f32) (x2 : Vec F S500x2560 .f32) (xs0 : Vec F S500x256 .f32) (xs1 : Vec F S500x8 .f32) (y : S1x1.Idx) :
    ∃ pc ∈ (kernelRun0_C c i arg1 harg1 arg2 harg2 arg3 harg3 arg4 harg4 arg5 harg5 arg6 harg6 hc0 hc1 x0 x1 x2 xs0 xs1).1, y ∈ pc.1.set :=
  View.cover_of_tiledL (kernelRun0_C c i arg1 harg1 arg2 harg2 arg3 harg3 arg4 harg4 arg5 harg5 arg6 harg6 hc0 hc1 x0 x1 x2 xs0 xs1).1 S1x1.size (by sl_kernel_rfl) y
theorem scover0_C_0 (c : Dev nD) (i : grid0.Coords) (arg1 : Memref sig .tc .vmem S2560x256 .f32) (harg1 : arg1.IsWhole) (arg2 : Memref sig .tc .vmem S2560x256 .f32) (harg2 : arg2.IsWhole) (arg3 : Memref sig .tc .vmem S500x2560 .f32) (harg3 : arg3.IsWhole) (arg4 : Memref sig .tc .vmem S1x1 .f32) (harg4 : arg4.IsWhole) (arg5 : Memref sig .tc .vmem S500x256 .f32) (harg5 : arg5.IsWhole) (arg6 : Memref sig .tc .vmem S500x8 .f32) (harg6 : arg6.IsWhole) (hc0 : ¬cond0_0 i) (hc1 : cond0_1 i)
    (x0 x1 : Vec F S2560x256 .f32) (x2 : Vec F S500x2560 .f32) (xs0 : Vec F S500x256 .f32) (xs1 : Vec F S500x8 .f32) (y : S500x256.Idx) :
    ∃ pc ∈ (kernelRun0_C c i arg1 harg1 arg2 harg2 arg3 harg3 arg4 harg4 arg5 harg5 arg6 harg6 hc0 hc1 x0 x1 x2 xs0 xs1).2.1, y ∈ pc.1.set :=
  View.cover_of_tiledL (kernelRun0_C c i arg1 harg1 arg2 harg2 arg3 harg3 arg4 harg4 arg5 harg5 arg6 harg6 hc0 hc1 x0 x1 x2 xs0 xs1).2.1 S500x256.size (by sl_kernel_rfl) y
theorem scover0_C_1 (c : Dev nD) (i : grid0.Coords) (arg1 : Memref sig .tc .vmem S2560x256 .f32) (harg1 : arg1.IsWhole) (arg2 : Memref sig .tc .vmem S2560x256 .f32) (harg2 : arg2.IsWhole) (arg3 : Memref sig .tc .vmem S500x2560 .f32) (harg3 : arg3.IsWhole) (arg4 : Memref sig .tc .vmem S1x1 .f32) (harg4 : arg4.IsWhole) (arg5 : Memref sig .tc .vmem S500x256 .f32) (harg5 : arg5.IsWhole) (arg6 : Memref sig .tc .vmem S500x8 .f32) (harg6 : arg6.IsWhole) (hc0 : ¬cond0_0 i) (hc1 : cond0_1 i)
    (x0 x1 : Vec F S2560x256 .f32) (x2 : Vec F S500x2560 .f32) (xs0 : Vec F S500x256 .f32) (xs1 : Vec F S500x8 .f32) (y : S500x8.Idx) :
    ∃ pc ∈ (kernelRun0_C c i arg1 harg1 arg2 harg2 arg3 harg3 arg4 harg4 arg5 harg5 arg6 harg6 hc0 hc1 x0 x1 x2 xs0 xs1).2.2.1, y ∈ pc.1.set :=
  View.cover_of_tiledL (kernelRun0_C c i arg1 harg1 arg2 harg2 arg3 harg3 arg4 harg4 arg5 harg5 arg6 harg6 hc0 hc1 x0 x1 x2 xs0 xs1).2.2.1 S500x8.size (by sl_kernel_rfl) y

/-! ## What the stores leave, read back -/

/-- The first column of a [500, 8] array, as the last point's load reads it. -/
def col0 (X : Vec F S500x8 .f32) : Vec F S500x1 .f32 :=
  View.ld X (Rect.unit (s := S500x8) ![0, 0] S500x1.size inb_S500x8_S500x1_0_0)

theorem zz : (![0, 0] : Fin 2 → Nat) = fun _ => 0 := funext fun a => by fin_cases a <;> rfl

/-- One store through the whole buffer covers it. -/
theorem cover_whole {S : Shape} {e : EltTy} {off : Fin S.rank → Nat} (h : off = fun _ => 0)
    (inb : ∀ a, off a + S.size a ≤ S.size a) (w : S.Idx → Elt F e) :
    ∀ y : S.Idx, ∃ p ∈ [(⟨Rect.unit off S.size inb, w⟩ : View.Piece (Elt F) S e)], y ∈ p.1.set := by
  subst h; intro y
  exact ⟨_, List.mem_singleton_self _, by show y ∈ (Rect.whole S).set; rw [Rect.set_whole]; exact Finset.mem_univ y⟩

/-- A load through any rectangle of what one store through the whole buffer left reads the stored value there. -/
theorem readCov_sub_unit_zero {sig' : RefSig} {κ : Kind} {sp : Space} {S : Shape} {e : EltTy} (v : View sig' κ sp S e)
    {off : Fin S.rank → Nat} (h : off = fun _ => 0) (inb : ∀ a, off a + S.size a ≤ S.size a) (w : S.Idx → Elt F e) (r : Rect S) :
    v.readCov [(⟨Rect.unit off S.size inb, w⟩ : View.Piece (Elt F) S e)] r.toLoadRect = View.ld w r := by
  rw [View.readCov_eq_canon_ld _ _ _ (cover_whole h inb w), View.canon_unit_zero h]

set_option maxHeartbeats 2000000 in
/-- The first point leaves the weighted sums at the update of zeros, -/
theorem sread0_A_0 (c : Dev nD) (i : grid0.Coords) (arg1 : Memref sig .tc .vmem S2560x256 .f32) (harg1 : arg1.IsWhole) (arg2 : Memref sig .tc .vmem S2560x256 .f32) (harg2 : arg2.IsWhole) (arg3 : Memref sig .tc .vmem S500x2560 .f32) (harg3 : arg3.IsWhole) (arg4 : Memref sig .tc .vmem S1x1 .f32) (harg4 : arg4.IsWhole) (arg5 : Memref sig .tc .vmem S500x256 .f32) (harg5 : arg5.IsWhole) (arg6 : Memref sig .tc .vmem S500x8 .f32) (harg6 : arg6.IsWhole) (hc0 : cond0_0 i) (hc1 : ¬cond0_1 i)
    (x0 x1 : Vec F S2560x256 .f32) (x2 : Vec F S500x2560 .f32) :
    View.canon (kernelRun0_A c i arg1 harg1 arg2 harg2 arg3 harg3 arg4 harg4 arg5 harg5 arg6 harg6 hc0 hc1 x0 x1 x2).1 = k0_pay5 i x1 x0 x2 (k0_pay2 (F := F)) := by
  unfold kernelRun0_A; dsimp only; sl_unfold_words
  refine (View.canon_cons_unit_zero (S := S500x256) zz _ _ _).trans ?_
  simp only [View.readAt_eq_ld, harg1.read_unread, harg2.read_unread, harg3.read_unread, harg5.read_unread, harg6.read_unread,
    View.ld_unit_zero (S := S2560x256) zz, View.ld_unit_zero (S := S500x2560) zz, View.ld_unit_zero (S := S500x256) zz, View.ld_unit_zero (S := S500x8) zz,
    View.readCov_unit_zero (S := S500x256) _ zz, View.readCov_unit_zero (S := S500x8) _ zz]
set_option maxHeartbeats 2000000 in
/-- and the sizes at the update of zeros. -/
theorem sread0_A_1 (c : Dev nD) (i : grid0.Coords) (arg1 : Memref sig .tc .vmem S2560x256 .f32) (harg1 : arg1.IsWhole) (arg2 : Memref sig .tc .vmem S2560x256 .f32) (harg2 : arg2.IsWhole) (arg3 : Memref sig .tc .vmem S500x2560 .f32) (harg3 : arg3.IsWhole) (arg4 : Memref sig .tc .vmem S1x1 .f32) (harg4 : arg4.IsWhole) (arg5 : Memref sig .tc .vmem S500x256 .f32) (harg5 : arg5.IsWhole) (arg6 : Memref sig .tc .vmem S500x8 .f32) (harg6 : arg6.IsWhole) (hc0 : cond0_0 i) (hc1 : ¬cond0_1 i)
    (x0 x1 : Vec F S2560x256 .f32) (x2 : Vec F S500x2560 .f32) :
    View.canon (kernelRun0_A c i arg1 harg1 arg2 harg2 arg3 harg3 arg4 harg4 arg5 harg5 arg6 harg6 hc0 hc1 x0 x1 x2).2.1 = k0_pay6 i x2 (k0_pay3 (F := F)) := by
  unfold kernelRun0_A; dsimp only; sl_unfold_words
  refine (View.canon_cons_unit_zero (S := S500x8) zz _ _ _).trans ?_
  simp only [View.readAt_eq_ld, harg1.read_unread, harg2.read_unread, harg3.read_unread, harg5.read_unread, harg6.read_unread,
    View.ld_unit_zero (S := S2560x256) zz, View.ld_unit_zero (S := S500x2560) zz, View.ld_unit_zero (S := S500x256) zz, View.ld_unit_zero (S := S500x8) zz,
    View.readCov_unit_zero (S := S500x256) _ zz, View.readCov_unit_zero (S := S500x8) _ zz]
set_option maxHeartbeats 2000000 in
/-- A middle point leaves the weighted sums at the update of what they held, -/
theorem sread0_B_0 (c : Dev nD) (i : grid0.Coords) (arg1 : Memref sig .tc .vmem S2560x256 .f32) (harg1 : arg1.IsWhole) (arg2 : Memref sig .tc .vmem S2560x256 .f32) (harg2 : arg2.IsWhole) (arg3 : Memref sig .tc .vmem S500x2560 .f32) (harg3 : arg3.IsWhole) (arg4 : Memref sig .tc .vmem S1x1 .f32) (harg4 : arg4.IsWhole) (arg5 : Memref sig .tc .vmem S500x256 .f32) (harg5 : arg5.IsWhole) (arg6 : Memref sig .tc .vmem S500x8 .f32) (harg6 : arg6.IsWhole) (hc0 : ¬cond0_0 i) (hc1 : ¬cond0_1 i)
    (x0 x1 : Vec F S2560x256 .f32) (x2 : Vec F S500x2560 .f32) (xs0 : Vec F S500x256 .f32) (xs1 : Vec F S500x8 .f32) :
    View.canon (kernelRun0_B c i arg1 harg1 arg2 harg2 arg3 harg3 arg4 harg4 arg5 harg5 arg6 harg6 hc0 hc1 x0 x1 x2 xs0 xs1).1 = k0_pay5 i x1 x0 x2 xs0 := by
  unfold kernelRun0_B; dsimp only; sl_unfold_words
  refine (View.canon_cons_unit_zero (S := S500x256) zz _ _ _).trans ?_
  simp only [View.readAt_eq_ld, harg1.read_unread, harg2.read_unread, harg3.read_unread, harg5.read_unread, harg6.read_unread,
    View.ld_unit_zero (S := S2560x256) zz, View.ld_unit_zero (S := S500x2560) zz, View.ld_unit_zero (S := S500x256) zz, View.ld_unit_zero (S := S500x8) zz,
    View.readCov_unit_zero (S := S500x256) _ zz, View.readCov_unit_zero (S := S500x8) _ zz]
set_option maxHeartbeats 2000000 in
/-- and the sizes likewise. -/
theorem sread0_B_1 (c : Dev nD) (i : grid0.Coords) (arg1 : Memref sig .tc .vmem S2560x256 .f32) (harg1 : arg1.IsWhole) (arg2 : Memref sig .tc .vmem S2560x256 .f32) (harg2 : arg2.IsWhole) (arg3 : Memref sig .tc .vmem S500x2560 .f32) (harg3 : arg3.IsWhole) (arg4 : Memref sig .tc .vmem S1x1 .f32) (harg4 : arg4.IsWhole) (arg5 : Memref sig .tc .vmem S500x256 .f32) (harg5 : arg5.IsWhole) (arg6 : Memref sig .tc .vmem S500x8 .f32) (harg6 : arg6.IsWhole) (hc0 : ¬cond0_0 i) (hc1 : ¬cond0_1 i)
    (x0 x1 : Vec F S2560x256 .f32) (x2 : Vec F S500x2560 .f32) (xs0 : Vec F S500x256 .f32) (xs1 : Vec F S500x8 .f32) :
    View.canon (kernelRun0_B c i arg1 harg1 arg2 harg2 arg3 harg3 arg4 harg4 arg5 harg5 arg6 harg6 hc0 hc1 x0 x1 x2 xs0 xs1).2.1 = k0_pay6 i x2 xs1 := by
  unfold kernelRun0_B; dsimp only; sl_unfold_words
  refine (View.canon_cons_unit_zero (S := S500x8) zz _ _ _).trans ?_
  simp only [View.readAt_eq_ld, harg1.read_unread, harg2.read_unread, harg3.read_unread, harg5.read_unread, harg6.read_unread,
    View.ld_unit_zero (S := S2560x256) zz, View.ld_unit_zero (S := S500x2560) zz, View.ld_unit_zero (S := S500x256) zz, View.ld_unit_zero (S := S500x8) zz,
    View.readCov_unit_zero (S := S500x256) _ zz, View.readCov_unit_zero (S := S500x8) _ zz]
set_option maxHeartbeats 2000000 in
/-- The last point updates both in the same way, -/
theorem sread0_C_0 (c : Dev nD) (i : grid0.Coords) (arg1 : Memref sig .tc .vmem S2560x256 .f32) (harg1 : arg1.IsWhole) (arg2 : Memref sig .tc .vmem S2560x256 .f32) (harg2 : arg2.IsWhole) (arg3 : Memref sig .tc .vmem S500x2560 .f32) (harg3 : arg3.IsWhole) (arg4 : Memref sig .tc .vmem S1x1 .f32) (harg4 : arg4.IsWhole) (arg5 : Memref sig .tc .vmem S500x256 .f32) (harg5 : arg5.IsWhole) (arg6 : Memref sig .tc .vmem S500x8 .f32) (harg6 : arg6.IsWhole) (hc0 : ¬cond0_0 i) (hc1 : cond0_1 i)
    (x0 x1 : Vec F S2560x256 .f32) (x2 : Vec F S500x2560 .f32) (xs0 : Vec F S500x256 .f32) (xs1 : Vec F S500x8 .f32) :
    View.canon (kernelRun0_C c i arg1 harg1 arg2 harg2 arg3 harg3 arg4 harg4 arg5 harg5 arg6 harg6 hc0 hc1 x0 x1 x2 xs0 xs1).2.1 = k0_pay5 i x1 x0 x2 xs0 := by
  unfold kernelRun0_C; dsimp only; sl_unfold_words
  refine (View.canon_cons_unit_zero (S := S500x256) zz _ _ _).trans ?_
  simp only [View.readAt_eq_ld, harg1.read_unread, harg2.read_unread, harg3.read_unread, harg5.read_unread, harg6.read_unread,
    View.ld_unit_zero (S := S2560x256) zz, View.ld_unit_zero (S := S500x2560) zz, View.ld_unit_zero (S := S500x256) zz, View.ld_unit_zero (S := S500x8) zz,
    View.readCov_unit_zero (S := S500x256) _ zz, View.readCov_unit_zero (S := S500x8) _ zz]
set_option maxHeartbeats 2000000 in
theorem sread0_C_1 (c : Dev nD) (i : grid0.Coords) (arg1 : Memref sig .tc .vmem S2560x256 .f32) (harg1 : arg1.IsWhole) (arg2 : Memref sig .tc .vmem S2560x256 .f32) (harg2 : arg2.IsWhole) (arg3 : Memref sig .tc .vmem S500x2560 .f32) (harg3 : arg3.IsWhole) (arg4 : Memref sig .tc .vmem S1x1 .f32) (harg4 : arg4.IsWhole) (arg5 : Memref sig .tc .vmem S500x256 .f32) (harg5 : arg5.IsWhole) (arg6 : Memref sig .tc .vmem S500x8 .f32) (harg6 : arg6.IsWhole) (hc0 : ¬cond0_0 i) (hc1 : cond0_1 i)
    (x0 x1 : Vec F S2560x256 .f32) (x2 : Vec F S500x2560 .f32) (xs0 : Vec F S500x256 .f32) (xs1 : Vec F S500x8 .f32) :
    View.canon (kernelRun0_C c i arg1 harg1 arg2 harg2 arg3 harg3 arg4 harg4 arg5 harg5 arg6 harg6 hc0 hc1 x0 x1 x2 xs0 xs1).2.2.1 = k0_pay6 i x2 xs1 := by
  unfold kernelRun0_C; dsimp only; sl_unfold_words
  refine (View.canon_cons_unit_zero (S := S500x8) zz _ _ _).trans ?_
  simp only [View.readAt_eq_ld, harg1.read_unread, harg2.read_unread, harg3.read_unread, harg5.read_unread, harg6.read_unread,
    View.ld_unit_zero (S := S2560x256) zz, View.ld_unit_zero (S := S500x2560) zz, View.ld_unit_zero (S := S500x256) zz, View.ld_unit_zero (S := S500x8) zz,
    View.readCov_unit_zero (S := S500x256) _ zz, View.readCov_unit_zero (S := S500x8) _ zz]
set_option maxHeartbeats 2000000 in
/-- and leaves in the result's buffer the loss computed from the first column of the new sizes and the new weighted sums. -/
theorem read0_C_3 (c : Dev nD) (i : grid0.Coords) (arg1 : Memref sig .tc .vmem S2560x256 .f32) (harg1 : arg1.IsWhole) (arg2 : Memref sig .tc .vmem S2560x256 .f32) (harg2 : arg2.IsWhole) (arg3 : Memref sig .tc .vmem S500x2560 .f32) (harg3 : arg3.IsWhole) (arg4 : Memref sig .tc .vmem S1x1 .f32) (harg4 : arg4.IsWhole) (arg5 : Memref sig .tc .vmem S500x256 .f32) (harg5 : arg5.IsWhole) (arg6 : Memref sig .tc .vmem S500x8 .f32) (harg6 : arg6.IsWhole) (hc0 : ¬cond0_0 i) (hc1 : cond0_1 i)
    (x0 x1 : Vec F S2560x256 .f32) (x2 : Vec F S500x2560 .f32) (xs0 : Vec F S500x256 .f32) (xs1 : Vec F S500x8 .f32) :
    View.canon (kernelRun0_C c i arg1 harg1 arg2 harg2 arg3 harg3 arg4 harg4 arg5 harg5 arg6 harg6 hc0 hc1 x0 x1 x2 xs0 xs1).1 = k0_pay1 (col0 (k0_pay6 i x2 xs1)) (k0_pay5 i x1 x0 x2 xs0) := by
  unfold kernelRun0_C; dsimp only; sl_unfold_words
  refine (View.canon_unit_zero (S := S1x1) zz _ _).trans ?_
  rw [readCov_sub_unit_zero (S := S500x8) _ zz, readCov_sub_unit_zero (S := S500x256) _ zz]
  simp only [View.readAt_eq_ld, harg1.read_unread, harg2.read_unread, harg3.read_unread, harg5.read_unread, harg6.read_unread,
    View.ld_unit_zero (S := S2560x256) zz, View.ld_unit_zero (S := S500x2560) zz, View.ld_unit_zero (S := S500x256) zz, View.ld_unit_zero (S := S500x8) zz]
  rfl

end Cert.Kernel.Hand

end
-- ==== Proof.K.Data.lean ====
/-
  The proof data of the one pipeline. Each input window's staging buffer is named by its block of the array, filled
  out past the array's end with zeros (the last block of each input overhangs its array; what the buffer's tail really
  holds is never named, and the body masks it). The two accumulators are named point by point: after point n they hold
  the body's update, at point n, of what they held after point n - 1 (zeros before point 0). The result's buffer is
  named by the loss computed from the accumulators after the last point.
-/
import proofs.«171851_g66838281060554_cont_sun_c4_581_21_alg».proof.Proof.K.Pieces

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The input blocks, zero-filled -/

/-- Expression's block at point `t` (genes 2560 t …, all samples), zeros past the array's end. -/
def X0 (c : Dev nD) (t : Fin cfg0.N) : Vec F S2560x256 .f32 :=
  win0_0.fill (grid0.coords t) (fun _ => Scalar.ofBits .f32 0x00000000#32) (iblk m c 0 t)
/-- Predicted's block at point `t`, likewise. -/
def X1 (c : Dev nD) (t : Fin cfg0.N) : Vec F S2560x256 .f32 :=
  win0_1.fill (grid0.coords t) (fun _ => Scalar.ofBits .f32 0x00000000#32) (iblk m c 1 t)
/-- The membership matrix's block at point `t` (all pathways, genes 2560 t …), likewise. -/
def X2 (c : Dev nD) (t : Fin cfg0.N) : Vec F S500x2560 .f32 :=
  win0_2.fill (grid0.coords t) (fun _ => Scalar.ofBits .f32 0x00000000#32) (iblk m c 2 t)

/-! ## The accumulators, point by point -/

/-- The weighted sums after point `n`. -/
def accAt (c : Dev nD) : (n : ℕ) → n < cfg0.N → Vec F S500x256 .f32
  | 0, h => k0_pay5 (grid0.coords ⟨0, h⟩) (X1 m c ⟨0, h⟩) (X0 m c ⟨0, h⟩) (X2 m c ⟨0, h⟩) (k0_pay2 (F := F))
  | n + 1, h => k0_pay5 (grid0.coords ⟨n + 1, h⟩) (X1 m c ⟨n + 1, h⟩) (X0 m c ⟨n + 1, h⟩) (X2 m c ⟨n + 1, h⟩) (accAt c n (Nat.lt_of_succ_lt h))
/-- The sizes (in each of the eight columns) after point `n`. -/
def sizeAt (c : Dev nD) : (n : ℕ) → n < cfg0.N → Vec F S500x8 .f32
  | 0, h => k0_pay6 (grid0.coords ⟨0, h⟩) (X2 m c ⟨0, h⟩) (k0_pay3 (F := F))
  | n + 1, h => k0_pay6 (grid0.coords ⟨n + 1, h⟩) (X2 m c ⟨n + 1, h⟩) (sizeAt c n (Nat.lt_of_succ_lt h))

theorem accAt_zero (c : Dev nD) (t : Fin cfg0.N) (h0 : t.val = 0) :
    accAt m c t.val t.isLt = k0_pay5 (grid0.coords t) (X1 m c t) (X0 m c t) (X2 m c t) (k0_pay2 (F := F)) := by
  obtain ⟨n, hn⟩ := t; cases n with
  | zero => rfl
  | succ n => exact absurd h0 (Nat.succ_ne_zero n)
theorem accAt_pos (c : Dev nD) (t : Fin cfg0.N) (h0 : t.val ≠ 0) :
    accAt m c t.val t.isLt = k0_pay5 (grid0.coords t) (X1 m c t) (X0 m c t) (X2 m c t) (accAt m c (t.val - 1) (Nat.lt_of_le_of_lt (Nat.sub_le _ _) t.isLt)) := by
  obtain ⟨n, hn⟩ := t; cases n with
  | zero => exact absurd rfl h0
  | succ n => rfl
theorem sizeAt_zero (c : Dev nD) (t : Fin cfg0.N) (h0 : t.val = 0) :
    sizeAt m c t.val t.isLt = k0_pay6 (grid0.coords t) (X2 m c t) (k0_pay3 (F := F)) := by
  obtain ⟨n, hn⟩ := t; cases n with
  | zero => rfl
  | succ n => exact absurd h0 (Nat.succ_ne_zero n)
theorem sizeAt_pos (c : Dev nD) (t : Fin cfg0.N) (h0 : t.val ≠ 0) :
    sizeAt m c t.val t.isLt = k0_pay6 (grid0.coords t) (X2 m c t) (sizeAt m c (t.val - 1) (Nat.lt_of_le_of_lt (Nat.sub_le _ _) t.isLt)) := by
  obtain ⟨n, hn⟩ := t; cases n with
  | zero => exact absurd rfl h0
  | succ n => rfl

theorem seven_lt : 7 < cfg0.N := by show 7 < grid0.N; rw [N_0]; decide

/-- The loss as the last point computes it: from the first column of the final sizes and the final weighted sums. -/
def lossV (c : Dev nD) : Vec F S1x1 .f32 := k0_pay1 (col0 (sizeAt m c 7 seven_lt)) (accAt m c 7 seven_lt)

/-! ## The invariant -/

/-- Before the first point the two accumulators hold anything; before any later point they hold what the point before left. -/
def PhiS (c : Dev nD) : (n : ℕ) → n ≤ cfg0.N → sProp 𝕄
  | 0, _ => Pipeline.ΦA spec0 c
  | n + 1, hn => iprop(iprop(owns (c : Thread nD τ) scM0_0 fullShare (accAt m c n hn) ∗ owns (c : Thread nD τ) scM0_1 fullShare (sizeAt m c n hn)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM0_0 fullShare (accAt m c n hn) ∗ owns (c : Thread nD τ) scM0_1 fullShare (sizeAt m c n hn)) ∗ (∃ r, prngReg c r)) := rfl
theorem PhiS_pos (c : Dev nD) (n : ℕ) (h : n ≤ cfg0.N) (hz : n ≠ 0) :
    PhiS m c n h = iprop(iprop(owns (c : Thread nD τ) scM0_0 fullShare (accAt m c (n - 1) (by omega)) ∗ owns (c : Thread nD τ) scM0_1 fullShare (sizeAt m c (n - 1) (by omega))) ∗ (∃ r, prngReg c r)) := by
  cases n with
  | zero => exact absurd rfl hz
  | succ n => rfl

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => X0 m c t
    | ⟨1, _⟩ => X1 m c t
    | ⟨2, _⟩ => X2 m c t
    | ⟨3, _⟩ => lossV m c
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = X0 m c t := by dsimp only [dats]
theorem after0_1 (c : Dev nD) (t : Fin cfg0.N) : (dats m 0 c).after 1 t = X1 m c t := by dsimp only [dats]
theorem after0_2 (c : Dev nD) (t : Fin cfg0.N) : (dats m 0 c).after 2 t = X2 m c t := by dsimp only [dats]
theorem after0_3 (c : Dev nD) (t : Fin cfg0.N) : (dats m 0 c).after 3 t = lossV m c := by dsimp only [dats]

/-- Each input's buffer, just fetched: its block, and `d` past the array's end. -/
theorem before0_0 (c : Dev nD) (t : Fin cfg0.N) (d) :
    (dats m 0 c).before 0 t d = win0_0.fill (grid0.coords t) d (iblk m c 0 t) := by
  rw [Dat.before_fetched _ 0 t (fetch0_0 t)]; rfl
theorem before0_1 (c : Dev nD) (t : Fin cfg0.N) (d) :
    (dats m 0 c).before 1 t d = win0_1.fill (grid0.coords t) d (iblk m c 1 t) := by
  rw [Dat.before_fetched _ 1 t (fetch0_1 t)]; rfl
theorem before0_2 (c : Dev nD) (t : Fin cfg0.N) (d) :
    (dats m 0 c).before 2 t d = win0_2.fill (grid0.coords t) d (iblk m c 2 t) := by
  rw [Dat.before_fetched _ 2 t (fetch0_2 t)]; rfl

/-- What the obligation asks of an input's buffer after the body: the block on the part inside the array. -/
theorem cut0_0 (c : Dev nD) (t : Fin cfg0.N) : win0_0.cut (grid0.coords t) ((dats m 0 c).after 0 t) = iblk m c 0 t := by
  rw [after0_0]; exact win0_0.cut_fill _ _ _
theorem cut0_1 (c : Dev nD) (t : Fin cfg0.N) : win0_1.cut (grid0.coords t) ((dats m 0 c).after 1 t) = iblk m c 1 t := by
  rw [after0_1]; exact win0_1.cut_fill _ _ _
theorem cut0_2 (c : Dev nD) (t : Fin cfg0.N) : win0_2.cut (grid0.coords t) ((dats m 0 c).after 2 t) = iblk m c 2 t := by
  rw [after0_2]; exact win0_2.cut_fill _ _ _

end Cert.Kernel.Hand

end
-- ==== Proof.MaskBits.lean ====
/-
  Bit-vector facts behind the kernel's tail mask.

  At grid point `t` (of 8) the kernel compares the 32-bit lane index `k` (below 2560) with the signed word
  `20000 - t * 2560`. Nothing wraps: `t * 2560 ≤ 17920`, so the right operand is the natural number
  `20000 - 2560 t` (between 2080 and 20000), both words are non-negative as signed integers, and the signed
  comparison is the comparison of natural numbers `2560 t + k < 20000`.

  Also: a one-axis lane-index vector read at an index is that coordinate as a 32-bit word.
-/
import Idealize.ShloMosaic.PureOps.Ideal
import Idealize.ShloMosaic.Lib.ValueIdx

namespace Cert.MaskBits

open Idealize.ShloMosaic

/-- A Boolean widened to one bit is the bit `1` exactly when it is `true`. -/
theorem ofBool_eq_one_iff (b : Bool) : BitVec.ofBool b = 1#1 ↔ b = true := by
  cases b <;> decide

/-- The right operand of the comparison, as a signed integer: no wrap-around for `t < 8`. -/
theorem limit_toInt (t : ℕ) (ht : t < 8) :
    (20000#32 - BitVec.ofNat 32 t * 2560#32).toInt = 20000 - 2560 * (t : ℤ) := by
  interval_cases t <;> decide

/-- A small natural number as a 32-bit word is itself as a signed integer. -/
theorem small_toInt (k : ℕ) (hk : k < 2560) : (BitVec.ofNat 32 k).toInt = (k : ℤ) := by
  rw [BitVec.toInt_eq_toNat_cond, BitVec.toNat_ofNat]
  have : k % 2 ^ 32 = k := Nat.mod_eq_of_lt (by omega)
  rw [this]; split <;> omega

/-- The tail mask's comparison bit is `1` exactly when the global index `2560 t + k` is below 20000. -/
theorem slt_limit_iff (t k : ℕ) (ht : t < 8) (hk : k < 2560) :
    Scalar.cmpi .slt (BitVec.ofNat 32 k) (Scalar.subi 20000#32 (Scalar.muli (BitVec.ofNat 32 t) 2560#32)) = 1#1
      ↔ 2560 * t + k < 20000 := by
  unfold Scalar.cmpi Scalar.subi Scalar.muli IntOp.cmpi IntOp.subi IntOp.muli
  rw [ofBool_eq_one_iff]
  show BitVec.slt _ _ = true ↔ _
  rw [BitVec.slt, decide_eq_true_iff, small_toInt k hk, limit_toInt t ht]
  omega

/-- The lane-index vector along axis 0 of a `[2560, 256]` block reads the first coordinate. -/
theorem iota0_apply (h : (⟨2, ![2560, 256]⟩ : Shape).Iotas .tc 32 [0]) (j : (⟨2, ![2560, 256]⟩ : Shape).Idx) :
    iota .tc ⟨2, ![2560, 256]⟩ 32 [0] h j = BitVec.ofNat 32 (j 0).val := by
  simp [iota]

/-- The lane-index vector along axis 1 of a `[500, 2560]` block reads the second coordinate. -/
theorem iota1_apply (h : (⟨2, ![500, 2560]⟩ : Shape).Iotas .tc 32 [1]) (j : (⟨2, ![500, 2560]⟩ : Shape).Idx) :
    iota .tc ⟨2, ![500, 2560]⟩ 32 [1] h j = BitVec.ofNat 32 (j 1).val := by
  simp [iota]

end Cert.MaskBits
-- ==== Proof.K.PayCongr.lean ====
/-
  The kernel's stored values depend on the loaded blocks only where the tail mask lets them through.

  At grid point `t = i 0` the body keeps column `k` of the membership block and row `k` of the difference
  block exactly when the global gene index `2560 t + k` is below 20000, and puts the zero word elsewhere
  (the comparison is the signed one of the bit-vector file, which does not wrap for `t < 8`). So

    * the masked membership block, read at an index, is the loaded element or the zero word (`pay4_apply`);
    * the masked difference block likewise (`pay5_rhs_apply`);
    * two families of loaded blocks that agree at every kept index give the same new accumulators
      (`pay5_congr`, `pay6_congr`): the operands of the two tile products are then equal as whole vectors.

  Everything here holds at every float instance: no arithmetic is evaluated.
-/
import proofs.«171851_g66838281060554_cont_sun_c4_581_21_alg».proof.Proof.Gen.Kernel.Skeleton
import proofs.«171851_g66838281060554_cont_sun_c4_581_21_alg».proof.Proof.MaskBits
import Idealize.ShloMosaic.Lib.ValueIdx
import Idealize.ShloMosaic.Lib.Pipeline.Value

set_option synthInstance.maxSize 4096

noncomputable section

namespace Cert.Kernel.PayFacts

open Idealize.ShloMosaic Idealize.SL.Sem Idealize.ShloMosaic.ValueIdx
open Cert.Kernel Cert.Kernel.Gen

variable {F : FTy → Type} [FloatOps F]

/-- The grid coordinate is below 8. -/
theorem grid_lt (i : grid0.Coords) : (i 0).val < 8 := (i 0).isLt

/-- The word the lane indices are compared with at grid point `i`: `20000 - (i 0) * 2560`. -/
abbrev limitWord (i : grid0.Coords) : BitVec 32 :=
  Scalar.subi 20000#32 (Scalar.muli (BitVec.ofNat 32 (i 0).val) 2560#32)

/-- The mask bit of the membership block at an index is `1` exactly on the kept columns. -/
theorem colBit_iff (i : grid0.Coords) (j : S500x2560.Idx) :
    Scalar.cmpi .slt (iota .tc S500x2560 32 [1] iota_S500x2560_d1_w32 j) (limitWord i) = 1#1
      ↔ 2560 * (i 0).val + (j 1).val < 20000 := by
  rw [Cert.MaskBits.iota1_apply]
  exact Cert.MaskBits.slt_limit_iff _ _ (grid_lt i) (j 1).isLt

/-- The mask bit of the difference block at an index is `1` exactly on the kept rows. -/
theorem rowBit_iff (i : grid0.Coords) (j : S2560x256.Idx) :
    Scalar.cmpi .slt (iota .tc S2560x256 32 [0] iota_S2560x256_d0_w32 j) (limitWord i) = 1#1
      ↔ 2560 * (i 0).val + (j 0).val < 20000 := by
  rw [Cert.MaskBits.iota0_apply]
  exact Cert.MaskBits.slt_limit_iff _ _ (grid_lt i) (j 0).isLt

/-- THE MASKED MEMBERSHIP BLOCK AT AN INDEX: the loaded element on the kept columns, the zero word elsewhere. -/
theorem pay4_apply (i : grid0.Coords) (x2 : Vec F S500x2560 .f32) (j : S500x2560.Idx) :
    k0_pay4 i x2 j
      = if 2560 * (i 0).val + (j 1).val < 20000 then x2 j else (Scalar.ofBits .f32 0x00000000#32 : F .f32) := by
  show Scalar.select (Scalar.cmpi .slt (iota .tc S500x2560 32 [1] iota_S500x2560_d1_w32 j) (limitWord i))
      (x2 j) (Scalar.ofBits .f32 0x00000000#32 : F .f32) = _
  by_cases h : 2560 * (i 0).val + (j 1).val < 20000
  · rw [if_pos h, (colBit_iff i j).mpr h]; exact select_one _ _
  · rw [if_neg h, eq_zero_of_ne_one (fun e => h ((colBit_iff i j).mp e))]; exact select_zero _ _

/-- Membership blocks that agree on the kept columns have the same masked block. -/
theorem pay4_congr (i : grid0.Coords) (x2 x2' : Vec F S500x2560 .f32)
    (h2 : ∀ j : S500x2560.Idx, 2560 * (i 0).val + (j 1).val < 20000 → x2 j = x2' j) :
    k0_pay4 i x2 = k0_pay4 i x2' := by
  funext j
  rw [pay4_apply, pay4_apply]
  by_cases h : 2560 * (i 0).val + (j 1).val < 20000
  · rw [if_pos h, if_pos h, h2 j h]
  · rw [if_neg h, if_neg h]

/-- The right operand of the accumulator's tile product: predicted minus expression on the kept rows, the zero
    word elsewhere. -/
def pay5_rhs (i : grid0.Coords) (x1 x0 : Vec F S2560x256 .f32) : FVec F S2560x256 .f32 :=
  select (cmpi .slt (iota .tc S2560x256 32 [0] iota_S2560x256_d0_w32) (broadcast S2560x256 (limitWord i)))
    (subf (shapeCast S2560x256 x1 shapeCasts_S2560x256_S2560x256) (shapeCast S2560x256 x0 shapeCasts_S2560x256_S2560x256))
    (broadcast S2560x256 (Scalar.ofBits .f32 0x00000000#32 : F .f32))

/-- The new accumulator is the old one plus the tile product of the masked membership block and `pay5_rhs`. -/
theorem pay5_eq (i : grid0.Coords) (x1 x0 : Vec F S2560x256 .f32) (x2 : Vec F S500x2560 .f32) (a : Vec F S500x256 .f32) :
    k0_pay5 i x1 x0 x2 a
      = addf a (matmul dot_S500x2560_S2560x256_S500x256_1_0_0_1_n_n none (k0_pay4 i x2) (pay5_rhs i x1 x0)
          (constant S500x256 .f32 0x00000000#32)) :=
  shapeCast_self _ _

/-- THE MASKED DIFFERENCE BLOCK AT AN INDEX: the instance's difference on the kept rows, the zero word elsewhere. -/
theorem pay5_rhs_apply (i : grid0.Coords) (x1 x0 : Vec F S2560x256 .f32) (j : S2560x256.Idx) :
    pay5_rhs i x1 x0 j
      = if 2560 * (i 0).val + (j 0).val < 20000 then FloatOps.subf (x1 j) (x0 j)
        else (Scalar.ofBits .f32 0x00000000#32 : F .f32) := by
  unfold pay5_rhs
  rw [shapeCast_self, shapeCast_self]
  show Scalar.select (Scalar.cmpi .slt (iota .tc S2560x256 32 [0] iota_S2560x256_d0_w32 j) (limitWord i))
      (FloatOps.subf (x1 j) (x0 j)) (Scalar.ofBits .f32 0x00000000#32 : F .f32) = _
  by_cases h : 2560 * (i 0).val + (j 0).val < 20000
  · rw [if_pos h, (rowBit_iff i j).mpr h]; exact select_one _ _
  · rw [if_neg h, eq_zero_of_ne_one (fun e => h ((rowBit_iff i j).mp e))]; exact select_zero _ _

/-- Predicted and expression blocks that agree on the kept rows have the same masked difference. -/
theorem pay5_rhs_congr (i : grid0.Coords) (x1 x1' x0 x0' : Vec F S2560x256 .f32)
    (h01 : ∀ j : S2560x256.Idx, 2560 * (i 0).val + (j 0).val < 20000 → x1 j = x1' j ∧ x0 j = x0' j) :
    pay5_rhs i x1 x0 = pay5_rhs i x1' x0' := by
  funext j
  rw [pay5_rhs_apply, pay5_rhs_apply]
  by_cases h : 2560 * (i 0).val + (j 0).val < 20000
  · rw [if_pos h, if_pos h, (h01 j h).1, (h01 j h).2]
  · rw [if_neg h, if_neg h]

/-- THE NEW ACCUMULATOR depends on the three loaded blocks only at the kept indices. -/
theorem pay5_congr (i : grid0.Coords) (x1 x1' x0 x0' : Vec F S2560x256 .f32) (x2 x2' : Vec F S500x2560 .f32)
    (a : Vec F S500x256 .f32)
    (h01 : ∀ j : S2560x256.Idx, 2560 * (i 0).val + (j 0).val < 20000 → x1 j = x1' j ∧ x0 j = x0' j)
    (h2 : ∀ j : S500x2560.Idx, 2560 * (i 0).val + (j 1).val < 20000 → x2 j = x2' j) :
    k0_pay5 i x1 x0 x2 a = k0_pay5 i x1' x0' x2' a := by
  rw [pay5_eq, pay5_eq, pay4_congr i x2 x2' h2, pay5_rhs_congr i x1 x1' x0 x0' h01]

/-- The new size buffer is the old one plus the tile product of the masked membership block and the block of ones. -/
theorem pay6_eq (i : grid0.Coords) (x2 : Vec F S500x2560 .f32) (s : Vec F S500x8 .f32) :
    k0_pay6 i x2 s
      = addf s (matmul dot_S500x2560_S2560x8_S500x8_1_0_0_1_n_n none (k0_pay4 i x2)
          (broadcast S2560x8 (Scalar.ofBits .f32 0x3F800000#32 : F .f32)) (constant S500x8 .f32 0x00000000#32)) :=
  shapeCast_self _ _

/-- THE NEW SIZE BUFFER depends on the loaded membership block only at the kept columns. -/
theorem pay6_congr (i : grid0.Coords) (x2 x2' : Vec F S500x2560 .f32) (s : Vec F S500x8 .f32)
    (h2 : ∀ j : S500x2560.Idx, 2560 * (i 0).val + (j 1).val < 20000 → x2 j = x2' j) :
    k0_pay6 i x2 s = k0_pay6 i x2' s := by
  rw [pay6_eq, pay6_eq, pay4_congr i x2 x2' h2]

end Cert.Kernel.PayFacts

end
-- ==== Proof.K.Body.lean ====
/-
  The body obligation at every grid point, the launch, and the frame. At each point the body is handed the three input
  buffers just fetched (the block inside the array, anything past its end), the result's buffer, and the two
  accumulators at what the point before left; the case of the point (first, middle, last) selects the run; what the
  run's stores leave is read back as the update of the accumulators, and the update does not depend on what the input
  buffers hold past the array's end, because the body selects zero there: so the accumulators are handed on at the
  values the proof data names.
-/
import proofs.«171851_g66838281060554_cont_sun_c4_581_21_alg».proof.Proof.K.Data
import proofs.«171851_g66838281060554_cont_sun_c4_581_21_alg».proof.Proof.K.PayCongr

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel.PayFacts

variable (m : (ℓ : Loc nD τ sig) → Buf (Elt F) ℓ) (ρ : Dev nD → PrngReg)

/-! ## Which rows and columns of a block lie inside the array -/

theorem coord_val : ∀ t : Fin cfg0.N, ((grid0.coords t) 0).val = t.val :=
  (by decide +kernel : ∀ t : Fin grid0.N, ((grid0.coords t) 0).val = t.val)

theorem xsz0_0 : ∀ (t : Fin cfg0.N) (a : Fin 2), win0_0.xsize (grid0.coords t) a = (![min 2560 (20000 - 2560 * t.val), 256] : Fin 2 → ℕ) a :=
  (by decide +kernel : ∀ (t : Fin grid0.N) (a : Fin 2), win0_0.xsize (grid0.coords t) a = (![min 2560 (20000 - 2560 * t.val), 256] : Fin 2 → ℕ) a)
theorem xsz0_1 : ∀ (t : Fin cfg0.N) (a : Fin 2), win0_1.xsize (grid0.coords t) a = (![min 2560 (20000 - 2560 * t.val), 256] : Fin 2 → ℕ) a :=
  (by decide +kernel : ∀ (t : Fin grid0.N) (a : Fin 2), win0_1.xsize (grid0.coords t) a = (![min 2560 (20000 - 2560 * t.val), 256] : Fin 2 → ℕ) a)
theorem xsz0_2 : ∀ (t : Fin cfg0.N) (a : Fin 2), win0_2.xsize (grid0.coords t) a = (![500, min 2560 (20000 - 2560 * t.val)] : Fin 2 → ℕ) a :=
  (by decide +kernel : ∀ (t : Fin grid0.N) (a : Fin 2), win0_2.xsize (grid0.coords t) a = (![500, min 2560 (20000 - 2560 * t.val)] : Fin 2 → ℕ) a)

/-- A row of a gene-major block whose gene lies inside the array is one the fetch fills. -/
theorem moved0_0 (t : Fin cfg0.N) (j : S2560x256.Idx) (h : 2560 * t.val + (j 0).val < 20000) : win0_0.moved (grid0.coords t) j = true := by
  rw [Window.moved_iff]; intro a
  have h0 := ValueIdx.idx2_lt0 j; have h1 := ValueIdx.idx2_lt1 j
  have e := xsz0_0 t a
  match a with
  | ⟨0, _⟩ => rw [e]; show (j 0).val < min 2560 (20000 - 2560 * t.val); omega
  | ⟨1, _⟩ => rw [e]; exact h1
theorem moved0_1 (t : Fin cfg0.N) (j : S2560x256.Idx) (h : 2560 * t.val + (j 0).val < 20000) : win0_1.moved (grid0.coords t) j = true := by
  rw [Window.moved_iff]; intro a
  have h0 := ValueIdx.idx2_lt0 j; have h1 := ValueIdx.idx2_lt1 j
  have e := xsz0_1 t a
  match a with
  | ⟨0, _⟩ => rw [e]; show (j 0).val < min 2560 (20000 - 2560 * t.val); omega
  | ⟨1, _⟩ => rw [e]; exact h1
/-- A column of the membership block whose gene lies inside the array is one the fetch fills. -/
theorem moved0_2 (t : Fin cfg0.N) (j : S500x2560.Idx) (h : 2560 * t.val + (j 1).val < 20000) : win0_2.moved (grid0.coords t) j = true := by
  rw [Window.moved_iff]; intro a
  have h0 := ValueIdx.idx2_lt0 j; have h1 := ValueIdx.idx2_lt1 j
  have e := xsz0_2 t a
  match a with
  | ⟨0, _⟩ => rw [e]; exact h0
  | ⟨1, _⟩ => rw [e]; show (j 1).val < min 2560 (20000 - 2560 * t.val); omega

/-- On the part the fetch fills, a filled buffer does not depend on what it held before. -/
theorem fill_agree {G : Pipeline.Grid} (w : Pipeline.Window sig G) {α : Type} (i : G.Coords) (d d' : w.block.Idx → α) (g : (w.xblock i).Idx → α)
    (j : w.block.Idx) (h : w.moved i j = true) : w.fill i d g j = w.fill i d' g j := by
  unfold Pipeline.Window.fill; rw [dif_pos h, dif_pos h]

/-- The update of the weighted sums reads the input buffers only inside the arrays. -/
theorem acc_canon (c : Dev nD) (t : Fin cfg0.N) (d0 d1 : S2560x256.Idx → Elt F .f32) (d2 : S500x2560.Idx → Elt F .f32) (a : Vec F S500x256 .f32) :
    k0_pay5 (grid0.coords t) (win0_1.fill (grid0.coords t) d1 (iblk m c 1 t)) (win0_0.fill (grid0.coords t) d0 (iblk m c 0 t)) (win0_2.fill (grid0.coords t) d2 (iblk m c 2 t)) a
      = k0_pay5 (grid0.coords t) (X1 m c t) (X0 m c t) (X2 m c t) a := by
  refine pay5_congr (grid0.coords t) _ _ _ _ _ _ a (fun j h => ?_) (fun j h => ?_)
  · rw [coord_val t] at h
    exact ⟨fill_agree win0_1 _ _ _ _ j (moved0_1 t j h), fill_agree win0_0 _ _ _ _ j (moved0_0 t j h)⟩
  · rw [coord_val t] at h
    exact fill_agree win0_2 _ _ _ _ j (moved0_2 t j h)
/-- So does the update of the sizes. -/
theorem size_canon (c : Dev nD) (t : Fin cfg0.N) (d2 : S500x2560.Idx → Elt F .f32) (s : Vec F S500x8 .f32) :
    k0_pay6 (grid0.coords t) (win0_2.fill (grid0.coords t) d2 (iblk m c 2 t)) s = k0_pay6 (grid0.coords t) (X2 m c t) s := by
  refine pay6_congr (grid0.coords t) _ _ s (fun j h => ?_)
  rw [coord_val t] at h
  exact fill_agree win0_2 _ _ _ _ j (moved0_2 t j h)

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it returns: each input's buffer stated on the part inside the array only. -/
def bodyPost (c : Dev nD) (t : Fin cfg0.N) : sProp 𝕄 :=
  iprop((dats m 0 c).Φ t.succ ∗ (dats m 0 c).owesAt () t.succ
    ∗ (dats m 0 c).leaves 0 t ∗ (dats m 0 c).leaves 1 t ∗ (dats m 0 c).leaves 2 t ∗ (dats m 0 c).leaves 3 t)

theorem leaves0_0 (c : Dev nD) (t : Fin cfg0.N) :
    (dats m 0 c).leaves 0 t = iprop(∃ d, owns (c : Thread nD τ) (ms0_0 t) fullShare (win0_0.fill (grid0.coords t) d (iblk m c 0 t))) := by
  unfold Dat.leaves; rw [liveAt0_0 t]
  show iprop(∃ d, owns (c : Thread nD τ) (ms0_0 t) fullShare (win0_0.fill (grid0.coords t) d (win0_0.cut (grid0.coords t) ((dats m 0 c).after 0 t)))) = _
  rw [cut0_0]
theorem leaves0_1 (c : Dev nD) (t : Fin cfg0.N) :
    (dats m 0 c).leaves 1 t = iprop(∃ d, owns (c : Thread nD τ) (ms0_1 t) fullShare (win0_1.fill (grid0.coords t) d (iblk m c 1 t))) := by
  unfold Dat.leaves; rw [liveAt0_1 t]
  show iprop(∃ d, owns (c : Thread nD τ) (ms0_1 t) fullShare (win0_1.fill (grid0.coords t) d (win0_1.cut (grid0.coords t) ((dats m 0 c).after 1 t)))) = _
  rw [cut0_1]
theorem leaves0_2 (c : Dev nD) (t : Fin cfg0.N) :
    (dats m 0 c).leaves 2 t = iprop(∃ d, owns (c : Thread nD τ) (ms0_2 t) fullShare (win0_2.fill (grid0.coords t) d (iblk m c 2 t))) := by
  unfold Dat.leaves; rw [liveAt0_2 t]
  show iprop(∃ d, owns (c : Thread nD τ) (ms0_2 t) fullShare (win0_2.fill (grid0.coords t) d (win0_2.cut (grid0.coords t) ((dats m 0 c).after 2 t)))) = _
  rw [cut0_2]
theorem leaves0_3_idle (c : Dev nD) (t : Fin cfg0.N) (h : ¬cond0_1 (grid0.coords t)) :
    (dats m 0 c).leaves 3 t = iprop(∃ d, owns (c : Thread nD τ) (ms0_3 t) fullShare ((dats m 0 c).before 3 t d)) :=
  Dat.leaves_idle (dats m 0 c) 3 t (idleAt0_3 t h) (noFlush0_3 t h)
theorem leaves0_3_live (c : Dev nD) (t : Fin cfg0.N) (h : cond0_1 (grid0.coords t)) :
    (dats m 0 c).leaves 3 t = owns (c : Thread nD τ) (ms0_3 t) fullShare (lossV m c) := by
  unfold Dat.leaves; rw [liveAt0_3 t h]
  show owns (c : Thread nD τ) (ms0_3 t) fullShare ((dats m 0 c).after 3 t) = _
  rw [after0_3]

set_option maxHeartbeats 4800000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [leaves0_0, leaves0_1, leaves0_2]
  rw [show (dats m 0 c).owesAt () t.succ = (dats m 0 c).owesAt () t.castSucc from rfl]
  rw [show (dats m 0 c).Φ t.succ = PhiS m c (t.val + 1) t.isLt from rfl, PhiS_succ]
  have hN : t.val < 8 := lt_of_lt_of_eq t.isLt (show cfg0.N = 8 from N_0)
  by_cases h0 : t.val % 8 = 0
  · -- the first point
    have h1 : ¬t.val % 8 = 7 := by omega
    have hz : t.val = 0 := by omega
    have hc0 : cond0_0 (grid0.coords t) := (hcond0_0 t).mpr h0
    have hc1 : ¬cond0_1 (grid0.coords t) := fun h => h1 ((hcond0_1 t).mp h)
    rw [leaves0_3_idle m c t hc1, PhiS_castSucc m c t, PhiS_zero m c _ _ hz, PhiA0_eq, accAt_zero m c t hz, sizeAt_zero m c t hz]
    iintro ⟨⟨⟨HS0, HS1⟩, Hg⟩, Ho, ⟨%d0, H0⟩, ⟨%d1, H1⟩, ⟨%d2, H2⟩, ⟨%d3, H3⟩⟩
    iapply ((kernelRun0_A c (grid0.coords t) (ms0_0 t) (hs0_0 t) (ms0_1 t) (hs0_1 t) (ms0_2 t) (hs0_2 t) (ms0_3 t) (hs0_3 t) scM0_0 (Memref.isWhole_whole _) scM0_1 (Memref.isWhole_whole _) hc0 hc1 (win0_0.fill (grid0.coords t) d0 (iblk m c 0 t)) (win0_1.fill (grid0.coords t) d1 (iblk m c 1 t)) (win0_2.fill (grid0.coords t) d2 (iblk m c 2 t))).2.2 _ Set.univ _)
    isplitl [H0]; · iexact H0
    isplitl [H1]; · iexact H1
    isplitl [H2]; · iexact H2
    isplitl [H3]; · iexact H3
    isplitl [HS0]; · iexact HS0
    isplitl [HS1]; · iexact HS1
    iintro ⟨H0, H1, H2, H3, ⟨%es0, HS0⟩, ⟨%es1, HS1⟩⟩
    isplitl [HS0 HS1 Hg]
    · isplitl [HS0 HS1]
      · isplitl [HS0]
        · unfold owns; iexists _; isplitr
          swap; · iexact HS0
          ipureintro
          exact (View.read_writes_eq_canon _ _ _ (scover0_A_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) hc0 hc1 (win0_0.fill (grid0.coords t) d0 (iblk m c 0 t)) (win0_1.fill (grid0.coords t) d1 (iblk m c 1 t)) (win0_2.fill (grid0.coords t) d2 (iblk m c 2 t)))).trans
            ((sread0_A_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) hc0 hc1 (win0_0.fill (grid0.coords t) d0 (iblk m c 0 t)) (win0_1.fill (grid0.coords t) d1 (iblk m c 1 t)) (win0_2.fill (grid0.coords t) d2 (iblk m c 2 t))).trans (acc_canon m c t d0 d1 d2 _))
        · unfold owns; iexists _; isplitr
          swap; · iexact HS1
          ipureintro
          exact (View.read_writes_eq_canon _ _ _ (scover0_A_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) hc0 hc1 (win0_0.fill (grid0.coords t) d0 (iblk m c 0 t)) (win0_1.fill (grid0.coords t) d1 (iblk m c 1 t)) (win0_2.fill (grid0.coords t) d2 (iblk m c 2 t)))).trans
            ((sread0_A_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) hc0 hc1 (win0_0.fill (grid0.coords t) d0 (iblk m c 0 t)) (win0_1.fill (grid0.coords t) d1 (iblk m c 1 t)) (win0_2.fill (grid0.coords t) d2 (iblk m c 2 t))).trans (size_canon m c t d2 _))
      iexact Hg
    isplitl [Ho]; · iexact Ho
    isplitl [H0]; · iexists d0; iexact H0
    isplitl [H1]; · iexists d1; iexact H1
    isplitl [H2]; · iexists d2; iexact H2
    iexists d3; iexact H3
  · have hz : t.val ≠ 0 := by omega
    have hc0 : ¬cond0_0 (grid0.coords t) := fun h => h0 ((hcond0_0 t).mp h)
    by_cases h1 : t.val % 8 = 7
    · -- the last point
      have hc1 : cond0_1 (grid0.coords t) := (hcond0_1 t).mpr h1
      rw [leaves0_3_live m c t hc1, PhiS_castSucc m c t, PhiS_pos m c _ _ hz, accAt_pos m c t hz, sizeAt_pos m c t hz]
      iintro ⟨⟨⟨HS0, HS1⟩, Hg⟩, Ho, ⟨%d0, H0⟩, ⟨%d1, H1⟩, ⟨%d2, H2⟩, ⟨%d3, H3⟩⟩
      iapply ((kernelRun0_C c (grid0.coords t) (ms0_0 t) (hs0_0 t) (ms0_1 t) (hs0_1 t) (ms0_2 t) (hs0_2 t) (ms0_3 t) (hs0_3 t) scM0_0 (Memref.isWhole_whole _) scM0_1 (Memref.isWhole_whole _) hc0 hc1 (win0_0.fill (grid0.coords t) d0 (iblk m c 0 t)) (win0_1.fill (grid0.coords t) d1 (iblk m c 1 t)) (win0_2.fill (grid0.coords t) d2 (iblk m c 2 t)) (accAt m c (t.val - 1) (Nat.lt_of_le_of_lt (Nat.sub_le _ _) t.isLt)) (sizeAt m c (t.val - 1) (Nat.lt_of_le_of_lt (Nat.sub_le _ _) t.isLt))).2.2.2 Set.univ _)
      isplitl [H0]; · iexact H0
      isplitl [H1]; · iexact H1
      isplitl [H2]; · iexact H2
      isplitl [H3]; · iexists _; iexact H3
      isplitl [HS0]; · iexact HS0
      isplitl [HS1]; · iexact HS1
      iintro ⟨H0, H1, H2, ⟨%e3, H3⟩, ⟨%es0, HS0⟩, ⟨%es1, HS1⟩⟩
      isplitl [HS0 HS1 Hg]
      · isplitl [HS0 HS1]
        · isplitl [HS0]
          · unfold owns; iexists _; isplitr
            swap; · iexact HS0
            ipureintro
            exact (View.read_writes_eq_canon _ _ _ (scover0_C_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) hc0 hc1 (win0_0.fill (grid0.coords t) d0 (iblk m c 0 t)) (win0_1.fill (grid0.coords t) d1 (iblk m c 1 t)) (win0_2.fill (grid0.coords t) d2 (iblk m c 2 t)) _ _)).trans
              ((sread0_C_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) hc0 hc1 (win0_0.fill (grid0.coords t) d0 (iblk m c 0 t)) (win0_1.fill (grid0.coords t) d1 (iblk m c 1 t)) (win0_2.fill (grid0.coords t) d2 (iblk m c 2 t)) _ _).trans (acc_canon m c t d0 d1 d2 _))
          · unfold owns; iexists _; isplitr
            swap; · iexact HS1
            ipureintro
            exact (View.read_writes_eq_canon _ _ _ (scover0_C_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) hc0 hc1 (win0_0.fill (grid0.coords t) d0 (iblk m c 0 t)) (win0_1.fill (grid0.coords t) d1 (iblk m c 1 t)) (win0_2.fill (grid0.coords t) d2 (iblk m c 2 t)) _ _)).trans
              ((sread0_C_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) hc0 hc1 (win0_0.fill (grid0.coords t) d0 (iblk m c 0 t)) (win0_1.fill (grid0.coords t) d1 (iblk m c 1 t)) (win0_2.fill (grid0.coords t) d2 (iblk m c 2 t)) _ _).trans (size_canon m c t d2 _))
        iexact Hg
      isplitl [Ho]; · iexact Ho
      isplitl [H0]; · iexists d0; iexact H0
      isplitl [H1]; · iexists d1; iexact H1
      isplitl [H2]; · iexists d2; iexact H2
      unfold owns; iexists _; isplitr
      swap; · iexact H3
      ipureintro
      refine (View.read_writes_eq_canon _ _ _ (cover0_C_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) hc0 hc1 (win0_0.fill (grid0.coords t) d0 (iblk m c 0 t)) (win0_1.fill (grid0.coords t) d1 (iblk m c 1 t)) (win0_2.fill (grid0.coords t) d2 (iblk m c 2 t)) _ _)).trans
        ((read0_C_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) hc0 hc1 (win0_0.fill (grid0.coords t) d0 (iblk m c 0 t)) (win0_1.fill (grid0.coords t) d1 (iblk m c 1 t)) (win0_2.fill (grid0.coords t) d2 (iblk m c 2 t)) _ _).trans ?_)
      rw [acc_canon m c t d0 d1 d2 _, size_canon m c t d2 _, ← accAt_pos m c t hz, ← sizeAt_pos m c t hz]
      have ht : t = ⟨7, seven_lt⟩ := Fin.ext (show t.val = 7 by omega)
      subst ht; rfl
    · -- a middle point
      have hc1 : ¬cond0_1 (grid0.coords t) := fun h => h1 ((hcond0_1 t).mp h)
      rw [leaves0_3_idle m c t hc1, PhiS_castSucc m c t, PhiS_pos m c _ _ hz, accAt_pos m c t hz, sizeAt_pos m c t hz]
      iintro ⟨⟨⟨HS0, HS1⟩, Hg⟩, Ho, ⟨%d0, H0⟩, ⟨%d1, H1⟩, ⟨%d2, H2⟩, ⟨%d3, H3⟩⟩
      iapply ((kernelRun0_B c (grid0.coords t) (ms0_0 t) (hs0_0 t) (ms0_1 t) (hs0_1 t) (ms0_2 t) (hs0_2 t) (ms0_3 t) (hs0_3 t) scM0_0 (Memref.isWhole_whole _) scM0_1 (Memref.isWhole_whole _) hc0 hc1 (win0_0.fill (grid0.coords t) d0 (iblk m c 0 t)) (win0_1.fill (grid0.coords t) d1 (iblk m c 1 t)) (win0_2.fill (grid0.coords t) d2 (iblk m c 2 t)) (accAt m c (t.val - 1) (Nat.lt_of_le_of_lt (Nat.sub_le _ _) t.isLt)) (sizeAt m c (t.val - 1) (Nat.lt_of_le_of_lt (Nat.sub_le _ _) t.isLt))).2.2 _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HS0 HS1 Hg]
      · isplitl [HS0 HS1]
        · isplitl [HS0]
          · unfold owns; iexists _; isplitr
            swap; · iexact HS0
            ipureintro
            exact (View.read_writes_eq_canon _ _ _ (scover0_B_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) hc0 hc1 (win0_0.fill (grid0.coords t) d0 (iblk m c 0 t)) (win0_1.fill (grid0.coords t) d1 (iblk m c 1 t)) (win0_2.fill (grid0.coords t) d2 (iblk m c 2 t)) _ _)).trans
              ((sread0_B_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) hc0 hc1 (win0_0.fill (grid0.coords t) d0 (iblk m c 0 t)) (win0_1.fill (grid0.coords t) d1 (iblk m c 1 t)) (win0_2.fill (grid0.coords t) d2 (iblk m c 2 t)) _ _).trans (acc_canon m c t d0 d1 d2 _))
          · unfold owns; iexists _; isplitr
            swap; · iexact HS1
            ipureintro
            exact (View.read_writes_eq_canon _ _ _ (scover0_B_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) hc0 hc1 (win0_0.fill (grid0.coords t) d0 (iblk m c 0 t)) (win0_1.fill (grid0.coords t) d1 (iblk m c 1 t)) (win0_2.fill (grid0.coords t) d2 (iblk m c 2 t)) _ _)).trans
              ((sread0_B_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) hc0 hc1 (win0_0.fill (grid0.coords t) d0 (iblk m c 0 t)) (win0_1.fill (grid0.coords t) d1 (iblk m c 1 t)) (win0_2.fill (grid0.coords t) d2 (iblk m c 2 t)) _ _).trans (size_canon m c t d2 _))
        iexact Hg
      isplitl [Ho]; · iexact Ho
      isplitl [H0]; · iexists d0; iexact H0
      isplitl [H1]; · iexists d1; iexact H1
      isplitl [H2]; · iexists d2; iexact H2
      iexists d3; iexact H3

/-- The library's body obligation, at every point. -/
theorem body_obligation (c : Dev nD) : Pipeline.BodyObligationLoose (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives it back: the accumulators' named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    · iexists _; iexact HS1
  iexact Hg

theorem hout (c : Dev nD) : (dats m 0 c).Φ (Fin.last cfg0.N) ⊢ Pipeline.ΦA spec0 c :=
  Phi_out m c _ (by rw [Fin.val_last]; have : cfg0.N = 8 := N_0; omega)

/-! ## The run and the frame -/

set_option backward.isDefEq.respectTransparency.types false in
/-- Every weakly fair execution of @main terminates, nothing faulting, with every array of the pipeline at what the
    proof data computes and every other unscoped buffer as the lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => body_obligation m c) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: @main runs, and the three argument arrays end as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.Kernel.Hand

end
-- ==== Proof.KI.Runs.lean ====
/-
  What the three runs of the kernel body share: the two branch conditions of the body decided over the grid (the
  first point resets the two accumulators, the last point computes the loss), where the result's window is idle, the
  staging and scratch buffers as memrefs, and the region's invariant with the two scratch buffers spelled out.
-/
import proofs.«171851_g66838281060554_cont_sun_c4_581_21_alg».proof.Proof.Gen.KernelIdeal.Launch
import proofs.«171851_g66838281060554_cont_sun_c4_581_21_alg».proof.Proof.Gen.KernelIdeal.Skeleton
import proofs.«171851_g66838281060554_cont_sun_c4_581_21_alg».proof.Proof.Gen.KernelIdeal.Points
import proofs.«171851_g66838281060554_cont_sun_c4_581_21_alg».proof.Proof.Gen.KernelIdeal.Frame
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two branch conditions -/

/-- "This is the first grid point": the condition under which the body resets the two accumulators. -/
abbrev cond0_0 (i : grid0.Coords) : Prop := (Scalar.cmpi .ne (Scalar.extui (Scalar.cmpi .eq (BitVec.ofNat 32 (i 0).val) 0#32)) 0#32) = 1#1
/-- It holds at point 0 only. -/
theorem hcond0_0 : ∀ t : Fin cfg0.N, cond0_0 (grid0.coords t) ↔ t.val % 8 = 0 :=
  (by decide +kernel : ∀ t : Fin grid0.N, cond0_0 (grid0.coords t) ↔ t.val % 8 = 0)

/-- "This is the last grid point": the condition under which the body computes the loss and stores it. -/
abbrev cond0_1 (i : grid0.Coords) : Prop := k0_cond2 i = 1#1
/-- It holds at point 7 only. -/
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

/-- The three inputs are never idle. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Away from the last point the body stores nothing into the result's window, and the pipeline does not write it back. -/
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
/-- At the last point the body stores the loss into it. -/
theorem liveAt0_3 : ∀ t : Fin cfg0.N, cond0_1 (grid0.coords t) → cfg0.idle 3 (grid0.coords t) = false := by decide +kernel

/-! ## The buffers the body is called with -/

/-- One staging buffer of the result's window, through which its contents are stated. -/
abbrev VO0_3 : View sig .tc .vmem S1x1 .f32 := (Memref.whole cc0_stg3_0 : Memref sig .tc .vmem S1x1 .f32).view
/-- Each window's current staging memref at point `t`, and its wholeness. -/
abbrev ms0_0 (t : Fin cfg0.N) : Memref sig .tc .vmem S2560x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2560x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S500x2560 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1 .f32 := win0_3.stage (cfg0.slots t 3)
abbrev hs0_3 (t : Fin cfg0.N) : (ms0_3 t).IsWhole := hstage0_3 ((cfg0.slots t 3).cast nbuf0_3)
/-- The two accumulators: whole scoped buffers of the kernel's own. -/
abbrev scM0_0 : Memref sig .tc .vmem S500x256 .f32 := Memref.whole cc0_scratch0
abbrev scM0_1 : Memref sig .tc .vmem S500x8 .f32 := Memref.whole cc0_scratch1
abbrev VS0_0 : View sig .tc .vmem S500x256 .f32 := scM0_0.view
abbrev VS0_1 : View sig .tc .vmem S500x8 .f32 := scM0_1.view

/-- The region's invariant with the two accumulators as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.Hand

end
-- ==== Proof.KI.RunB.lean ====
/-
  The kernel body at a middle grid point (neither the first nor the last): on whole buffers holding the two
  gene-major blocks, the membership block and the two accumulators, it runs to the end leaving the inputs as they
  were, the result's buffer untouched, and each accumulator overwritten whole by one store; the stored pieces are
  the witness the symbolic run finds.
-/
import proofs.«171851_g66838281060554_cont_sun_c4_581_21_alg».proof.Proof.KI.Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a middle point: the pieces its stores leave in the two accumulators, with the run. -/
noncomputable def kernelRun0_B (c : Dev nD) (i : grid0.Coords) (arg1 : Memref sig .tc .vmem S2560x256 .f32) (harg1 : arg1.IsWhole) (arg2 : Memref sig .tc .vmem S2560x256 .f32) (harg2 : arg2.IsWhole) (arg3 : Memref sig .tc .vmem S500x2560 .f32) (harg3 : arg3.IsWhole) (arg4 : Memref sig .tc .vmem S1x1 .f32) (harg4 : arg4.IsWhole) (arg5 : Memref sig .tc .vmem S500x256 .f32) (harg5 : arg5.IsWhole) (arg6 : Memref sig .tc .vmem S500x8 .f32) (harg6 : arg6.IsWhole) (hc0 : ¬cond0_0 i) (hc1 : ¬cond0_1 i)
    (x0 x1 : Vec F S2560x256 .f32) (x2 : Vec F S500x2560 .f32) (xs0 : Vec F S500x256 .f32) (xs1 : Vec F S500x8 .f32) :
    Σ' (LS0 : List (View.Piece (Elt F) S500x256 .f32)), { LS1 : List (View.Piece (Elt F) S500x8 .f32) //
      ∀ (xi3 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xi3
            ∗ owns (c : Thread nD τ) arg5 fullShare xs0 ∗ owns (c : Thread nD τ) arg6 fullShare xs1
            ∗ (iprop(owns (c : Thread nD τ) arg1 fullShare x0 ∗ owns (c : Thread nD τ) arg2 fullShare x1 ∗ owns (c : Thread nD τ) arg3 fullShare x2 ∗ owns (c : Thread nD τ) arg4 fullShare xi3
                ∗ (∃ f, arg5.view.loc (c : Thread nD τ) ↦[arg5.view.set]{fullShare} arg5.view.writes (Elt F) f LS0)
                ∗ (∃ f, arg6.view.loc (c : Thread nD τ) ↦[arg6.view.set]{fullShare} arg6.view.writes (Elt F) f LS1)) -∗ K ⟨⟩))
          ⊢ wp frame (wpE (defs₀ (F := F)) Variants.none c none) E (cc0__pcl_body i arg1 harg1 arg2 harg2 arg3 harg3 arg4 harg4 arg5 harg5 arg6 harg6) K } := by
  refine ⟨?_, ?_, fun xi3 E K => ?run⟩
  case run =>
    simp only [cc0__pcl_body_eq_skeleton]; unfold cc0__pcl_body_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg1.eq_unread hf0; obtain rfl := harg2.eq_unread hf1; obtain rfl := harg3.eq_unread hf2
    obtain rfl := harg4.eq_unread hf3; obtain rfl := harg5.eq_unread hfs0; obtain rfl := harg6.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [HS0]; · iexists _; iexact HS0
    iexists _; iexact HS1

end Cert.KernelIdeal.Hand

end
-- ==== Proof.KI.RunA.lean ====
/-
  The kernel body at the first grid point: it first overwrites both accumulators with zeros, so it needs them at no
  particular contents; then, as at every point, it overwrites each whole by one store. The result's buffer is untouched.
-/
import proofs.«171851_g66838281060554_cont_sun_c4_581_21_alg».proof.Proof.KI.RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at the first point: the pieces its stores leave in the two accumulators, with the run. -/
noncomputable def kernelRun0_A (c : Dev nD) (i : grid0.Coords) (arg1 : Memref sig .tc .vmem S2560x256 .f32) (harg1 : arg1.IsWhole) (arg2 : Memref sig .tc .vmem S2560x256 .f32) (harg2 : arg2.IsWhole) (arg3 : Memref sig .tc .vmem S500x2560 .f32) (harg3 : arg3.IsWhole) (arg4 : Memref sig .tc .vmem S1x1 .f32) (harg4 : arg4.IsWhole) (arg5 : Memref sig .tc .vmem S500x256 .f32) (harg5 : arg5.IsWhole) (arg6 : Memref sig .tc .vmem S500x8 .f32) (harg6 : arg6.IsWhole) (hc0 : cond0_0 i) (hc1 : ¬cond0_1 i)
    (x0 x1 : Vec F S2560x256 .f32) (x2 : Vec F S500x2560 .f32) :
    Σ' (LS0 : List (View.Piece (Elt F) S500x256 .f32)), { LS1 : List (View.Piece (Elt F) S500x8 .f32) //
      ∀ (xi3 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xi3
            ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare xi3
                ∗ (∃ f, arg5.view.loc (c : Thread nD τ) ↦[arg5.view.set]{fullShare} arg5.view.writes (Elt F) f LS0)
                ∗ (∃ f, arg6.view.loc (c : Thread nD τ) ↦[arg6.view.set]{fullShare} arg6.view.writes (Elt F) f LS1)) -∗ K ⟨⟩))
          ⊢ wp frame (wpE (defs₀ (F := F)) Variants.none c none) E (cc0__pcl_body i arg1 harg1 arg2 harg2 arg3 harg3 arg4 harg4 arg5 harg5 arg6 harg6) K } := by
  refine ⟨?_, ?_, fun xi3 E K => ?run⟩
  case run =>
    simp only [cc0__pcl_body_eq_skeleton]; unfold cc0__pcl_body_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
    obtain rfl := harg1.eq_unread hf0; obtain rfl := harg2.eq_unread hf1; obtain rfl := harg3.eq_unread hf2
    obtain rfl := harg4.eq_unread hf3
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [HS0]; · iexists _; iexact HS0
    iexists _; iexact HS1

end Cert.KernelIdeal.Hand

end
-- ==== Proof.KI.RunC.lean ====
/-
  The kernel body at the last grid point: after the two accumulating stores it loads the first column of the sizes
  and the weighted sums back, computes the loss, and stores it into the result's buffer, which it therefore needs at
  no particular contents.
-/
import proofs.«171851_g66838281060554_cont_sun_c4_581_21_alg».proof.Proof.KI.RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at the last point: the pieces its stores leave in the result's buffer and the two accumulators, with the run. -/
noncomputable def kernelRun0_C (c : Dev nD) (i : grid0.Coords) (arg1 : Memref sig .tc .vmem S2560x256 .f32) (harg1 : arg1.IsWhole) (arg2 : Memref sig .tc .vmem S2560x256 .f32) (harg2 : arg2.IsWhole) (arg3 : Memref sig .tc .vmem S500x2560 .f32) (harg3 : arg3.IsWhole) (arg4 : Memref sig .tc .vmem S1x1 .f32) (harg4 : arg4.IsWhole) (arg5 : Memref sig .tc .vmem S500x256 .f32) (harg5 : arg5.IsWhole) (arg6 : Memref sig .tc .vmem S500x8 .f32) (harg6 : arg6.IsWhole) (hc0 : ¬cond0_0 i) (hc1 : cond0_1 i)
    (x0 x1 : Vec F S2560x256 .f32) (x2 : Vec F S500x2560 .f32) (xs0 : Vec F S500x256 .f32) (xs1 : Vec F S500x8 .f32) :
    Σ' (L3 : List (View.Piece (Elt F) S1x1 .f32)) (LS0 : List (View.Piece (Elt F) S500x256 .f32)), { LS1 : List (View.Piece (Elt F) S500x8 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d)
            ∗ owns (c : Thread nD τ) arg5 fullShare xs0 ∗ owns (c : Thread nD τ) arg6 fullShare xs1
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L3)
                ∗ (∃ f, arg5.view.loc (c : Thread nD τ) ↦[arg5.view.set]{fullShare} arg5.view.writes (Elt F) f LS0)
                ∗ (∃ f, arg6.view.loc (c : Thread nD τ) ↦[arg6.view.set]{fullShare} arg6.view.writes (Elt F) f LS1)) -∗ K ⟨⟩))
          ⊢ wp frame (wpE (defs₀ (F := F)) Variants.none c none) E (cc0__pcl_body i arg1 harg1 arg2 harg2 arg3 harg3 arg4 harg4 arg5 harg5 arg6 harg6) K } := by
  refine ⟨?_, ?_, ?_, fun E K => ?run⟩
  case run =>
    simp only [cc0__pcl_body_eq_skeleton]; unfold cc0__pcl_body_skel
    simp only [k0_part1_eq_skeleton]; unfold k0_part1_skel
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, Hk⟩
    obtain rfl := harg1.eq_unread hf0; obtain rfl := harg2.eq_unread hf1; obtain rfl := harg3.eq_unread hf2
    obtain rfl := harg5.eq_unread hfs0; obtain rfl := harg6.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [HS0]; · iexists _; iexact HS0
    iexists _; iexact HS1

end Cert.KernelIdeal.Hand

end
-- ==== Proof.KI.Pieces.lean ====
/-
  What each run's stores leave, read back: every store of the body overwrites its whole buffer, so each accumulator
  ends at the last stored value — the new weighted sums and the new sizes as functions of the three blocks and of what
  the accumulators held (zeros at the first point) — and at the last point the result's buffer ends at the loss computed
  from the first column of the new sizes and the new weighted sums.
-/
import proofs.«171851_g66838281060554_cont_sun_c4_581_21_alg».proof.Proof.KI.RunC
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The pieces cover the buffers -/

theorem scover0_A_0 (c : Dev nD) (i : grid0.Coords) (arg1 : Memref sig .tc .vmem S2560x256 .f32) (harg1 : arg1.IsWhole) (arg2 : Memref sig .tc .vmem S2560x256 .f32) (harg2 : arg2.IsWhole) (arg3 : Memref sig .tc .vmem S500x2560 .f32) (harg3 : arg3.IsWhole) (arg4 : Memref sig .tc .vmem S1x1 .f32) (harg4 : arg4.IsWhole) (arg5 : Memref sig .tc .vmem S500x256 .f32) (harg5 : arg5.IsWhole) (arg6 : Memref sig .tc .vmem S500x8 .f32) (harg6 : arg6.IsWhole) (hc0 : cond0_0 i) (hc1 : ¬cond0_1 i)
    (x0 x1 : Vec F S2560x256 .f32) (x2 : Vec F S500x2560 .f32) (y : S500x256.Idx) :
    ∃ pc ∈ (kernelRun0_A c i arg1 harg1 arg2 harg2 arg3 harg3 arg4 harg4 arg5 harg5 arg6 harg6 hc0 hc1 x0 x1 x2).1, y ∈ pc.1.set :=
  View.cover_of_tiledL (kernelRun0_A c i arg1 harg1 arg2 harg2 arg3 harg3 arg4 harg4 arg5 harg5 arg6 harg6 hc0 hc1 x0 x1 x2).1 S500x256.size (by sl_kernel_rfl) y
theorem scover0_A_1 (c : Dev nD) (i : grid0.Coords) (arg1 : Memref sig .tc .vmem S2560x256 .f32) (harg1 : arg1.IsWhole) (arg2 : Memref sig .tc .vmem S2560x256 .f32) (harg2 : arg2.IsWhole) (arg3 : Memref sig .tc .vmem S500x2560 .f32) (harg3 : arg3.IsWhole) (arg4 : Memref sig .tc .vmem S1x1 .f32) (harg4 : arg4.IsWhole) (arg5 : Memref sig .tc .vmem S500x256 .f32) (harg5 : arg5.IsWhole) (arg6 : Memref sig .tc .vmem S500x8 .f32) (harg6 : arg6.IsWhole) (hc0 : cond0_0 i) (hc1 : ¬cond0_1 i)
    (x0 x1 : Vec F S2560x256 .f32) (x2 : Vec F S500x2560 .f32) (y : S500x8.Idx) :
    ∃ pc ∈ (kernelRun0_A c i arg1 harg1 arg2 harg2 arg3 harg3 arg4 harg4 arg5 harg5 arg6 harg6 hc0 hc1 x0 x1 x2).2.1, y ∈ pc.1.set :=
  View.cover_of_tiledL (kernelRun0_A c i arg1 harg1 arg2 harg2 arg3 harg3 arg4 harg4 arg5 harg5 arg6 harg6 hc0 hc1 x0 x1 x2).2.1 S500x8.size (by sl_kernel_rfl) y
theorem scover0_B_0 (c : Dev nD) (i : grid0.Coords) (arg1 : Memref sig .tc .vmem S2560x256 .f32) (harg1 : arg1.IsWhole) (arg2 : Memref sig .tc .vmem S2560x256 .f32) (harg2 : arg2.IsWhole) (arg3 : Memref sig .tc .vmem S500x2560 .f32) (harg3 : arg3.IsWhole) (arg4 : Memref sig .tc .vmem S1x1 .f32) (harg4 : arg4.IsWhole) (arg5 : Memref sig .tc .vmem S500x256 .f32) (harg5 : arg5.IsWhole) (arg6 : Memref sig .tc .vmem S500x8 .f32) (harg6 : arg6.IsWhole) (hc0 : ¬cond0_0 i) (hc1 : ¬cond0_1 i)
    (x0 x1 : Vec F S2560x256 .f32) (x2 : Vec F S500x2560 .f32) (xs0 : Vec F S500x256 .f32) (xs1 : Vec F S500x8 .f32) (y : S500x256.Idx) :
    ∃ pc ∈ (kernelRun0_B c i arg1 harg1 arg2 harg2 arg3 harg3 arg4 harg4 arg5 harg5 arg6 harg6 hc0 hc1 x0 x1 x2 xs0 xs1).1, y ∈ pc.1.set :=
  View.cover_of_tiledL (kernelRun0_B c i arg1 harg1 arg2 harg2 arg3 harg3 arg4 harg4 arg5 harg5 arg6 harg6 hc0 hc1 x0 x1 x2 xs0 xs1).1 S500x256.size (by sl_kernel_rfl) y
theorem scover0_B_1 (c : Dev nD) (i : grid0.Coords) (arg1 : Memref sig .tc .vmem S2560x256 .f32) (harg1 : arg1.IsWhole) (arg2 : Memref sig .tc .vmem S2560x256 .f32) (harg2 : arg2.IsWhole) (arg3 : Memref sig .tc .vmem S500x2560 .f32) (harg3 : arg3.IsWhole) (arg4 : Memref sig .tc .vmem S1x1 .f32) (harg4 : arg4.IsWhole) (arg5 : Memref sig .tc .vmem S500x256 .f32) (harg5 : arg5.IsWhole) (arg6 : Memref sig .tc .vmem S500x8 .f32) (harg6 : arg6.IsWhole) (hc0 : ¬cond0_0 i) (hc1 : ¬cond0_1 i)
    (x0 x1 : Vec F S2560x256 .f32) (x2 : Vec F S500x2560 .f32) (xs0 : Vec F S500x256 .f32) (xs1 : Vec F S500x8 .f32) (y : S500x8.Idx) :
    ∃ pc ∈ (kernelRun0_B c i arg1 harg1 arg2 harg2 arg3 harg3 arg4 harg4 arg5 harg5 arg6 harg6 hc0 hc1 x0 x1 x2 xs0 xs1).2.1, y ∈ pc.1.set :=
  View.cover_of_tiledL (kernelRun0_B c i arg1 harg1 arg2 harg2 arg3 harg3 arg4 harg4 arg5 harg5 arg6 harg6 hc0 hc1 x0 x1 x2 xs0 xs1).2.1 S500x8.size (by sl_kernel_rfl) y
theorem cover0_C_3 (c : Dev nD) (i : grid0.Coords) (arg1 : Memref sig .tc .vmem S2560x256 .f32) (harg1 : arg1.IsWhole) (arg2 : Memref sig .tc .vmem S2560x256 .f32) (harg2 : arg2.IsWhole) (arg3 : Memref sig .tc .vmem S500x2560 .f32) (harg3 : arg3.IsWhole) (arg4 : Memref sig .tc .vmem S1x1 .f32) (harg4 : arg4.IsWhole) (arg5 : Memref sig .tc .vmem S500x256 .f32) (harg5 : arg5.IsWhole) (arg6 : Memref sig .tc .vmem S500x8 .f32) (harg6 : arg6.IsWhole) (hc0 : ¬cond0_0 i) (hc1 : cond0_1 i)
    (x0 x1 : Vec F S2560x256 .f32) (x2 : Vec F S500x2560 .f32) (xs0 : Vec F S500x256 .f32) (xs1 : Vec F S500x8 .f32) (y : S1x1.Idx) :
    ∃ pc ∈ (kernelRun0_C c i arg1 harg1 arg2 harg2 arg3 harg3 arg4 harg4 arg5 harg5 arg6 harg6 hc0 hc1 x0 x1 x2 xs0 xs1).1, y ∈ pc.1.set :=
  View.cover_of_tiledL (kernelRun0_C c i arg1 harg1 arg2 harg2 arg3 harg3 arg4 harg4 arg5 harg5 arg6 harg6 hc0 hc1 x0 x1 x2 xs0 xs1).1 S1x1.size (by sl_kernel_rfl) y
theorem scover0_C_0 (c : Dev nD) (i : grid0.Coords) (arg1 : Memref sig .tc .vmem S2560x256 .f32) (harg1 : arg1.IsWhole) (arg2 : Memref sig .tc .vmem S2560x256 .f32) (harg2 : arg2.IsWhole) (arg3 : Memref sig .tc .vmem S500x2560 .f32) (harg3 : arg3.IsWhole) (arg4 : Memref sig .tc .vmem S1x1 .f32) (harg4 : arg4.IsWhole) (arg5 : Memref sig .tc .vmem S500x256 .f32) (harg5 : arg5.IsWhole) (arg6 : Memref sig .tc .vmem S500x8 .f32) (harg6 : arg6.IsWhole) (hc0 : ¬cond0_0 i) (hc1 : cond0_1 i)
    (x0 x1 : Vec F S2560x256 .f32) (x2 : Vec F S500x2560 .f32) (xs0 : Vec F S500x256 .f32) (xs1 : Vec F S500x8 .f32) (y : S500x256.Idx) :
    ∃ pc ∈ (kernelRun0_C c i arg1 harg1 arg2 harg2 arg3 harg3 arg4 harg4 arg5 harg5 arg6 harg6 hc0 hc1 x0 x1 x2 xs0 xs1).2.1, y ∈ pc.1.set :=
  View.cover_of_tiledL (kernelRun0_C c i arg1 harg1 arg2 harg2 arg3 harg3 arg4 harg4 arg5 harg5 arg6 harg6 hc0 hc1 x0 x1 x2 xs0 xs1).2.1 S500x256.size (by sl_kernel_rfl) y
theorem scover0_C_1 (c : Dev nD) (i : grid0.Coords) (arg1 : Memref sig .tc .vmem S2560x256 .f32) (harg1 : arg1.IsWhole) (arg2 : Memref sig .tc .vmem S2560x256 .f32) (harg2 : arg2.IsWhole) (arg3 : Memref sig .tc .vmem S500x2560 .f32) (harg3 : arg3.IsWhole) (arg4 : Memref sig .tc .vmem S1x1 .f32) (harg4 : arg4.IsWhole) (arg5 : Memref sig .tc .vmem S500x256 .f32) (harg5 : arg5.IsWhole) (arg6 : Memref sig .tc .vmem S500x8 .f32) (harg6 : arg6.IsWhole) (hc0 : ¬cond0_0 i) (hc1 : cond0_1 i)
    (x0 x1 : Vec F S2560x256 .f32) (x2 : Vec F S500x2560 .f32) (xs0 : Vec F S500x256 .f32) (xs1 : Vec F S500x8 .f32) (y : S500x8.Idx) :
    ∃ pc ∈ (kernelRun0_C c i arg1 harg1 arg2 harg2 arg3 harg3 arg4 harg4 arg5 harg5 arg6 harg6 hc0 hc1 x0 x1 x2 xs0 xs1).2.2.1, y ∈ pc.1.set :=
  View.cover_of_tiledL (kernelRun0_C c i arg1 harg1 arg2 harg2 arg3 harg3 arg4 harg4 arg5 harg5 arg6 harg6 hc0 hc1 x0 x1 x2 xs0 xs1).2.2.1 S500x8.size (by sl_kernel_rfl) y

/-! ## What the stores leave, read back -/

/-- The first column of a [500, 8] array, as the last point's load reads it. -/
def col0 (X : Vec F S500x8 .f32) : Vec F S500x1 .f32 :=
  View.ld X (Rect.unit (s := S500x8) ![0, 0] S500x1.size inb_S500x8_S500x1_0_0)

theorem zz : (![0, 0] : Fin 2 → Nat) = fun _ => 0 := funext fun a => by fin_cases a <;> rfl

/-- One store through the whole buffer covers it. -/
theorem cover_whole {S : Shape} {e : EltTy} {off : Fin S.rank → Nat} (h : off = fun _ => 0)
    (inb : ∀ a, off a + S.size a ≤ S.size a) (w : S.Idx → Elt F e) :
    ∀ y : S.Idx, ∃ p ∈ [(⟨Rect.unit off S.size inb, w⟩ : View.Piece (Elt F) S e)], y ∈ p.1.set := by
  subst h; intro y
  exact ⟨_, List.mem_singleton_self _, by show y ∈ (Rect.whole S).set; rw [Rect.set_whole]; exact Finset.mem_univ y⟩

/-- A load through any rectangle of what one store through the whole buffer left reads the stored value there. -/
theorem readCov_sub_unit_zero {sig' : RefSig} {κ : Kind} {sp : Space} {S : Shape} {e : EltTy} (v : View sig' κ sp S e)
    {off : Fin S.rank → Nat} (h : off = fun _ => 0) (inb : ∀ a, off a + S.size a ≤ S.size a) (w : S.Idx → Elt F e) (r : Rect S) :
    v.readCov [(⟨Rect.unit off S.size inb, w⟩ : View.Piece (Elt F) S e)] r.toLoadRect = View.ld w r := by
  rw [View.readCov_eq_canon_ld _ _ _ (cover_whole h inb w), View.canon_unit_zero h]

set_option maxHeartbeats 2000000 in
/-- The first point leaves the weighted sums at the update of zeros, -/
theorem sread0_A_0 (c : Dev nD) (i : grid0.Coords) (arg1 : Memref sig .tc .vmem S2560x256 .f32) (harg1 : arg1.IsWhole) (arg2 : Memref sig .tc .vmem S2560x256 .f32) (harg2 : arg2.IsWhole) (arg3 : Memref sig .tc .vmem S500x2560 .f32) (harg3 : arg3.IsWhole) (arg4 : Memref sig .tc .vmem S1x1 .f32) (harg4 : arg4.IsWhole) (arg5 : Memref sig .tc .vmem S500x256 .f32) (harg5 : arg5.IsWhole) (arg6 : Memref sig .tc .vmem S500x8 .f32) (harg6 : arg6.IsWhole) (hc0 : cond0_0 i) (hc1 : ¬cond0_1 i)
    (x0 x1 : Vec F S2560x256 .f32) (x2 : Vec F S500x2560 .f32) :
    View.canon (kernelRun0_A c i arg1 harg1 arg2 harg2 arg3 harg3 arg4 harg4 arg5 harg5 arg6 harg6 hc0 hc1 x0 x1 x2).1 = k0_pay5 i x1 x0 x2 (k0_pay2 (F := F)) := by
  unfold kernelRun0_A; dsimp only; sl_unfold_words
  refine (View.canon_cons_unit_zero (S := S500x256) zz _ _ _).trans ?_
  simp only [View.readAt_eq_ld, harg1.read_unread, harg2.read_unread, harg3.read_unread, harg5.read_unread, harg6.read_unread,
    View.ld_unit_zero (S := S2560x256) zz, View.ld_unit_zero (S := S500x2560) zz, View.ld_unit_zero (S := S500x256) zz, View.ld_unit_zero (S := S500x8) zz,
    View.readCov_unit_zero (S := S500x256) _ zz, View.readCov_unit_zero (S := S500x8) _ zz]
set_option maxHeartbeats 2000000 in
/-- and the sizes at the update of zeros. -/
theorem sread0_A_1 (c : Dev nD) (i : grid0.Coords) (arg1 : Memref sig .tc .vmem S2560x256 .f32) (harg1 : arg1.IsWhole) (arg2 : Memref sig .tc .vmem S2560x256 .f32) (harg2 : arg2.IsWhole) (arg3 : Memref sig .tc .vmem S500x2560 .f32) (harg3 : arg3.IsWhole) (arg4 : Memref sig .tc .vmem S1x1 .f32) (harg4 : arg4.IsWhole) (arg5 : Memref sig .tc .vmem S500x256 .f32) (harg5 : arg5.IsWhole) (arg6 : Memref sig .tc .vmem S500x8 .f32) (harg6 : arg6.IsWhole) (hc0 : cond0_0 i) (hc1 : ¬cond0_1 i)
    (x0 x1 : Vec F S2560x256 .f32) (x2 : Vec F S500x2560 .f32) :
    View.canon (kernelRun0_A c i arg1 harg1 arg2 harg2 arg3 harg3 arg4 harg4 arg5 harg5 arg6 harg6 hc0 hc1 x0 x1 x2).2.1 = k0_pay6 i x2 (k0_pay3 (F := F)) := by
  unfold kernelRun0_A; dsimp only; sl_unfold_words
  refine (View.canon_cons_unit_zero (S := S500x8) zz _ _ _).trans ?_
  simp only [View.readAt_eq_ld, harg1.read_unread, harg2.read_unread, harg3.read_unread, harg5.read_unread, harg6.read_unread,
    View.ld_unit_zero (S := S2560x256) zz, View.ld_unit_zero (S := S500x2560) zz, View.ld_unit_zero (S := S500x256) zz, View.ld_unit_zero (S := S500x8) zz,
    View.readCov_unit_zero (S := S500x256) _ zz, View.readCov_unit_zero (S := S500x8) _ zz]
set_option maxHeartbeats 2000000 in
/-- A middle point leaves the weighted sums at the update of what they held, -/
theorem sread0_B_0 (c : Dev nD) (i : grid0.Coords) (arg1 : Memref sig .tc .vmem S2560x256 .f32) (harg1 : arg1.IsWhole) (arg2 : Memref sig .tc .vmem S2560x256 .f32) (harg2 : arg2.IsWhole) (arg3 : Memref sig .tc .vmem S500x2560 .f32) (harg3 : arg3.IsWhole) (arg4 : Memref sig .tc .vmem S1x1 .f32) (harg4 : arg4.IsWhole) (arg5 : Memref sig .tc .vmem S500x256 .f32) (harg5 : arg5.IsWhole) (arg6 : Memref sig .tc .vmem S500x8 .f32) (harg6 : arg6.IsWhole) (hc0 : ¬cond0_0 i) (hc1 : ¬cond0_1 i)
    (x0 x1 : Vec F S2560x256 .f32) (x2 : Vec F S500x2560 .f32) (xs0 : Vec F S500x256 .f32) (xs1 : Vec F S500x8 .f32) :
    View.canon (kernelRun0_B c i arg1 harg1 arg2 harg2 arg3 harg3 arg4 harg4 arg5 harg5 arg6 harg6 hc0 hc1 x0 x1 x2 xs0 xs1).1 = k0_pay5 i x1 x0 x2 xs0 := by
  unfold kernelRun0_B; dsimp only; sl_unfold_words
  refine (View.canon_cons_unit_zero (S := S500x256) zz _ _ _).trans ?_
  simp only [View.readAt_eq_ld, harg1.read_unread, harg2.read_unread, harg3.read_unread, harg5.read_unread, harg6.read_unread,
    View.ld_unit_zero (S := S2560x256) zz, View.ld_unit_zero (S := S500x2560) zz, View.ld_unit_zero (S := S500x256) zz, View.ld_unit_zero (S := S500x8) zz,
    View.readCov_unit_zero (S := S500x256) _ zz, View.readCov_unit_zero (S := S500x8) _ zz]
set_option maxHeartbeats 2000000 in
/-- and the sizes likewise. -/
theorem sread0_B_1 (c : Dev nD) (i : grid0.Coords) (arg1 : Memref sig .tc .vmem S2560x256 .f32) (harg1 : arg1.IsWhole) (arg2 : Memref sig .tc .vmem S2560x256 .f32) (harg2 : arg2.IsWhole) (arg3 : Memref sig .tc .vmem S500x2560 .f32) (harg3 : arg3.IsWhole) (arg4 : Memref sig .tc .vmem S1x1 .f32) (harg4 : arg4.IsWhole) (arg5 : Memref sig .tc .vmem S500x256 .f32) (harg5 : arg5.IsWhole) (arg6 : Memref sig .tc .vmem S500x8 .f32) (harg6 : arg6.IsWhole) (hc0 : ¬cond0_0 i) (hc1 : ¬cond0_1 i)
    (x0 x1 : Vec F S2560x256 .f32) (x2 : Vec F S500x2560 .f32) (xs0 : Vec F S500x256 .f32) (xs1 : Vec F S500x8 .f32) :
    View.canon (kernelRun0_B c i arg1 harg1 arg2 harg2 arg3 harg3 arg4 harg4 arg5 harg5 arg6 harg6 hc0 hc1 x0 x1 x2 xs0 xs1).2.1 = k0_pay6 i x2 xs1 := by
  unfold kernelRun0_B; dsimp only; sl_unfold_words
  refine (View.canon_cons_unit_zero (S := S500x8) zz _ _ _).trans ?_
  simp only [View.readAt_eq_ld, harg1.read_unread, harg2.read_unread, harg3.read_unread, harg5.read_unread, harg6.read_unread,
    View.ld_unit_zero (S := S2560x256) zz, View.ld_unit_zero (S := S500x2560) zz, View.ld_unit_zero (S := S500x256) zz, View.ld_unit_zero (S := S500x8) zz,
    View.readCov_unit_zero (S := S500x256) _ zz, View.readCov_unit_zero (S := S500x8) _ zz]
set_option maxHeartbeats 2000000 in
/-- The last point updates both in the same way, -/
theorem sread0_C_0 (c : Dev nD) (i : grid0.Coords) (arg1 : Memref sig .tc .vmem S2560x256 .f32) (harg1 : arg1.IsWhole) (arg2 : Memref sig .tc .vmem S2560x256 .f32) (harg2 : arg2.IsWhole) (arg3 : Memref sig .tc .vmem S500x2560 .f32) (harg3 : arg3.IsWhole) (arg4 : Memref sig .tc .vmem S1x1 .f32) (harg4 : arg4.IsWhole) (arg5 : Memref sig .tc .vmem S500x256 .f32) (harg5 : arg5.IsWhole) (arg6 : Memref sig .tc .vmem S500x8 .f32) (harg6 : arg6.IsWhole) (hc0 : ¬cond0_0 i) (hc1 : cond0_1 i)
    (x0 x1 : Vec F S2560x256 .f32) (x2 : Vec F S500x2560 .f32) (xs0 : Vec F S500x256 .f32) (xs1 : Vec F S500x8 .f32) :
    View.canon (kernelRun0_C c i arg1 harg1 arg2 harg2 arg3 harg3 arg4 harg4 arg5 harg5 arg6 harg6 hc0 hc1 x0 x1 x2 xs0 xs1).2.1 = k0_pay5 i x1 x0 x2 xs0 := by
  unfold kernelRun0_C; dsimp only; sl_unfold_words
  refine (View.canon_cons_unit_zero (S := S500x256) zz _ _ _).trans ?_
  simp only [View.readAt_eq_ld, harg1.read_unread, harg2.read_unread, harg3.read_unread, harg5.read_unread, harg6.read_unread,
    View.ld_unit_zero (S := S2560x256) zz, View.ld_unit_zero (S := S500x2560) zz, View.ld_unit_zero (S := S500x256) zz, View.ld_unit_zero (S := S500x8) zz,
    View.readCov_unit_zero (S := S500x256) _ zz, View.readCov_unit_zero (S := S500x8) _ zz]
set_option maxHeartbeats 2000000 in
theorem sread0_C_1 (c : Dev nD) (i : grid0.Coords) (arg1 : Memref sig .tc .vmem S2560x256 .f32) (harg1 : arg1.IsWhole) (arg2 : Memref sig .tc .vmem S2560x256 .f32) (harg2 : arg2.IsWhole) (arg3 : Memref sig .tc .vmem S500x2560 .f32) (harg3 : arg3.IsWhole) (arg4 : Memref sig .tc .vmem S1x1 .f32) (harg4 : arg4.IsWhole) (arg5 : Memref sig .tc .vmem S500x256 .f32) (harg5 : arg5.IsWhole) (arg6 : Memref sig .tc .vmem S500x8 .f32) (harg6 : arg6.IsWhole) (hc0 : ¬cond0_0 i) (hc1 : cond0_1 i)
    (x0 x1 : Vec F S2560x256 .f32) (x2 : Vec F S500x2560 .f32) (xs0 : Vec F S500x256 .f32) (xs1 : Vec F S500x8 .f32) :
    View.canon (kernelRun0_C c i arg1 harg1 arg2 harg2 arg3 harg3 arg4 harg4 arg5 harg5 arg6 harg6 hc0 hc1 x0 x1 x2 xs0 xs1).2.2.1 = k0_pay6 i x2 xs1 := by
  unfold kernelRun0_C; dsimp only; sl_unfold_words
  refine (View.canon_cons_unit_zero (S := S500x8) zz _ _ _).trans ?_
  simp only [View.readAt_eq_ld, harg1.read_unread, harg2.read_unread, harg3.read_unread, harg5.read_unread, harg6.read_unread,
    View.ld_unit_zero (S := S2560x256) zz, View.ld_unit_zero (S := S500x2560) zz, View.ld_unit_zero (S := S500x256) zz, View.ld_unit_zero (S := S500x8) zz,
    View.readCov_unit_zero (S := S500x256) _ zz, View.readCov_unit_zero (S := S500x8) _ zz]
set_option maxHeartbeats 2000000 in
/-- and leaves in the result's buffer the loss computed from the first column of the new sizes and the new weighted sums. -/
theorem read0_C_3 (c : Dev nD) (i : grid0.Coords) (arg1 : Memref sig .tc .vmem S2560x256 .f32) (harg1 : arg1.IsWhole) (arg2 : Memref sig .tc .vmem S2560x256 .f32) (harg2 : arg2.IsWhole) (arg3 : Memref sig .tc .vmem S500x2560 .f32) (harg3 : arg3.IsWhole) (arg4 : Memref sig .tc .vmem S1x1 .f32) (harg4 : arg4.IsWhole) (arg5 : Memref sig .tc .vmem S500x256 .f32) (harg5 : arg5.IsWhole) (arg6 : Memref sig .tc .vmem S500x8 .f32) (harg6 : arg6.IsWhole) (hc0 : ¬cond0_0 i) (hc1 : cond0_1 i)
    (x0 x1 : Vec F S2560x256 .f32) (x2 : Vec F S500x2560 .f32) (xs0 : Vec F S500x256 .f32) (xs1 : Vec F S500x8 .f32) :
    View.canon (kernelRun0_C c i arg1 harg1 arg2 harg2 arg3 harg3 arg4 harg4 arg5 harg5 arg6 harg6 hc0 hc1 x0 x1 x2 xs0 xs1).1 = k0_pay1 (col0 (k0_pay6 i x2 xs1)) (k0_pay5 i x1 x0 x2 xs0) := by
  unfold kernelRun0_C; dsimp only; sl_unfold_words
  refine (View.canon_unit_zero (S := S1x1) zz _ _).trans ?_
  rw [readCov_sub_unit_zero (S := S500x8) _ zz, readCov_sub_unit_zero (S := S500x256) _ zz]
  simp only [View.readAt_eq_ld, harg1.read_unread, harg2.read_unread, harg3.read_unread, harg5.read_unread, harg6.read_unread,
    View.ld_unit_zero (S := S2560x256) zz, View.ld_unit_zero (S := S500x2560) zz, View.ld_unit_zero (S := S500x256) zz, View.ld_unit_zero (S := S500x8) zz]
  rfl

end Cert.KernelIdeal.Hand

end
-- ==== Proof.KI.Data.lean ====
/-
  The proof data of the one pipeline. Each input window's staging buffer is named by its block of the array, filled
  out past the array's end with zeros (the last block of each input overhangs its array; what the buffer's tail really
  holds is never named, and the body masks it). The two accumulators are named point by point: after point n they hold
  the body's update, at point n, of what they held after point n - 1 (zeros before point 0). The result's buffer is
  named by the loss computed from the accumulators after the last point.
-/
import proofs.«171851_g66838281060554_cont_sun_c4_581_21_alg».proof.Proof.KI.Pieces

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The input blocks, zero-filled -/

/-- Expression's block at point `t` (genes 2560 t …, all samples), zeros past the array's end. -/
def X0 (c : Dev nD) (t : Fin cfg0.N) : Vec F S2560x256 .f32 :=
  win0_0.fill (grid0.coords t) (fun _ => Scalar.ofBits .f32 0x00000000#32) (iblk m c 0 t)
/-- Predicted's block at point `t`, likewise. -/
def X1 (c : Dev nD) (t : Fin cfg0.N) : Vec F S2560x256 .f32 :=
  win0_1.fill (grid0.coords t) (fun _ => Scalar.ofBits .f32 0x00000000#32) (iblk m c 1 t)
/-- The membership matrix's block at point `t` (all pathways, genes 2560 t …), likewise. -/
def X2 (c : Dev nD) (t : Fin cfg0.N) : Vec F S500x2560 .f32 :=
  win0_2.fill (grid0.coords t) (fun _ => Scalar.ofBits .f32 0x00000000#32) (iblk m c 2 t)

/-! ## The accumulators, point by point -/

/-- The weighted sums after point `n`. -/
def accAt (c : Dev nD) : (n : ℕ) → n < cfg0.N → Vec F S500x256 .f32
  | 0, h => k0_pay5 (grid0.coords ⟨0, h⟩) (X1 m c ⟨0, h⟩) (X0 m c ⟨0, h⟩) (X2 m c ⟨0, h⟩) (k0_pay2 (F := F))
  | n + 1, h => k0_pay5 (grid0.coords ⟨n + 1, h⟩) (X1 m c ⟨n + 1, h⟩) (X0 m c ⟨n + 1, h⟩) (X2 m c ⟨n + 1, h⟩) (accAt c n (Nat.lt_of_succ_lt h))
/-- The sizes (in each of the eight columns) after point `n`. -/
def sizeAt (c : Dev nD) : (n : ℕ) → n < cfg0.N → Vec F S500x8 .f32
  | 0, h => k0_pay6 (grid0.coords ⟨0, h⟩) (X2 m c ⟨0, h⟩) (k0_pay3 (F := F))
  | n + 1, h => k0_pay6 (grid0.coords ⟨n + 1, h⟩) (X2 m c ⟨n + 1, h⟩) (sizeAt c n (Nat.lt_of_succ_lt h))

theorem accAt_zero (c : Dev nD) (t : Fin cfg0.N) (h0 : t.val = 0) :
    accAt m c t.val t.isLt = k0_pay5 (grid0.coords t) (X1 m c t) (X0 m c t) (X2 m c t) (k0_pay2 (F := F)) := by
  obtain ⟨n, hn⟩ := t; cases n with
  | zero => rfl
  | succ n => exact absurd h0 (Nat.succ_ne_zero n)
theorem accAt_pos (c : Dev nD) (t : Fin cfg0.N) (h0 : t.val ≠ 0) :
    accAt m c t.val t.isLt = k0_pay5 (grid0.coords t) (X1 m c t) (X0 m c t) (X2 m c t) (accAt m c (t.val - 1) (Nat.lt_of_le_of_lt (Nat.sub_le _ _) t.isLt)) := by
  obtain ⟨n, hn⟩ := t; cases n with
  | zero => exact absurd rfl h0
  | succ n => rfl
theorem sizeAt_zero (c : Dev nD) (t : Fin cfg0.N) (h0 : t.val = 0) :
    sizeAt m c t.val t.isLt = k0_pay6 (grid0.coords t) (X2 m c t) (k0_pay3 (F := F)) := by
  obtain ⟨n, hn⟩ := t; cases n with
  | zero => rfl
  | succ n => exact absurd h0 (Nat.succ_ne_zero n)
theorem sizeAt_pos (c : Dev nD) (t : Fin cfg0.N) (h0 : t.val ≠ 0) :
    sizeAt m c t.val t.isLt = k0_pay6 (grid0.coords t) (X2 m c t) (sizeAt m c (t.val - 1) (Nat.lt_of_le_of_lt (Nat.sub_le _ _) t.isLt)) := by
  obtain ⟨n, hn⟩ := t; cases n with
  | zero => exact absurd rfl h0
  | succ n => rfl

theorem seven_lt : 7 < cfg0.N := by show 7 < grid0.N; rw [N_0]; decide

/-- The loss as the last point computes it: from the first column of the final sizes and the final weighted sums. -/
def lossV (c : Dev nD) : Vec F S1x1 .f32 := k0_pay1 (col0 (sizeAt m c 7 seven_lt)) (accAt m c 7 seven_lt)

/-! ## The invariant -/

/-- Before the first point the two accumulators hold anything; before any later point they hold what the point before left. -/
def PhiS (c : Dev nD) : (n : ℕ) → n ≤ cfg0.N → sProp 𝕄
  | 0, _ => Pipeline.ΦA spec0 c
  | n + 1, hn => iprop(iprop(owns (c : Thread nD τ) scM0_0 fullShare (accAt m c n hn) ∗ owns (c : Thread nD τ) scM0_1 fullShare (sizeAt m c n hn)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM0_0 fullShare (accAt m c n hn) ∗ owns (c : Thread nD τ) scM0_1 fullShare (sizeAt m c n hn)) ∗ (∃ r, prngReg c r)) := rfl
theorem PhiS_pos (c : Dev nD) (n : ℕ) (h : n ≤ cfg0.N) (hz : n ≠ 0) :
    PhiS m c n h = iprop(iprop(owns (c : Thread nD τ) scM0_0 fullShare (accAt m c (n - 1) (by omega)) ∗ owns (c : Thread nD τ) scM0_1 fullShare (sizeAt m c (n - 1) (by omega))) ∗ (∃ r, prngReg c r)) := by
  cases n with
  | zero => exact absurd rfl hz
  | succ n => rfl

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => X0 m c t
    | ⟨1, _⟩ => X1 m c t
    | ⟨2, _⟩ => X2 m c t
    | ⟨3, _⟩ => lossV m c
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = X0 m c t := by dsimp only [dats]
theorem after0_1 (c : Dev nD) (t : Fin cfg0.N) : (dats m 0 c).after 1 t = X1 m c t := by dsimp only [dats]
theorem after0_2 (c : Dev nD) (t : Fin cfg0.N) : (dats m 0 c).after 2 t = X2 m c t := by dsimp only [dats]
theorem after0_3 (c : Dev nD) (t : Fin cfg0.N) : (dats m 0 c).after 3 t = lossV m c := by dsimp only [dats]

/-- Each input's buffer, just fetched: its block, and `d` past the array's end. -/
theorem before0_0 (c : Dev nD) (t : Fin cfg0.N) (d) :
    (dats m 0 c).before 0 t d = win0_0.fill (grid0.coords t) d (iblk m c 0 t) := by
  rw [Dat.before_fetched _ 0 t (fetch0_0 t)]; rfl
theorem before0_1 (c : Dev nD) (t : Fin cfg0.N) (d) :
    (dats m 0 c).before 1 t d = win0_1.fill (grid0.coords t) d (iblk m c 1 t) := by
  rw [Dat.before_fetched _ 1 t (fetch0_1 t)]; rfl
theorem before0_2 (c : Dev nD) (t : Fin cfg0.N) (d) :
    (dats m 0 c).before 2 t d = win0_2.fill (grid0.coords t) d (iblk m c 2 t) := by
  rw [Dat.before_fetched _ 2 t (fetch0_2 t)]; rfl

/-- What the obligation asks of an input's buffer after the body: the block on the part inside the array. -/
theorem cut0_0 (c : Dev nD) (t : Fin cfg0.N) : win0_0.cut (grid0.coords t) ((dats m 0 c).after 0 t) = iblk m c 0 t := by
  rw [after0_0]; exact win0_0.cut_fill _ _ _
theorem cut0_1 (c : Dev nD) (t : Fin cfg0.N) : win0_1.cut (grid0.coords t) ((dats m 0 c).after 1 t) = iblk m c 1 t := by
  rw [after0_1]; exact win0_1.cut_fill _ _ _
theorem cut0_2 (c : Dev nD) (t : Fin cfg0.N) : win0_2.cut (grid0.coords t) ((dats m 0 c).after 2 t) = iblk m c 2 t := by
  rw [after0_2]; exact win0_2.cut_fill _ _ _

end Cert.KernelIdeal.Hand

end
-- ==== Proof.KI.PayCongr.lean ====
/-
  The kernel's stored values depend on the loaded blocks only where the tail mask lets them through.

  At grid point `t = i 0` the body keeps column `k` of the membership block and row `k` of the difference
  block exactly when the global gene index `2560 t + k` is below 20000, and puts the zero word elsewhere
  (the comparison is the signed one of the bit-vector file, which does not wrap for `t < 8`). So

    * the masked membership block, read at an index, is the loaded element or the zero word (`pay4_apply`);
    * the masked difference block likewise (`pay5_rhs_apply`);
    * two families of loaded blocks that agree at every kept index give the same new accumulators
      (`pay5_congr`, `pay6_congr`): the operands of the two tile products are then equal as whole vectors.

  Everything here holds at every float instance: no arithmetic is evaluated.
-/
import proofs.«171851_g66838281060554_cont_sun_c4_581_21_alg».proof.Proof.Gen.KernelIdeal.Skeleton
import proofs.«171851_g66838281060554_cont_sun_c4_581_21_alg».proof.Proof.MaskBits
import Idealize.ShloMosaic.Lib.ValueIdx
import Idealize.ShloMosaic.Lib.Pipeline.Value

set_option synthInstance.maxSize 4096

noncomputable section

namespace Cert.KernelIdeal.PayFacts

open Idealize.ShloMosaic Idealize.SL.Sem Idealize.ShloMosaic.ValueIdx
open Cert.KernelIdeal Cert.KernelIdeal.Gen

variable {F : FTy → Type} [FloatOps F]

/-- The grid coordinate is below 8. -/
theorem grid_lt (i : grid0.Coords) : (i 0).val < 8 := (i 0).isLt

/-- The word the lane indices are compared with at grid point `i`: `20000 - (i 0) * 2560`. -/
abbrev limitWord (i : grid0.Coords) : BitVec 32 :=
  Scalar.subi 20000#32 (Scalar.muli (BitVec.ofNat 32 (i 0).val) 2560#32)

/-- The mask bit of the membership block at an index is `1` exactly on the kept columns. -/
theorem colBit_iff (i : grid0.Coords) (j : S500x2560.Idx) :
    Scalar.cmpi .slt (iota .tc S500x2560 32 [1] iota_S500x2560_d1_w32 j) (limitWord i) = 1#1
      ↔ 2560 * (i 0).val + (j 1).val < 20000 := by
  rw [Cert.MaskBits.iota1_apply]
  exact Cert.MaskBits.slt_limit_iff _ _ (grid_lt i) (j 1).isLt

/-- The mask bit of the difference block at an index is `1` exactly on the kept rows. -/
theorem rowBit_iff (i : grid0.Coords) (j : S2560x256.Idx) :
    Scalar.cmpi .slt (iota .tc S2560x256 32 [0] iota_S2560x256_d0_w32 j) (limitWord i) = 1#1
      ↔ 2560 * (i 0).val + (j 0).val < 20000 := by
  rw [Cert.MaskBits.iota0_apply]
  exact Cert.MaskBits.slt_limit_iff _ _ (grid_lt i) (j 0).isLt

/-- THE MASKED MEMBERSHIP BLOCK AT AN INDEX: the loaded element on the kept columns, the zero word elsewhere. -/
theorem pay4_apply (i : grid0.Coords) (x2 : Vec F S500x2560 .f32) (j : S500x2560.Idx) :
    k0_pay4 i x2 j
      = if 2560 * (i 0).val + (j 1).val < 20000 then x2 j else (Scalar.ofBits .f32 0x00000000#32 : F .f32) := by
  show Scalar.select (Scalar.cmpi .slt (iota .tc S500x2560 32 [1] iota_S500x2560_d1_w32 j) (limitWord i))
      (x2 j) (Scalar.ofBits .f32 0x00000000#32 : F .f32) = _
  by_cases h : 2560 * (i 0).val + (j 1).val < 20000
  · rw [if_pos h, (colBit_iff i j).mpr h]; exact select_one _ _
  · rw [if_neg h, eq_zero_of_ne_one (fun e => h ((colBit_iff i j).mp e))]; exact select_zero _ _

/-- Membership blocks that agree on the kept columns have the same masked block. -/
theorem pay4_congr (i : grid0.Coords) (x2 x2' : Vec F S500x2560 .f32)
    (h2 : ∀ j : S500x2560.Idx, 2560 * (i 0).val + (j 1).val < 20000 → x2 j = x2' j) :
    k0_pay4 i x2 = k0_pay4 i x2' := by
  funext j
  rw [pay4_apply, pay4_apply]
  by_cases h : 2560 * (i 0).val + (j 1).val < 20000
  · rw [if_pos h, if_pos h, h2 j h]
  · rw [if_neg h, if_neg h]

/-- The right operand of the accumulator's tile product: predicted minus expression on the kept rows, the zero
    word elsewhere. -/
def pay5_rhs (i : grid0.Coords) (x1 x0 : Vec F S2560x256 .f32) : FVec F S2560x256 .f32 :=
  select (cmpi .slt (iota .tc S2560x256 32 [0] iota_S2560x256_d0_w32) (broadcast S2560x256 (limitWord i)))
    (subf (shapeCast S2560x256 x1 shapeCasts_S2560x256_S2560x256) (shapeCast S2560x256 x0 shapeCasts_S2560x256_S2560x256))
    (broadcast S2560x256 (Scalar.ofBits .f32 0x00000000#32 : F .f32))

/-- The new accumulator is the old one plus the tile product of the masked membership block and `pay5_rhs`. -/
theorem pay5_eq (i : grid0.Coords) (x1 x0 : Vec F S2560x256 .f32) (x2 : Vec F S500x2560 .f32) (a : Vec F S500x256 .f32) :
    k0_pay5 i x1 x0 x2 a
      = addf a (matmul dot_S500x2560_S2560x256_S500x256_1_0_0_1_n_n none (k0_pay4 i x2) (pay5_rhs i x1 x0)
          (constant S500x256 .f32 0x00000000#32)) :=
  shapeCast_self _ _

/-- THE MASKED DIFFERENCE BLOCK AT AN INDEX: the instance's difference on the kept rows, the zero word elsewhere. -/
theorem pay5_rhs_apply (i : grid0.Coords) (x1 x0 : Vec F S2560x256 .f32) (j : S2560x256.Idx) :
    pay5_rhs i x1 x0 j
      = if 2560 * (i 0).val + (j 0).val < 20000 then FloatOps.subf (x1 j) (x0 j)
        else (Scalar.ofBits .f32 0x00000000#32 : F .f32) := by
  unfold pay5_rhs
  rw [shapeCast_self, shapeCast_self]
  show Scalar.select (Scalar.cmpi .slt (iota .tc S2560x256 32 [0] iota_S2560x256_d0_w32 j) (limitWord i))
      (FloatOps.subf (x1 j) (x0 j)) (Scalar.ofBits .f32 0x00000000#32 : F .f32) = _
  by_cases h : 2560 * (i 0).val + (j 0).val < 20000
  · rw [if_pos h, (rowBit_iff i j).mpr h]; exact select_one _ _
  · rw [if_neg h, eq_zero_of_ne_one (fun e => h ((rowBit_iff i j).mp e))]; exact select_zero _ _

/-- Predicted and expression blocks that agree on the kept rows have the same masked difference. -/
theorem pay5_rhs_congr (i : grid0.Coords) (x1 x1' x0 x0' : Vec F S2560x256 .f32)
    (h01 : ∀ j : S2560x256.Idx, 2560 * (i 0).val + (j 0).val < 20000 → x1 j = x1' j ∧ x0 j = x0' j) :
    pay5_rhs i x1 x0 = pay5_rhs i x1' x0' := by
  funext j
  rw [pay5_rhs_apply, pay5_rhs_apply]
  by_cases h : 2560 * (i 0).val + (j 0).val < 20000
  · rw [if_pos h, if_pos h, (h01 j h).1, (h01 j h).2]
  · rw [if_neg h, if_neg h]

/-- THE NEW ACCUMULATOR depends on the three loaded blocks only at the kept indices. -/
theorem pay5_congr (i : grid0.Coords) (x1 x1' x0 x0' : Vec F S2560x256 .f32) (x2 x2' : Vec F S500x2560 .f32)
    (a : Vec F S500x256 .f32)
    (h01 : ∀ j : S2560x256.Idx, 2560 * (i 0).val + (j 0).val < 20000 → x1 j = x1' j ∧ x0 j = x0' j)
    (h2 : ∀ j : S500x2560.Idx, 2560 * (i 0).val + (j 1).val < 20000 → x2 j = x2' j) :
    k0_pay5 i x1 x0 x2 a = k0_pay5 i x1' x0' x2' a := by
  rw [pay5_eq, pay5_eq, pay4_congr i x2 x2' h2, pay5_rhs_congr i x1 x1' x0 x0' h01]

/-- The new size buffer is the old one plus the tile product of the masked membership block and the block of ones. -/
theorem pay6_eq (i : grid0.Coords) (x2 : Vec F S500x2560 .f32) (s : Vec F S500x8 .f32) :
    k0_pay6 i x2 s
      = addf s (matmul dot_S500x2560_S2560x8_S500x8_1_0_0_1_n_n none (k0_pay4 i x2)
          (broadcast S2560x8 (Scalar.ofBits .f32 0x3F800000#32 : F .f32)) (constant S500x8 .f32 0x00000000#32)) :=
  shapeCast_self _ _

/-- THE NEW SIZE BUFFER depends on the loaded membership block only at the kept columns. -/
theorem pay6_congr (i : grid0.Coords) (x2 x2' : Vec F S500x2560 .f32) (s : Vec F S500x8 .f32)
    (h2 : ∀ j : S500x2560.Idx, 2560 * (i 0).val + (j 1).val < 20000 → x2 j = x2' j) :
    k0_pay6 i x2 s = k0_pay6 i x2' s := by
  rw [pay6_eq, pay6_eq, pay4_congr i x2 x2' h2]

end Cert.KernelIdeal.PayFacts

end
-- ==== Proof.KI.Body.lean ====
/-
  The body obligation at every grid point, the launch, and the frame. At each point the body is handed the three input
  buffers just fetched (the block inside the array, anything past its end), the result's buffer, and the two
  accumulators at what the point before left; the case of the point (first, middle, last) selects the run; what the
  run's stores leave is read back as the update of the accumulators, and the update does not depend on what the input
  buffers hold past the array's end, because the body selects zero there: so the accumulators are handed on at the
  values the proof data names.
-/
import proofs.«171851_g66838281060554_cont_sun_c4_581_21_alg».proof.Proof.KI.Data
import proofs.«171851_g66838281060554_cont_sun_c4_581_21_alg».proof.Proof.KI.PayCongr

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal.PayFacts

variable (m : (ℓ : Loc nD τ sig) → Buf (Elt F) ℓ) (ρ : Dev nD → PrngReg)

/-! ## Which rows and columns of a block lie inside the array -/

theorem coord_val : ∀ t : Fin cfg0.N, ((grid0.coords t) 0).val = t.val :=
  (by decide +kernel : ∀ t : Fin grid0.N, ((grid0.coords t) 0).val = t.val)

theorem xsz0_0 : ∀ (t : Fin cfg0.N) (a : Fin 2), win0_0.xsize (grid0.coords t) a = (![min 2560 (20000 - 2560 * t.val), 256] : Fin 2 → ℕ) a :=
  (by decide +kernel : ∀ (t : Fin grid0.N) (a : Fin 2), win0_0.xsize (grid0.coords t) a = (![min 2560 (20000 - 2560 * t.val), 256] : Fin 2 → ℕ) a)
theorem xsz0_1 : ∀ (t : Fin cfg0.N) (a : Fin 2), win0_1.xsize (grid0.coords t) a = (![min 2560 (20000 - 2560 * t.val), 256] : Fin 2 → ℕ) a :=
  (by decide +kernel : ∀ (t : Fin grid0.N) (a : Fin 2), win0_1.xsize (grid0.coords t) a = (![min 2560 (20000 - 2560 * t.val), 256] : Fin 2 → ℕ) a)
theorem xsz0_2 : ∀ (t : Fin cfg0.N) (a : Fin 2), win0_2.xsize (grid0.coords t) a = (![500, min 2560 (20000 - 2560 * t.val)] : Fin 2 → ℕ) a :=
  (by decide +kernel : ∀ (t : Fin grid0.N) (a : Fin 2), win0_2.xsize (grid0.coords t) a = (![500, min 2560 (20000 - 2560 * t.val)] : Fin 2 → ℕ) a)

/-- A row of a gene-major block whose gene lies inside the array is one the fetch fills. -/
theorem moved0_0 (t : Fin cfg0.N) (j : S2560x256.Idx) (h : 2560 * t.val + (j 0).val < 20000) : win0_0.moved (grid0.coords t) j = true := by
  rw [Window.moved_iff]; intro a
  have h0 := ValueIdx.idx2_lt0 j; have h1 := ValueIdx.idx2_lt1 j
  have e := xsz0_0 t a
  match a with
  | ⟨0, _⟩ => rw [e]; show (j 0).val < min 2560 (20000 - 2560 * t.val); omega
  | ⟨1, _⟩ => rw [e]; exact h1
theorem moved0_1 (t : Fin cfg0.N) (j : S2560x256.Idx) (h : 2560 * t.val + (j 0).val < 20000) : win0_1.moved (grid0.coords t) j = true := by
  rw [Window.moved_iff]; intro a
  have h0 := ValueIdx.idx2_lt0 j; have h1 := ValueIdx.idx2_lt1 j
  have e := xsz0_1 t a
  match a with
  | ⟨0, _⟩ => rw [e]; show (j 0).val < min 2560 (20000 - 2560 * t.val); omega
  | ⟨1, _⟩ => rw [e]; exact h1
/-- A column of the membership block whose gene lies inside the array is one the fetch fills. -/
theorem moved0_2 (t : Fin cfg0.N) (j : S500x2560.Idx) (h : 2560 * t.val + (j 1).val < 20000) : win0_2.moved (grid0.coords t) j = true := by
  rw [Window.moved_iff]; intro a
  have h0 := ValueIdx.idx2_lt0 j; have h1 := ValueIdx.idx2_lt1 j
  have e := xsz0_2 t a
  match a with
  | ⟨0, _⟩ => rw [e]; exact h0
  | ⟨1, _⟩ => rw [e]; show (j 1).val < min 2560 (20000 - 2560 * t.val); omega

/-- On the part the fetch fills, a filled buffer does not depend on what it held before. -/
theorem fill_agree {G : Pipeline.Grid} (w : Pipeline.Window sig G) {α : Type} (i : G.Coords) (d d' : w.block.Idx → α) (g : (w.xblock i).Idx → α)
    (j : w.block.Idx) (h : w.moved i j = true) : w.fill i d g j = w.fill i d' g j := by
  unfold Pipeline.Window.fill; rw [dif_pos h, dif_pos h]

/-- The update of the weighted sums reads the input buffers only inside the arrays. -/
theorem acc_canon (c : Dev nD) (t : Fin cfg0.N) (d0 d1 : S2560x256.Idx → Elt F .f32) (d2 : S500x2560.Idx → Elt F .f32) (a : Vec F S500x256 .f32) :
    k0_pay5 (grid0.coords t) (win0_1.fill (grid0.coords t) d1 (iblk m c 1 t)) (win0_0.fill (grid0.coords t) d0 (iblk m c 0 t)) (win0_2.fill (grid0.coords t) d2 (iblk m c 2 t)) a
      = k0_pay5 (grid0.coords t) (X1 m c t) (X0 m c t) (X2 m c t) a := by
  refine pay5_congr (grid0.coords t) _ _ _ _ _ _ a (fun j h => ?_) (fun j h => ?_)
  · rw [coord_val t] at h
    exact ⟨fill_agree win0_1 _ _ _ _ j (moved0_1 t j h), fill_agree win0_0 _ _ _ _ j (moved0_0 t j h)⟩
  · rw [coord_val t] at h
    exact fill_agree win0_2 _ _ _ _ j (moved0_2 t j h)
/-- So does the update of the sizes. -/
theorem size_canon (c : Dev nD) (t : Fin cfg0.N) (d2 : S500x2560.Idx → Elt F .f32) (s : Vec F S500x8 .f32) :
    k0_pay6 (grid0.coords t) (win0_2.fill (grid0.coords t) d2 (iblk m c 2 t)) s = k0_pay6 (grid0.coords t) (X2 m c t) s := by
  refine pay6_congr (grid0.coords t) _ _ s (fun j h => ?_)
  rw [coord_val t] at h
  exact fill_agree win0_2 _ _ _ _ j (moved0_2 t j h)

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it returns: each input's buffer stated on the part inside the array only. -/
def bodyPost (c : Dev nD) (t : Fin cfg0.N) : sProp 𝕄 :=
  iprop((dats m 0 c).Φ t.succ ∗ (dats m 0 c).owesAt () t.succ
    ∗ (dats m 0 c).leaves 0 t ∗ (dats m 0 c).leaves 1 t ∗ (dats m 0 c).leaves 2 t ∗ (dats m 0 c).leaves 3 t)

theorem leaves0_0 (c : Dev nD) (t : Fin cfg0.N) :
    (dats m 0 c).leaves 0 t = iprop(∃ d, owns (c : Thread nD τ) (ms0_0 t) fullShare (win0_0.fill (grid0.coords t) d (iblk m c 0 t))) := by
  unfold Dat.leaves; rw [liveAt0_0 t]
  show iprop(∃ d, owns (c : Thread nD τ) (ms0_0 t) fullShare (win0_0.fill (grid0.coords t) d (win0_0.cut (grid0.coords t) ((dats m 0 c).after 0 t)))) = _
  rw [cut0_0]
theorem leaves0_1 (c : Dev nD) (t : Fin cfg0.N) :
    (dats m 0 c).leaves 1 t = iprop(∃ d, owns (c : Thread nD τ) (ms0_1 t) fullShare (win0_1.fill (grid0.coords t) d (iblk m c 1 t))) := by
  unfold Dat.leaves; rw [liveAt0_1 t]
  show iprop(∃ d, owns (c : Thread nD τ) (ms0_1 t) fullShare (win0_1.fill (grid0.coords t) d (win0_1.cut (grid0.coords t) ((dats m 0 c).after 1 t)))) = _
  rw [cut0_1]
theorem leaves0_2 (c : Dev nD) (t : Fin cfg0.N) :
    (dats m 0 c).leaves 2 t = iprop(∃ d, owns (c : Thread nD τ) (ms0_2 t) fullShare (win0_2.fill (grid0.coords t) d (iblk m c 2 t))) := by
  unfold Dat.leaves; rw [liveAt0_2 t]
  show iprop(∃ d, owns (c : Thread nD τ) (ms0_2 t) fullShare (win0_2.fill (grid0.coords t) d (win0_2.cut (grid0.coords t) ((dats m 0 c).after 2 t)))) = _
  rw [cut0_2]
theorem leaves0_3_idle (c : Dev nD) (t : Fin cfg0.N) (h : ¬cond0_1 (grid0.coords t)) :
    (dats m 0 c).leaves 3 t = iprop(∃ d, owns (c : Thread nD τ) (ms0_3 t) fullShare ((dats m 0 c).before 3 t d)) :=
  Dat.leaves_idle (dats m 0 c) 3 t (idleAt0_3 t h) (noFlush0_3 t h)
theorem leaves0_3_live (c : Dev nD) (t : Fin cfg0.N) (h : cond0_1 (grid0.coords t)) :
    (dats m 0 c).leaves 3 t = owns (c : Thread nD τ) (ms0_3 t) fullShare (lossV m c) := by
  unfold Dat.leaves; rw [liveAt0_3 t h]
  show owns (c : Thread nD τ) (ms0_3 t) fullShare ((dats m 0 c).after 3 t) = _
  rw [after0_3]

set_option maxHeartbeats 4800000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [leaves0_0, leaves0_1, leaves0_2]
  rw [show (dats m 0 c).owesAt () t.succ = (dats m 0 c).owesAt () t.castSucc from rfl]
  rw [show (dats m 0 c).Φ t.succ = PhiS m c (t.val + 1) t.isLt from rfl, PhiS_succ]
  have hN : t.val < 8 := lt_of_lt_of_eq t.isLt (show cfg0.N = 8 from N_0)
  by_cases h0 : t.val % 8 = 0
  · -- the first point
    have h1 : ¬t.val % 8 = 7 := by omega
    have hz : t.val = 0 := by omega
    have hc0 : cond0_0 (grid0.coords t) := (hcond0_0 t).mpr h0
    have hc1 : ¬cond0_1 (grid0.coords t) := fun h => h1 ((hcond0_1 t).mp h)
    rw [leaves0_3_idle m c t hc1, PhiS_castSucc m c t, PhiS_zero m c _ _ hz, PhiA0_eq, accAt_zero m c t hz, sizeAt_zero m c t hz]
    iintro ⟨⟨⟨HS0, HS1⟩, Hg⟩, Ho, ⟨%d0, H0⟩, ⟨%d1, H1⟩, ⟨%d2, H2⟩, ⟨%d3, H3⟩⟩
    iapply ((kernelRun0_A c (grid0.coords t) (ms0_0 t) (hs0_0 t) (ms0_1 t) (hs0_1 t) (ms0_2 t) (hs0_2 t) (ms0_3 t) (hs0_3 t) scM0_0 (Memref.isWhole_whole _) scM0_1 (Memref.isWhole_whole _) hc0 hc1 (win0_0.fill (grid0.coords t) d0 (iblk m c 0 t)) (win0_1.fill (grid0.coords t) d1 (iblk m c 1 t)) (win0_2.fill (grid0.coords t) d2 (iblk m c 2 t))).2.2 _ Set.univ _)
    isplitl [H0]; · iexact H0
    isplitl [H1]; · iexact H1
    isplitl [H2]; · iexact H2
    isplitl [H3]; · iexact H3
    isplitl [HS0]; · iexact HS0
    isplitl [HS1]; · iexact HS1
    iintro ⟨H0, H1, H2, H3, ⟨%es0, HS0⟩, ⟨%es1, HS1⟩⟩
    isplitl [HS0 HS1 Hg]
    · isplitl [HS0 HS1]
      · isplitl [HS0]
        · unfold owns; iexists _; isplitr
          swap; · iexact HS0
          ipureintro
          exact (View.read_writes_eq_canon _ _ _ (scover0_A_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) hc0 hc1 (win0_0.fill (grid0.coords t) d0 (iblk m c 0 t)) (win0_1.fill (grid0.coords t) d1 (iblk m c 1 t)) (win0_2.fill (grid0.coords t) d2 (iblk m c 2 t)))).trans
            ((sread0_A_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) hc0 hc1 (win0_0.fill (grid0.coords t) d0 (iblk m c 0 t)) (win0_1.fill (grid0.coords t) d1 (iblk m c 1 t)) (win0_2.fill (grid0.coords t) d2 (iblk m c 2 t))).trans (acc_canon m c t d0 d1 d2 _))
        · unfold owns; iexists _; isplitr
          swap; · iexact HS1
          ipureintro
          exact (View.read_writes_eq_canon _ _ _ (scover0_A_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) hc0 hc1 (win0_0.fill (grid0.coords t) d0 (iblk m c 0 t)) (win0_1.fill (grid0.coords t) d1 (iblk m c 1 t)) (win0_2.fill (grid0.coords t) d2 (iblk m c 2 t)))).trans
            ((sread0_A_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) hc0 hc1 (win0_0.fill (grid0.coords t) d0 (iblk m c 0 t)) (win0_1.fill (grid0.coords t) d1 (iblk m c 1 t)) (win0_2.fill (grid0.coords t) d2 (iblk m c 2 t))).trans (size_canon m c t d2 _))
      iexact Hg
    isplitl [Ho]; · iexact Ho
    isplitl [H0]; · iexists d0; iexact H0
    isplitl [H1]; · iexists d1; iexact H1
    isplitl [H2]; · iexists d2; iexact H2
    iexists d3; iexact H3
  · have hz : t.val ≠ 0 := by omega
    have hc0 : ¬cond0_0 (grid0.coords t) := fun h => h0 ((hcond0_0 t).mp h)
    by_cases h1 : t.val % 8 = 7
    · -- the last point
      have hc1 : cond0_1 (grid0.coords t) := (hcond0_1 t).mpr h1
      rw [leaves0_3_live m c t hc1, PhiS_castSucc m c t, PhiS_pos m c _ _ hz, accAt_pos m c t hz, sizeAt_pos m c t hz]
      iintro ⟨⟨⟨HS0, HS1⟩, Hg⟩, Ho, ⟨%d0, H0⟩, ⟨%d1, H1⟩, ⟨%d2, H2⟩, ⟨%d3, H3⟩⟩
      iapply ((kernelRun0_C c (grid0.coords t) (ms0_0 t) (hs0_0 t) (ms0_1 t) (hs0_1 t) (ms0_2 t) (hs0_2 t) (ms0_3 t) (hs0_3 t) scM0_0 (Memref.isWhole_whole _) scM0_1 (Memref.isWhole_whole _) hc0 hc1 (win0_0.fill (grid0.coords t) d0 (iblk m c 0 t)) (win0_1.fill (grid0.coords t) d1 (iblk m c 1 t)) (win0_2.fill (grid0.coords t) d2 (iblk m c 2 t)) (accAt m c (t.val - 1) (Nat.lt_of_le_of_lt (Nat.sub_le _ _) t.isLt)) (sizeAt m c (t.val - 1) (Nat.lt_of_le_of_lt (Nat.sub_le _ _) t.isLt))).2.2.2 Set.univ _)
      isplitl [H0]; · iexact H0
      isplitl [H1]; · iexact H1
      isplitl [H2]; · iexact H2
      isplitl [H3]; · iexists _; iexact H3
      isplitl [HS0]; · iexact HS0
      isplitl [HS1]; · iexact HS1
      iintro ⟨H0, H1, H2, ⟨%e3, H3⟩, ⟨%es0, HS0⟩, ⟨%es1, HS1⟩⟩
      isplitl [HS0 HS1 Hg]
      · isplitl [HS0 HS1]
        · isplitl [HS0]
          · unfold owns; iexists _; isplitr
            swap; · iexact HS0
            ipureintro
            exact (View.read_writes_eq_canon _ _ _ (scover0_C_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) hc0 hc1 (win0_0.fill (grid0.coords t) d0 (iblk m c 0 t)) (win0_1.fill (grid0.coords t) d1 (iblk m c 1 t)) (win0_2.fill (grid0.coords t) d2 (iblk m c 2 t)) _ _)).trans
              ((sread0_C_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) hc0 hc1 (win0_0.fill (grid0.coords t) d0 (iblk m c 0 t)) (win0_1.fill (grid0.coords t) d1 (iblk m c 1 t)) (win0_2.fill (grid0.coords t) d2 (iblk m c 2 t)) _ _).trans (acc_canon m c t d0 d1 d2 _))
          · unfold owns; iexists _; isplitr
            swap; · iexact HS1
            ipureintro
            exact (View.read_writes_eq_canon _ _ _ (scover0_C_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) hc0 hc1 (win0_0.fill (grid0.coords t) d0 (iblk m c 0 t)) (win0_1.fill (grid0.coords t) d1 (iblk m c 1 t)) (win0_2.fill (grid0.coords t) d2 (iblk m c 2 t)) _ _)).trans
              ((sread0_C_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) hc0 hc1 (win0_0.fill (grid0.coords t) d0 (iblk m c 0 t)) (win0_1.fill (grid0.coords t) d1 (iblk m c 1 t)) (win0_2.fill (grid0.coords t) d2 (iblk m c 2 t)) _ _).trans (size_canon m c t d2 _))
        iexact Hg
      isplitl [Ho]; · iexact Ho
      isplitl [H0]; · iexists d0; iexact H0
      isplitl [H1]; · iexists d1; iexact H1
      isplitl [H2]; · iexists d2; iexact H2
      unfold owns; iexists _; isplitr
      swap; · iexact H3
      ipureintro
      refine (View.read_writes_eq_canon _ _ _ (cover0_C_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) hc0 hc1 (win0_0.fill (grid0.coords t) d0 (iblk m c 0 t)) (win0_1.fill (grid0.coords t) d1 (iblk m c 1 t)) (win0_2.fill (grid0.coords t) d2 (iblk m c 2 t)) _ _)).trans
        ((read0_C_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) hc0 hc1 (win0_0.fill (grid0.coords t) d0 (iblk m c 0 t)) (win0_1.fill (grid0.coords t) d1 (iblk m c 1 t)) (win0_2.fill (grid0.coords t) d2 (iblk m c 2 t)) _ _).trans ?_)
      rw [acc_canon m c t d0 d1 d2 _, size_canon m c t d2 _, ← accAt_pos m c t hz, ← sizeAt_pos m c t hz]
      have ht : t = ⟨7, seven_lt⟩ := Fin.ext (show t.val = 7 by omega)
      subst ht; rfl
    · -- a middle point
      have hc1 : ¬cond0_1 (grid0.coords t) := fun h => h1 ((hcond0_1 t).mp h)
      rw [leaves0_3_idle m c t hc1, PhiS_castSucc m c t, PhiS_pos m c _ _ hz, accAt_pos m c t hz, sizeAt_pos m c t hz]
      iintro ⟨⟨⟨HS0, HS1⟩, Hg⟩, Ho, ⟨%d0, H0⟩, ⟨%d1, H1⟩, ⟨%d2, H2⟩, ⟨%d3, H3⟩⟩
      iapply ((kernelRun0_B c (grid0.coords t) (ms0_0 t) (hs0_0 t) (ms0_1 t) (hs0_1 t) (ms0_2 t) (hs0_2 t) (ms0_3 t) (hs0_3 t) scM0_0 (Memref.isWhole_whole _) scM0_1 (Memref.isWhole_whole _) hc0 hc1 (win0_0.fill (grid0.coords t) d0 (iblk m c 0 t)) (win0_1.fill (grid0.coords t) d1 (iblk m c 1 t)) (win0_2.fill (grid0.coords t) d2 (iblk m c 2 t)) (accAt m c (t.val - 1) (Nat.lt_of_le_of_lt (Nat.sub_le _ _) t.isLt)) (sizeAt m c (t.val - 1) (Nat.lt_of_le_of_lt (Nat.sub_le _ _) t.isLt))).2.2 _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HS0 HS1 Hg]
      · isplitl [HS0 HS1]
        · isplitl [HS0]
          · unfold owns; iexists _; isplitr
            swap; · iexact HS0
            ipureintro
            exact (View.read_writes_eq_canon _ _ _ (scover0_B_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) hc0 hc1 (win0_0.fill (grid0.coords t) d0 (iblk m c 0 t)) (win0_1.fill (grid0.coords t) d1 (iblk m c 1 t)) (win0_2.fill (grid0.coords t) d2 (iblk m c 2 t)) _ _)).trans
              ((sread0_B_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) hc0 hc1 (win0_0.fill (grid0.coords t) d0 (iblk m c 0 t)) (win0_1.fill (grid0.coords t) d1 (iblk m c 1 t)) (win0_2.fill (grid0.coords t) d2 (iblk m c 2 t)) _ _).trans (acc_canon m c t d0 d1 d2 _))
          · unfold owns; iexists _; isplitr
            swap; · iexact HS1
            ipureintro
            exact (View.read_writes_eq_canon _ _ _ (scover0_B_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) hc0 hc1 (win0_0.fill (grid0.coords t) d0 (iblk m c 0 t)) (win0_1.fill (grid0.coords t) d1 (iblk m c 1 t)) (win0_2.fill (grid0.coords t) d2 (iblk m c 2 t)) _ _)).trans
              ((sread0_B_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) hc0 hc1 (win0_0.fill (grid0.coords t) d0 (iblk m c 0 t)) (win0_1.fill (grid0.coords t) d1 (iblk m c 1 t)) (win0_2.fill (grid0.coords t) d2 (iblk m c 2 t)) _ _).trans (size_canon m c t d2 _))
        iexact Hg
      isplitl [Ho]; · iexact Ho
      isplitl [H0]; · iexists d0; iexact H0
      isplitl [H1]; · iexists d1; iexact H1
      isplitl [H2]; · iexists d2; iexact H2
      iexists d3; iexact H3

/-- The library's body obligation, at every point. -/
theorem body_obligation (c : Dev nD) : Pipeline.BodyObligationLoose (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives it back: the accumulators' named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    · iexists _; iexact HS1
  iexact Hg

theorem hout (c : Dev nD) : (dats m 0 c).Φ (Fin.last cfg0.N) ⊢ Pipeline.ΦA spec0 c :=
  Phi_out m c _ (by rw [Fin.val_last]; have : cfg0.N = 8 := N_0; omega)

/-! ## The run and the frame -/

set_option backward.isDefEq.respectTransparency.types false in
/-- Every weakly fair execution of @main terminates, nothing faulting, with every array of the pipeline at what the
    proof data computes and every other unscoped buffer as the lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => body_obligation m c) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: @main runs, and the three argument arrays end as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.KernelIdeal.Hand

end
-- ==== Proof.KI.Reads.lean ====
/-
  What the kernel's one region reads and what @main leaves in its result, index by index.

  @main transposes its first two arguments ([256, 20000] to [20000, 256]), runs one pipelined region over a grid
  of 8 points, and reshapes the region's [1, 1] result to a scalar.  At point t the region stages rows
  2560·t ‥ 2560·t + 2559 of the two transposes (blocks [2560, 256]) and lanes 2560·t ‥ 2560·t + 2559 of the third
  argument (blocks [500, 2560]).  Since 20000 = 7 · 2560 + 2080 the blocks at the last point overhang their arrays:
  the transfer moves their leading part only, and the rest of the staging block holds contents nothing names.
  This module shows:
    * the transposes entry by entry: main_v0[g, b] = main_arg0[b, g], main_v1[g, b] = main_arg1[b, g];
    * a staging block just fetched at point t, at an index whose array coordinate 2560·t + k is inside the
      array, holds that entry of the argument array, whatever fills the rest of the block;
    * the result window is written back at the last point only and its one block is its whole [1, 1] array, so
      after the run the scalar main_v3 is the one entry the body left in the result's staging block there.
-/
import proofs.«171851_g66838281060554_cont_sun_c4_581_21_alg».proof.Proof.Gen.KernelIdeal.Frame
import Idealize.ShloMosaic.Lib.Pipeline.Value
import Idealize.ShloMosaic.Lib.ValueIdx

set_option maxRecDepth 16384

noncomputable section

namespace Cert.KernelIdeal.Reads

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)

variable {F : FTy → Type} [FloatOps F]
variable (m : (ℓ : Loc nD τ sig) → Buf (Elt F) ℓ)

/-! ### The arrays the two host transposes write, as the region finds them -/

/-- The region finds main_v0 holding the transpose of the first argument. -/
theorem V_main_v0 (c : Dev nD) :
    V m c main_v0 = transpose S20000x256 [1, 0] (m ((c : Thread nD τ).loc main_arg0)) transposes_S256x20000_S20000x256_1_0 := by
  show StableHlo.after hostOps0 (fun b => m (c, b)) (Proc.devRef .tc main_v0) = _
  after_results

/-- The region finds main_v1 holding the transpose of the second argument. -/
theorem V_main_v1 (c : Dev nD) :
    V m c main_v1 = transpose S20000x256 [1, 0] (m ((c : Thread nD τ).loc main_arg1)) transposes_S256x20000_S20000x256_1_0 := by
  show StableHlo.after hostOps0 (fun b => m (c, b)) (Proc.devRef .tc main_v1) = _
  after_results

/-- Entry (g, b) of main_v0 is entry (b, g) of the first argument. -/
theorem V_main_v0_at (c : Dev nD) (g : Fin 20000) (b : Fin 256) :
    V m c main_v0 (ix2 g b) = m ((c : Thread nD τ).loc main_arg0) (ix2 b g) := by
  rw [V_main_v0]
  exact transpose_apply [1, 0] _ transposes_S256x20000_S20000x256_1_0 (ix2 g b) (ix2 b g)
    (fun a => match a with | ⟨0, _⟩ => rfl | ⟨1, _⟩ => rfl)

/-- Entry (g, b) of main_v1 is entry (b, g) of the second argument. -/
theorem V_main_v1_at (c : Dev nD) (g : Fin 20000) (b : Fin 256) :
    V m c main_v1 (ix2 g b) = m ((c : Thread nD τ).loc main_arg1) (ix2 b g) := by
  rw [V_main_v1]
  exact transpose_apply [1, 0] _ transposes_S256x20000_S20000x256_1_0 (ix2 g b) (ix2 b g)
    (fun a => match a with | ⟨0, _⟩ => rfl | ⟨1, _⟩ => rfl)

/-! ### The input blocks at an index, cut at the arrays' end

20000 = 7 · 2560 + 2080: at the last point the input blocks overhang their arrays and the transfer moves their
leading part only.  An index of the staging block whose array coordinate is inside the array is in the moved part,
and there the block just fetched holds the array's entry, whatever the rest of the block holds. -/

/-- Window 0 moves min(2560, 20000 − 2560·t) rows of 256 lanes at point t. -/
theorem xsize0_0 : ∀ (t : Fin cfg0.N) (a : Fin 2),
    win0_0.xsize (grid0.coords t) a = (![min 2560 (20000 - 2560 * t.val), 256] : Fin 2 → ℕ) a :=
  (by decide +kernel : ∀ (t : Fin grid0.N) (a : Fin 2),
    win0_0.xsize (grid0.coords t) a = (![min 2560 (20000 - 2560 * t.val), 256] : Fin 2 → ℕ) a)

/-- Window 0's block index at point t is (t, 0). -/
theorem index0_0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)

/-- Window 0's staging block just fetched at point t, whatever fills its tail: row k, lane b, with row
    2560·t + k inside the array, is entry (b, 2560·t + k) of main_arg0. -/
theorem fill0_0_at (c : Dev nD) (t : Fin cfg0.N) (d : S2560x256.Idx → Elt F .f32) (k : Fin 2560) (b : Fin 256)
    (h : 2560 * t.val + k.val < 20000) :
    win0_0.fill (grid0.coords t) d (iblk m c 0 t) (ix2 k b)
      = m ((c : Thread nD τ).loc main_arg0) (ix2 b ⟨2560 * t.val + k.val, h⟩) := by
  have hlt : ∀ a : Fin 2, ((ix2 k b : S2560x256.Idx) a).val < win0_0.xsize (grid0.coords t) a := by
    intro a
    rw [xsize0_0 t a]
    match a with
    | ⟨0, _⟩ => show k.val < min 2560 (20000 - 2560 * t.val); have := k.isLt; omega
    | ⟨1, _⟩ => exact b.isLt
  obtain ⟨j, hj⟩ : ∃ j : (win0_0.xblock (grid0.coords t)).Idx,
      ∀ a : Fin 2, (j a).val = ((ix2 k b : S2560x256.Idx) a).val :=
    ⟨fun a => ⟨_, hlt a⟩, fun a => rfl⟩
  have ej : win0_0.xinj (grid0.coords t) j = ix2 k b := funext fun a => Fin.ext (hj a)
  rw [← ej, Window.fill_xinj]
  show V m c main_v0 (((cfg0.win 0).blk t).view.emb j) = _
  have hj0 : (j 0).val = k.val := hj 0
  have hj1 : (j 1).val = b.val := hj 1
  have e : ((cfg0.win 0).blk t).view.emb j = ix2 ⟨2560 * t.val + k.val, h⟩ b := by
    funext a; apply Fin.ext
    match a with
    | ⟨0, _⟩ =>
      show win0_0.index t (0 : Fin 2) * 2560 + 1 * (j 0).val = 2560 * t.val + k.val
      rw [(index0_0 t).1]; omega
    | ⟨1, _⟩ =>
      show win0_0.index t (1 : Fin 2) * 256 + 1 * (j 1).val = b.val
      rw [(index0_0 t).2]; omega
  rw [e, V_main_v0_at]

/-- Window 1 moves min(2560, 20000 − 2560·t) rows of 256 lanes at point t. -/
theorem xsize0_1 : ∀ (t : Fin cfg0.N) (a : Fin 2),
    win0_1.xsize (grid0.coords t) a = (![min 2560 (20000 - 2560 * t.val), 256] : Fin 2 → ℕ) a :=
  (by decide +kernel : ∀ (t : Fin grid0.N) (a : Fin 2),
    win0_1.xsize (grid0.coords t) a = (![min 2560 (20000 - 2560 * t.val), 256] : Fin 2 → ℕ) a)

/-- Window 1's block index at point t is (t, 0). -/
theorem index0_1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)

/-- Window 1's staging block just fetched at point t, whatever fills its tail: row k, lane b, with row
    2560·t + k inside the array, is entry (b, 2560·t + k) of main_arg1. -/
theorem fill0_1_at (c : Dev nD) (t : Fin cfg0.N) (d : S2560x256.Idx → Elt F .f32) (k : Fin 2560) (b : Fin 256)
    (h : 2560 * t.val + k.val < 20000) :
    win0_1.fill (grid0.coords t) d (iblk m c 1 t) (ix2 k b)
      = m ((c : Thread nD τ).loc main_arg1) (ix2 b ⟨2560 * t.val + k.val, h⟩) := by
  have hlt : ∀ a : Fin 2, ((ix2 k b : S2560x256.Idx) a).val < win0_1.xsize (grid0.coords t) a := by
    intro a
    rw [xsize0_1 t a]
    match a with
    | ⟨0, _⟩ => show k.val < min 2560 (20000 - 2560 * t.val); have := k.isLt; omega
    | ⟨1, _⟩ => exact b.isLt
  obtain ⟨j, hj⟩ : ∃ j : (win0_1.xblock (grid0.coords t)).Idx,
      ∀ a : Fin 2, (j a).val = ((ix2 k b : S2560x256.Idx) a).val :=
    ⟨fun a => ⟨_, hlt a⟩, fun a => rfl⟩
  have ej : win0_1.xinj (grid0.coords t) j = ix2 k b := funext fun a => Fin.ext (hj a)
  rw [← ej, Window.fill_xinj]
  show V m c main_v1 (((cfg0.win 1).blk t).view.emb j) = _
  have hj0 : (j 0).val = k.val := hj 0
  have hj1 : (j 1).val = b.val := hj 1
  have e : ((cfg0.win 1).blk t).view.emb j = ix2 ⟨2560 * t.val + k.val, h⟩ b := by
    funext a; apply Fin.ext
    match a with
    | ⟨0, _⟩ =>
      show win0_1.index t (0 : Fin 2) * 2560 + 1 * (j 0).val = 2560 * t.val + k.val
      rw [(index0_1 t).1]; omega
    | ⟨1, _⟩ =>
      show win0_1.index t (1 : Fin 2) * 256 + 1 * (j 1).val = b.val
      rw [(index0_1 t).2]; omega
  rw [e, V_main_v1_at]

/-- Window 2 moves 500 rows of min(2560, 20000 − 2560·t) lanes at point t. -/
theorem xsize0_2 : ∀ (t : Fin cfg0.N) (a : Fin 2),
    win0_2.xsize (grid0.coords t) a = (![500, min 2560 (20000 - 2560 * t.val)] : Fin 2 → ℕ) a :=
  (by decide +kernel : ∀ (t : Fin grid0.N) (a : Fin 2),
    win0_2.xsize (grid0.coords t) a = (![500, min 2560 (20000 - 2560 * t.val)] : Fin 2 → ℕ) a)

/-- Window 2's block index at point t is (0, t). -/
theorem index0_2 : ∀ t : Fin cfg0.N, win0_2.index t (0 : Fin 2) = 0 ∧ win0_2.index t (1 : Fin 2) = t.val :=
  (by decide +kernel : ∀ t : Fin grid0.N, win0_2.index t (0 : Fin 2) = 0 ∧ win0_2.index t (1 : Fin 2) = t.val)

/-- Window 2's staging block just fetched at point t, whatever fills its tail: row p, lane k, with lane
    2560·t + k inside the array, is entry (p, 2560·t + k) of main_arg2. -/
theorem fill0_2_at (c : Dev nD) (t : Fin cfg0.N) (d : S500x2560.Idx → Elt F .f32) (p : Fin 500) (k : Fin 2560)
    (h : 2560 * t.val + k.val < 20000) :
    win0_2.fill (grid0.coords t) d (iblk m c 2 t) (ix2 p k)
      = m ((c : Thread nD τ).loc main_arg2) (ix2 p ⟨2560 * t.val + k.val, h⟩) := by
  have hlt : ∀ a : Fin 2, ((ix2 p k : S500x2560.Idx) a).val < win0_2.xsize (grid0.coords t) a := by
    intro a
    rw [xsize0_2 t a]
    match a with
    | ⟨0, _⟩ => exact p.isLt
    | ⟨1, _⟩ => show k.val < min 2560 (20000 - 2560 * t.val); have := k.isLt; omega
  obtain ⟨j, hj⟩ : ∃ j : (win0_2.xblock (grid0.coords t)).Idx,
      ∀ a : Fin 2, (j a).val = ((ix2 p k : S500x2560.Idx) a).val :=
    ⟨fun a => ⟨_, hlt a⟩, fun a => rfl⟩
  have ej : win0_2.xinj (grid0.coords t) j = ix2 p k := funext fun a => Fin.ext (hj a)
  rw [← ej, Window.fill_xinj]
  show V m c main_arg2 (((cfg0.win 2).blk t).view.emb j) = _
  have hj0 : (j 0).val = p.val := hj 0
  have hj1 : (j 1).val = k.val := hj 1
  have e : ((cfg0.win 2).blk t).view.emb j = ix2 p ⟨2560 * t.val + k.val, h⟩ := by
    funext a; apply Fin.ext
    match a with
    | ⟨0, _⟩ =>
      show win0_2.index t (0 : Fin 2) * 500 + 1 * (j 0).val = p.val
      rw [(index0_2 t).1]; omega
    | ⟨1, _⟩ =>
      show win0_2.index t (1 : Fin 2) * 2560 + 1 * (j 1).val = 2560 * t.val + k.val
      rw [(index0_2 t).2]; omega
  rw [e, V_main_arg2]

/-! ### The result: the one block written back at the last point, then reshaped to a scalar -/

/-- The [1, 1] shape has one index. -/
instance subsingleton_S1x1 : Subsingleton S1x1.Idx := ⟨fun a b => funext fun d => by
  match d with
  | ⟨0, _⟩ => exact Subsingleton.elim (α := Fin 1) _ _
  | ⟨1, _⟩ => exact Subsingleton.elim (α := Fin 1) _ _⟩

/-- The result window is written back at the last point. -/
theorem flush0_3_last : (cfg0.win 3).flush t0_7 = true := (flush0_3 t0_7).2 (by decide)

/-- It is written back at no other point, so no two write-backs meet. -/
theorem flush0_3_disjoint : ∀ t t' : Fin cfg0.N, (cfg0.win 3).flush t = true → (cfg0.win 3).flush t' = true → t ≠ t' →
    Disjoint ((cfg0.win 3).blk t).view.set ((cfg0.win 3).blk t').view.set := by
  intro t t' ht ht' hne
  exfalso; apply hne; apply Fin.ext
  have h1 := (flush0_3 t).1 ht
  have h2 := (flush0_3 t').1 ht'
  have hN := N_0
  have l1 : t.val < grid0.N := t.isLt
  have l2 : t'.val < grid0.N := t'.isLt
  omega

variable (dat : (p : Fin 1) → (c : Dev nD) → Pipeline.Dat τ (Elt F) Unit ℕ (UR sig nD τ) ℕ (cfgs p) c)

/-- After the run the result array's one entry is what the body left in the result's staging block at the last point. -/
theorem arrAt0_3 (c : Dev nD) :
    (dat 0 c).arrAt 3 cfg0.N (ix2 0 0) = (dat 0 c).after 3 t0_7 (ix2 0 0) := by
  have key := (dat 0 c).arrAt_emb_eq_flushed (3 : Fin 4) flush0_3_disjoint t0_7 flush0_3_last
    (ix2 (0 : Fin 1) (0 : Fin 1))
  have e1 : ((cfg0.win 3).blk t0_7).view.emb (ix2 (0 : Fin 1) (0 : Fin 1)) = (ix2 0 0 : S1x1.Idx) :=
    Subsingleton.elim (α := S1x1.Idx) _ _
  rw [e1] at key
  rw [key]
  rfl

/-- The scalar the host reshape leaves in main_v3 is that entry. -/
theorem tail_main_v3 (c : Dev nD) :
    Pipeline.afterTail₀ cfgs dat 0 (V0 m) [hostOps1] c main_v3 = fun _ => (dat 0 c).after 3 t0_7 (ix2 0 0) := by
  unfold Pipeline.afterTail₀
  show StableHlo.after hostOps1 _ (Proc.devRef .tc main_v3) = _
  after_results
  funext i
  show shapeCast S_ (Pipeline.withArrays spec0 c (V0 m c) (fun w => (dat 0 c).arrAt w cfg0.N)
    (Proc.devRef .tc (Pipeline.arrRef spec0 3))) shapeCasts_S1x1_S_ i = _
  rw [Pipeline.withArrays_arr spec0 launch0.win.arr_inj c _ _ 3]
  have hk : (S1x1.rowMajor (ix2 0 0)).val = (S_.rowMajor i).val := by
    have h1 := (S1x1.rowMajor (ix2 0 0)).isLt
    have h2 := (S_.rowMajor i).isLt
    have n1 : S1x1.numel = 1 := by decide
    have n2 : S_.numel = 1 := by decide
    omega
  refine (shapeCast_apply _ shapeCasts_S1x1_S_ i (ix2 0 0) hk).trans ?_
  exact arrAt0_3 dat c

end Cert.KernelIdeal.Reads

end
-- ==== Proof.Spec.lean ====
/-
  The pathway-coherence loss as one function of the three argument arrays, on the extended reals.

  With E, P : [256, 20000] (expression, predicted; batch b, gene g) and M : [500, 20000] (membership; pathway p):
    size p        = Σ_g M[p,g]
    acc p b       = Σ_g M[p,g] · (P[b,g] − E[b,g])
    meanDiff p b  = acc p b / max (size p) 1
    mse p         = (Σ_b meanDiff p b · meanDiff p b) / 256
    valid p       = 1 if size p ≥ 5 else 0
    nValid        = Σ_p valid p,      total = Σ_p mse p · valid p
    loss          = total / max nValid 1  if nValid > 0,  else 0.
  The float words 0, 1, 5, 256 are kept as their f32 patterns read at the ideal values.
-/
import Idealize.ShloMosaic.PureOps.Ideal
import Idealize.ShloMosaic.Lib.ValueIdx

noncomputable section

open scoped BigOperators

namespace Cert.PathwaySpec

open Idealize.ShloMosaic Idealize.ShloMosaic.ValueIdx

/-- A [256, 20000] array of extended reals (batch, gene). -/
abbrev ArrBG : Type := (⟨2, ![256, 20000]⟩ : Shape).Idx → EReal
/-- A [500, 20000] array of extended reals (pathway, gene). -/
abbrev ArrPG : Type := (⟨2, ![500, 20000]⟩ : Shape).Idx → EReal

/-- The f32 words of 0, 1, 5 and 256 at the ideal values. -/
def w0 : EReal := Ideal.ofBits .f32 0x00000000#32
def w1 : EReal := Ideal.ofBits .f32 0x3F800000#32
def w5 : EReal := Ideal.ofBits .f32 0x40A00000#32
def w256 : EReal := Ideal.ofBits .f32 0x43800000#32

/-- How many genes pathway `p` has: the row sum of the membership matrix. -/
def size (M : ArrPG) (p : Fin 500) : EReal := ∑ g : Fin 20000, M (ix2 p g)

/-- The membership-weighted sum over genes of predicted minus expression, for pathway `p` and sample `b`. -/
def acc (E P : ArrBG) (M : ArrPG) (p : Fin 500) (b : Fin 256) : EReal :=
  ∑ g : Fin 20000, M (ix2 p g) * (P (ix2 b g) - E (ix2 b g))

/-! The rest of the loss depends on the arrays only through the sizes `sz p` and the weighted sums `ac p b`. -/

/-- The pathway mean of the difference, the size clamped below at one. -/
def meanDiff (sz : Fin 500 → EReal) (ac : Fin 500 → Fin 256 → EReal) (p : Fin 500) (b : Fin 256) : EReal :=
  Ideal.div (ac p b) (max (sz p) w1)

/-- The mean over the batch of the squared pathway mean. -/
def mse (sz : Fin 500 → EReal) (ac : Fin 500 → Fin 256 → EReal) (p : Fin 500) : EReal :=
  Ideal.div (∑ b : Fin 256, meanDiff sz ac p b * meanDiff sz ac p b) w256

/-- One when the pathway has at least five genes, zero otherwise (the comparison's bit widened and converted). -/
def valid (sz : Fin 500 → EReal) (p : Fin 500) : EReal :=
  FloatOps.sitofp (F := Ideal) .f32 ((Ideal.cmp .oge (sz p) w5).setWidth 32)

/-- The number of valid pathways. -/
def nValid (sz : Fin 500 → EReal) : EReal := ∑ p : Fin 500, valid sz p

/-- The sum of the valid pathways' mean squared differences. -/
def total (sz : Fin 500 → EReal) (ac : Fin 500 → Fin 256 → EReal) : EReal := ∑ p : Fin 500, mse sz ac p * valid sz p

/-- The mean over the valid pathways, zero when there is none, from the sizes and the weighted sums. -/
def lossOf (sz : Fin 500 → EReal) (ac : Fin 500 → Fin 256 → EReal) : EReal :=
  Scalar.select (Ideal.cmp .ogt (nValid sz) w0) (Ideal.div (total sz ac) (max (nValid sz) w1)) w0

/-- The loss of the three argument arrays. -/
def loss (E P : ArrBG) (M : ArrPG) : EReal := lossOf (size M) (acc E P M)

end Cert.PathwaySpec

end
-- ==== Proof.LibTileDot.lean ====
/-
  A tile product into the zero accumulator, read at one output index, at the ideal values and whatever precision
  the operation names: with the contraction running over one axis of extent `K`, the entry is the sum over
  `k : Fin K` of the left operand times the right operand, each read at the index the dimension numbers assign to
  the output index and `k`. The caller names the two operand indices as functions of `k`.
-/
import Idealize.ShloMosaic.Lib.ValueIdx
import Idealize.ShloMosaic.PureOps.Ideal.Laws

noncomputable section

namespace Cert.LibTileDot

open Idealize.ShloMosaic Idealize.ShloMosaic.ValueIdx

/-- The matrix unit's product of two tiles into a zero accumulator, at output index `j`: the sum over the one
    contracted axis, each factor read where the dimension numbers send `j` and `k`. -/
theorem matmul_zero_at {sl sr so : Shape} {φ₁ φ₂ : FTy} (d : DotDims sl sr so) (prec : Option ContractPrecision) (K : ℕ)
    (hr : d.contr.rank = 1) (hs : d.contr.size ⟨0, by omega⟩ = K)
    (lhs : FVec Ideal sl φ₁) (rhs : FVec Ideal sr φ₂) (j : so.Idx)
    (li : Fin K → sl.Idx) (ri : Fin K → sr.Idx)
    (hl : ∀ k, d.lhsIdx j ((contrEquiv1 d K hr hs).symm k) = li k)
    (hri : ∀ k, d.rhsIdx j ((contrEquiv1 d K hr hs).symm k) = ri k) :
    FloatOps.matmul d prec lhs rhs (constant so .f32 0x00000000#32) j = ∑ k : Fin K, lhs (li k) * rhs (ri k) := by
  rw [Ideal.matmul_constant_zero_apply, ← Equiv.sum_comp (contrEquiv1 d K hr hs).symm]
  exact Finset.sum_congr rfl fun k _ => by rw [hl k, hri k]

end Cert.LibTileDot

end
-- ==== Proof.LibRealAlg.lean ====
/-
  General facts on the extended reals: an extended real "is a real" when it is the image of a real
  number; sums, products and maxima of reals are reals; a product of three finite real families can
  be regrouped; and the logistic function is half the hyperbolic tangent of half the argument, plus
  one half, at every extended real.
-/
import Idealize.ShloMosaic.PureOps.Ideal
import Idealize.ShloMosaic.PureOps.Ideal.Laws

noncomputable section

namespace Cert.LibRealAlg

open Idealize.ShloMosaic
open scoped BigOperators

/-! ### Extended reals that are real numbers -/

/-- An extended real is finite when it is the image of a real number. -/
def IsReal (x : EReal) : Prop := ∃ r : ℝ, x = (r : EReal)

/-- Zero is a real. -/
theorem isReal_zero : IsReal 0 := ⟨0, EReal.coe_zero.symm⟩

/-- One is a real. -/
theorem isReal_one : IsReal 1 := ⟨1, EReal.coe_one.symm⟩

/-- The image of a real number is a real. -/
theorem isReal_coe (r : ℝ) : IsReal (r : EReal) := ⟨r, rfl⟩

/-- A real is neither infinity. -/
theorem IsReal.ne_top {x : EReal} (hx : IsReal x) : x ≠ ⊤ := by
  obtain ⟨a, rfl⟩ := hx; exact EReal.coe_ne_top a

/-- A real is neither infinity. -/
theorem IsReal.ne_bot {x : EReal} (hx : IsReal x) : x ≠ ⊥ := by
  obtain ⟨a, rfl⟩ := hx; exact EReal.coe_ne_bot a

/-- The sum of two reals is a real. -/
theorem IsReal.add {x y : EReal} (hx : IsReal x) (hy : IsReal y) : IsReal (x + y) := by
  obtain ⟨a, rfl⟩ := hx; obtain ⟨b, rfl⟩ := hy; exact ⟨a + b, (EReal.coe_add a b).symm⟩

/-- The product of two reals is a real. -/
theorem IsReal.mul {x y : EReal} (hx : IsReal x) (hy : IsReal y) : IsReal (x * y) := by
  obtain ⟨a, rfl⟩ := hx; obtain ⟨b, rfl⟩ := hy; exact ⟨a * b, (EReal.coe_mul a b).symm⟩

/-- The negative of a real is a real. -/
theorem IsReal.neg {x : EReal} (hx : IsReal x) : IsReal (-x) := by
  obtain ⟨a, rfl⟩ := hx; exact ⟨-a, (EReal.coe_neg a).symm⟩

/-- The maximum of two reals is a real. -/
theorem IsReal.max {x y : EReal} (hx : IsReal x) (hy : IsReal y) : IsReal (max x y) := by
  rcases le_total x y with h | h
  · rw [max_eq_right h]; exact hy
  · rw [max_eq_left h]; exact hx

/-- The coercion of a finite sum of real numbers is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of reals is a real. -/
theorem IsReal.sum {ι : Type*} (s : Finset ι) (f : ι → EReal) (h : ∀ i ∈ s, IsReal (f i)) :
    IsReal (∑ i ∈ s, f i) := by
  classical
  induction s using Finset.induction_on with
  | empty => rw [Finset.sum_empty]; exact isReal_zero
  | insert a s ha ih =>
    rw [Finset.sum_insert ha]
    exact (h a (Finset.mem_insert_self a s)).add (ih fun i hi => h i (Finset.mem_insert_of_mem hi))

/-- A sum of reals over a finite type is a real. -/
theorem isReal_sum_univ {ι : Type*} [Fintype ι] (f : ι → EReal) (h : ∀ i, IsReal (f i)) :
    IsReal (∑ i, f i) :=
  IsReal.sum Finset.univ f fun i _ => h i

/-- The single-precision zero word denotes the real number zero. -/
theorem isReal_ofBits_zero : IsReal (Ideal.ofBits .f32 0x00000000#32) := by
  rw [Ideal.ofBits_zero_f32]; exact isReal_zero

/-- The maximum of a real and the value of the single-precision zero word is a real. -/
theorem isReal_max_ofBits_zero {x : EReal} (hx : IsReal x) :
    IsReal (max x (Ideal.ofBits .f32 0x00000000#32)) :=
  hx.max isReal_ofBits_zero

/-- The maximum of a real with zero is the coercion of the real maximum with zero. -/
theorem max_coe_ofBits_zero (r : ℝ) :
    max (r : EReal) (Ideal.ofBits .f32 0x00000000#32) = ((max r 0 : ℝ) : EReal) := by
  rw [Ideal.ofBits_zero_f32, ← EReal.coe_zero]
  rcases le_total r 0 with h | h
  · rw [max_eq_right h, max_eq_right (EReal.coe_le_coe_iff.2 h)]
  · rw [max_eq_left h, max_eq_left (EReal.coe_le_coe_iff.2 h)]

/-! ### Regrouping a product of three finite real families -/

/-- For real families `a`, `h`, `w` over finite index types,
    `∑ₖ (∑ⱼ aⱼ hⱼₖ) wₖ = ∑ⱼ aⱼ (∑ₖ hⱼₖ wₖ)`: associativity of the matrix product, entry by entry. -/
theorem sum_mul_sum_assoc {J K : Type*} [Fintype J] [Fintype K] (a : J → EReal) (h : J → K → EReal)
    (w : K → EReal) (ha : ∀ j, IsReal (a j)) (hh : ∀ j k, IsReal (h j k)) (hw : ∀ k, IsReal (w k)) :
    (∑ k, (∑ j, a j * h j k) * w k) = ∑ j, a j * ∑ k, h j k * w k := by
  choose a' ha' using ha
  choose h' hh' using hh
  choose w' hw' using hw
  obtain rfl : a = fun j => ((a' j : ℝ) : EReal) := funext ha'
  obtain rfl : h = fun j k => ((h' j k : ℝ) : EReal) := funext fun j => funext fun k => hh' j k
  obtain rfl : w = fun k => ((w' k : ℝ) : EReal) := funext hw'
  simp only [← EReal.coe_mul, ← coe_sum]
  rw [EReal.coe_eq_coe_iff]
  simp only [Finset.sum_mul, Finset.mul_sum]
  rw [Finset.sum_comm]
  simp only [mul_assoc]

/-! ### The logistic function by the hyperbolic tangent -/

/-- The single-precision word `0x3F000000` denotes one half. -/
theorem ofBits_half : Ideal.ofBits .f32 0x3F000000#32 = ((1 / 2 : ℝ) : EReal) := by
  simp [Ideal.ofBits, Ideal.ieee, -EReal.coe_mul]; norm_num

/-- The single-precision word `0x3F800000` denotes one. -/
theorem ofBits_one : Ideal.ofBits .f32 0x3F800000#32 = ((1 : ℝ) : EReal) := by
  simp [Ideal.ofBits, Ideal.ieee, -EReal.coe_mul]; norm_num

/-- On the reals, `1/2 · tanh (r/2) + 1/2 = 1 / (1 + e⁻ʳ)`. -/
theorem real_logistic_eq_tanh (r : ℝ) :
    1 / 2 * Real.tanh (1 / 2 * r) + 1 / 2 = (1 + Real.exp (-r))⁻¹ := by
  have hu : 0 < Real.exp (1 / 2 * r) := Real.exp_pos _
  have hv : 0 < Real.exp (-(1 / 2 * r)) := Real.exp_pos _
  have huv : Real.exp (1 / 2 * r) * Real.exp (-(1 / 2 * r)) = 1 := by
    rw [← Real.exp_add, add_neg_cancel, Real.exp_zero]
  have hr : Real.exp (-r) = Real.exp (-(1 / 2 * r)) * Real.exp (-(1 / 2 * r)) := by
    rw [← Real.exp_add]; congr 1; ring
  rw [Real.tanh_eq, hr]
  generalize Real.exp (1 / 2 * r) = u at *
  generalize Real.exp (-(1 / 2 * r)) = v at *
  have huv' : u + v ≠ 0 := by positivity
  have hvv : 1 + v * v ≠ 0 := by positivity
  field_simp
  linear_combination (2 * v) * huv

/-- At every extended real `s`, `1/2 · tanh (1/2 · s) + 1/2 = 1 / (1 + exp (-s))`, with the constants
    given by their single-precision words: at `-∞` both sides are `0`, at `+∞` both are `1`. -/
theorem logistic_eq_tanh (s : EReal) :
    Ideal.ofBits .f32 0x3F000000#32 * Ideal.tanh (Ideal.ofBits .f32 0x3F000000#32 * s)
        + Ideal.ofBits .f32 0x3F000000#32
      = Ideal.div (Ideal.ofBits .f32 0x3F800000#32) (Ideal.ofBits .f32 0x3F800000#32 + Ideal.exp (-s)) := by
  rw [ofBits_half, ofBits_one]
  induction s using EReal.rec with
  | bot =>
    rw [EReal.coe_mul_bot_of_pos (by norm_num), Ideal.tanh_bot, EReal.neg_bot, Ideal.exp_top,
      EReal.coe_add_top, Ideal.div, if_neg (by simp), EReal.inv_top, mul_zero,
      ← EReal.coe_one, ← EReal.coe_neg, ← EReal.coe_mul, ← EReal.coe_add, ← EReal.coe_zero]
    norm_num
  | coe r =>
    rw [← EReal.coe_mul, Ideal.tanh_coe, ← EReal.coe_mul, ← EReal.coe_add, ← EReal.coe_neg, Ideal.exp_coe,
      ← EReal.coe_add, Ideal.div_coe (by positivity), ← EReal.coe_mul, real_logistic_eq_tanh]
    norm_num
  | top =>
    rw [EReal.coe_mul_top_of_pos (by norm_num), Ideal.tanh_top, EReal.neg_top, Ideal.exp_bot, add_zero,
      Ideal.div, if_neg (by simp), ← EReal.coe_inv, ← EReal.coe_one, ← EReal.coe_mul, ← EReal.coe_mul,
      ← EReal.coe_add]
    norm_num

end Cert.LibRealAlg

end
-- ==== Proof.KI.PayIdeal.lean ====
/-
  The kernel's stored values at the ideal instance (floats are extended reals, every operation exact), read at an
  index and compared with the specification's formulas.

    * The new accumulator at `(p, b)` is the old one plus the sum over the block's 2560 columns `k` of
      membership `(p, k)` times (predicted − expression) `(k, b)`, the terms whose global gene index
      `2560 t + k` is 20000 or more replaced by zero (`pay5_at`): the tile product into the zero accumulator is
      the sum of products over the one contracted axis, and a masked factor is the zero word, whose product with
      anything is zero on the extended reals.
    * The new size buffer at `(p, c)` is the old one plus the sum of the kept membership entries (`pay6_at`): the
      right factor is the block of ones.
    * The last grid point's result is the specification's `lossOf` of the size column and the accumulator
      (`pay1_eq`): a lane reduction is the sum over the lane axis, a reduction of a `[1, 500, 1]` array over its
      two last axes is the sum over the 500 rows, and everything else is elementwise.
-/
import proofs.«171851_g66838281060554_cont_sun_c4_581_21_alg».proof.Proof.KI.PayCongr
import proofs.«171851_g66838281060554_cont_sun_c4_581_21_alg».proof.Proof.Spec
import proofs.«171851_g66838281060554_cont_sun_c4_581_21_alg».proof.Proof.LibTileDot
import proofs.«171851_g66838281060554_cont_sun_c4_581_21_alg».proof.Proof.LibRealAlg
import Idealize.ShloMosaic.PureOps.Ideal.Laws
import Idealize.ShloMosaic.Lib.ValueLayout

set_option synthInstance.maxSize 4096
set_option maxRecDepth 65536

noncomputable section

open scoped BigOperators

namespace Cert.KernelIdeal.PayFacts

open Idealize.ShloMosaic Idealize.SL.Sem Idealize.ShloMosaic.ValueIdx
open Cert.KernelIdeal Cert.KernelIdeal.Gen

/-- The dimension numbers of the accumulator's tile product: `[500, 2560] · [2560, 256]`, one contracted axis. -/
abbrev dAcc : DotDims S500x2560 S2560x256 S500x256 := dot_S500x2560_S2560x256_S500x256_1_0_0_1_n_n
/-- The dimension numbers of the size buffer's tile product: `[500, 2560] · [2560, 8]`, one contracted axis. -/
abbrev dSize : DotDims S500x2560 S2560x8 S500x8 := dot_S500x2560_S2560x8_S500x8_1_0_0_1_n_n

/-! ## The two tile products' operand indices -/

theorem dAcc_lhs_0 (j : S500x256.Idx) (q : dAcc.contr.Idx) : (dAcc.lhsIdx j q 0).val = (j 0).val := by
  unfold DotDims.lhsIdx
  rw [dif_neg (show ¬(0 : Fin S500x2560.rank) ∈ dAcc.lhsBatch by decide), dif_pos (show (0 : Fin S500x2560.rank) ∈ dAcc.lhsNonContracting by decide)]
  rfl
theorem dAcc_lhs_1 (j : S500x256.Idx) (q : dAcc.contr.Idx) : (dAcc.lhsIdx j q 1).val = (q ⟨0, by decide⟩).val :=
  dAcc.lhsIdx_val_of_single rfl j q
theorem dAcc_rhs_0 (j : S500x256.Idx) (q : dAcc.contr.Idx) : (dAcc.rhsIdx j q 0).val = (q ⟨0, by decide⟩).val :=
  dAcc.rhsIdx_val_of_single rfl j q
theorem dAcc_rhs_1 (j : S500x256.Idx) (q : dAcc.contr.Idx) : (dAcc.rhsIdx j q 1).val = (j 1).val := by
  unfold DotDims.rhsIdx
  rw [dif_neg (show ¬(1 : Fin S2560x256.rank) ∈ dAcc.rhsBatch by decide), dif_pos (show (1 : Fin S2560x256.rank) ∈ dAcc.rhsNonContracting by decide)]
  rfl

/-- The accumulator product's left operand is read at (row of the output, contracted coordinate). -/
theorem dAcc_lhs (p : Fin 500) (b : Fin 256) (k : Fin 2560) :
    dAcc.lhsIdx (ix2 p b) ((contrEquiv1 dAcc 2560 rfl rfl).symm k) = ix2 p k := by
  have hk := contrEquiv1_symm_val dAcc 2560 rfl rfl k
  exact funext fun a => Fin.ext (by
    match a with
    | ⟨0, _⟩ => exact dAcc_lhs_0 _ _
    | ⟨1, _⟩ => exact (dAcc_lhs_1 _ _).trans hk)

/-- The accumulator product's right operand is read at (contracted coordinate, column of the output). -/
theorem dAcc_rhs (p : Fin 500) (b : Fin 256) (k : Fin 2560) :
    dAcc.rhsIdx (ix2 p b) ((contrEquiv1 dAcc 2560 rfl rfl).symm k) = ix2 k b := by
  have hk := contrEquiv1_symm_val dAcc 2560 rfl rfl k
  exact funext fun a => Fin.ext (by
    match a with
    | ⟨0, _⟩ => exact (dAcc_rhs_0 _ _).trans hk
    | ⟨1, _⟩ => exact dAcc_rhs_1 _ _)

theorem dSize_lhs_0 (j : S500x8.Idx) (q : dSize.contr.Idx) : (dSize.lhsIdx j q 0).val = (j 0).val := by
  unfold DotDims.lhsIdx
  rw [dif_neg (show ¬(0 : Fin S500x2560.rank) ∈ dSize.lhsBatch by decide), dif_pos (show (0 : Fin S500x2560.rank) ∈ dSize.lhsNonContracting by decide)]
  rfl
theorem dSize_lhs_1 (j : S500x8.Idx) (q : dSize.contr.Idx) : (dSize.lhsIdx j q 1).val = (q ⟨0, by decide⟩).val :=
  dSize.lhsIdx_val_of_single rfl j q
theorem dSize_rhs_0 (j : S500x8.Idx) (q : dSize.contr.Idx) : (dSize.rhsIdx j q 0).val = (q ⟨0, by decide⟩).val :=
  dSize.rhsIdx_val_of_single rfl j q
theorem dSize_rhs_1 (j : S500x8.Idx) (q : dSize.contr.Idx) : (dSize.rhsIdx j q 1).val = (j 1).val := by
  unfold DotDims.rhsIdx
  rw [dif_neg (show ¬(1 : Fin S2560x8.rank) ∈ dSize.rhsBatch by decide), dif_pos (show (1 : Fin S2560x8.rank) ∈ dSize.rhsNonContracting by decide)]
  rfl

theorem dSize_lhs (p : Fin 500) (c : Fin 8) (k : Fin 2560) :
    dSize.lhsIdx (ix2 p c) ((contrEquiv1 dSize 2560 rfl rfl).symm k) = ix2 p k := by
  have hk := contrEquiv1_symm_val dSize 2560 rfl rfl k
  exact funext fun a => Fin.ext (by
    match a with
    | ⟨0, _⟩ => exact dSize_lhs_0 _ _
    | ⟨1, _⟩ => exact (dSize_lhs_1 _ _).trans hk)

theorem dSize_rhs (p : Fin 500) (c : Fin 8) (k : Fin 2560) :
    dSize.rhsIdx (ix2 p c) ((contrEquiv1 dSize 2560 rfl rfl).symm k) = ix2 k c := by
  have hk := contrEquiv1_symm_val dSize 2560 rfl rfl k
  exact funext fun a => Fin.ext (by
    match a with
    | ⟨0, _⟩ => exact (dSize_rhs_0 _ _).trans hk
    | ⟨1, _⟩ => exact dSize_rhs_1 _ _)

/-! ## The two accumulations at an index -/

/-- THE NEW ACCUMULATOR AT `(p, b)`: the old one plus the block's kept products. -/
theorem pay5_at (i : grid0.Coords) (x1 x0 : Vec Ideal S2560x256 .f32) (x2 : Vec Ideal S500x2560 .f32)
    (a : Vec Ideal S500x256 .f32) (p : Fin 500) (b : Fin 256) :
    k0_pay5 (F := Ideal) i x1 x0 x2 a (ix2 p b)
      = a (ix2 p b) + ∑ k : Fin 2560,
          (if 2560 * (i 0).val + k.val < 20000 then x2 (ix2 p k) * (x1 (ix2 k b) - x0 (ix2 k b)) else 0) := by
  rw [pay5_eq, addf_apply]
  refine congrArg (a (ix2 p b) + ·) ?_
  show FloatOps.matmul dAcc none (k0_pay4 (F := Ideal) i x2) (pay5_rhs (F := Ideal) i x1 x0)
      (constant S500x256 .f32 0x00000000#32) (ix2 p b) = _
  rw [Cert.LibTileDot.matmul_zero_at dAcc none 2560 rfl rfl _ _ (ix2 p b) (fun k => ix2 p k) (fun k => ix2 k b)
    (fun k => dAcc_lhs p b k) (fun k => dAcc_rhs p b k)]
  refine Finset.sum_congr rfl fun k _ => ?_
  have e4 : k0_pay4 (F := Ideal) i x2 (ix2 p k)
      = if 2560 * (i 0).val + k.val < 20000 then x2 (ix2 p k) else Ideal.ofBits .f32 0x00000000#32 :=
    pay4_apply i x2 (ix2 p k)
  have e5 : pay5_rhs (F := Ideal) i x1 x0 (ix2 k b)
      = if 2560 * (i 0).val + k.val < 20000 then x1 (ix2 k b) - x0 (ix2 k b) else Ideal.ofBits .f32 0x00000000#32 :=
    pay5_rhs_apply i x1 x0 (ix2 k b)
  rw [e4, e5]
  by_cases h : 2560 * (i 0).val + k.val < 20000
  · rw [if_pos h, if_pos h, if_pos h]
  · rw [if_neg h, if_neg h, if_neg h, Ideal.ofBits_zero_f32, zero_mul]

/-- THE NEW SIZE BUFFER AT `(p, c)`: the old one plus the block's kept membership entries. -/
theorem pay6_at (i : grid0.Coords) (x2 : Vec Ideal S500x2560 .f32) (s : Vec Ideal S500x8 .f32) (p : Fin 500) (c : Fin 8) :
    k0_pay6 (F := Ideal) i x2 s (ix2 p c)
      = s (ix2 p c) + ∑ k : Fin 2560, (if 2560 * (i 0).val + k.val < 20000 then x2 (ix2 p k) else 0) := by
  rw [pay6_eq, addf_apply]
  refine congrArg (s (ix2 p c) + ·) ?_
  show FloatOps.matmul dSize none (k0_pay4 (F := Ideal) i x2)
      (broadcast S2560x8 (Ideal.ofBits .f32 0x3F800000#32)) (constant S500x8 .f32 0x00000000#32) (ix2 p c) = _
  rw [Cert.LibTileDot.matmul_zero_at dSize none 2560 rfl rfl _ _ (ix2 p c) (fun k => ix2 p k) (fun k => ix2 k c)
    (fun k => dSize_lhs p c k) (fun k => dSize_rhs p c k)]
  refine Finset.sum_congr rfl fun k _ => ?_
  have e4 : k0_pay4 (F := Ideal) i x2 (ix2 p k)
      = if 2560 * (i 0).val + k.val < 20000 then x2 (ix2 p k) else Ideal.ofBits .f32 0x00000000#32 :=
    pay4_apply i x2 (ix2 p k)
  rw [e4]
  show _ * Ideal.ofBits .f32 0x3F800000#32 = _
  rw [Cert.LibRealAlg.ofBits_one, EReal.coe_one, mul_one]
  by_cases h : 2560 * (i 0).val + k.val < 20000
  · rw [if_pos h, if_pos h]
  · rw [if_neg h, if_neg h, Ideal.ofBits_zero_f32]

/-! ## The last grid point: shape casts, the two kinds of reduction -/

/-- An `[a]` array cast to `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The lane reduction of a `[500, 256]` array at row `p` is the sum over the 256 lanes. -/
theorem rowSum_apply (x : FVec Ideal S500x256 .f32) (p : Fin 500) :
    multiReduction .add [1] S500 x 0x00000000#32 reduces_S500x256_S500 (.inl rfl) rfl (ix1 p)
      = ∑ b : Fin 256, x (ix2 p b) := by
  refine (Ideal.multiReduction_add_single x 0x00000000#32 reduces_S500x256_S500 (.inl rfl) rfl (ix1 p)).trans ?_
  exact Finset.sum_congr rfl fun b _ => congrArg x (funext fun a => Fin.ext (by
    match a with
    | ⟨0, _⟩ => rfl
    | ⟨1, _⟩ => rfl))

/-- The rows of a `[1, 500, 1]` array, as a bijection with its index set. -/
def rowEquiv : Fin 500 ≃ S1x500x1.Idx where
  toFun p := ix3 (0 : Fin 1) p (0 : Fin 1)
  invFun j := j 1
  left_inv _ := rfl
  right_inv j := by
    have h0 : (j 0).val < 1 := (j 0).isLt
    have h2 : (j 2).val < 1 := (j 2).isLt
    funext a
    refine Fin.ext ?_
    match a with
    | ⟨0, _⟩ => show (0 : ℕ) = (j 0).val; omega
    | ⟨1, _⟩ => rfl
    | ⟨2, _⟩ => show (0 : ℕ) = (j 2).val; omega

/-- The kernel's total of a `[500, 1]` column: cast to `[1, 500, 1]`, reduced over the two last axes, the one
    element taken out. -/
def totalOf (x : FVec Ideal S500x1 .f32) : Ideal .f32 :=
  extractAt ![0, 0, 0]
    (shapeCast S1x1x1
      (multiReduction .add [1, 2] S1 (shapeCast S1x500x1 x shapeCasts_S500x1_S1x500x1) 0x00000000#32
        reduces_S1x500x1_S1 (.inl rfl) rfl)
      shapeCasts_S1_S1x1x1)
    inpos_S1x1x1_p0_0_0

/-- It is the sum of the column's 500 entries. -/
theorem totalOf_eq (x : FVec Ideal S500x1 .f32) : totalOf x = ∑ p : Fin 500, x (ix2 p 0) := by
  have ht : ∀ b : Fin S1.rank, S1.size b = 1 := by decide
  unfold totalOf extractAt
  show multiReduction .add [1, 2] S1 (shapeCast S1x500x1 x shapeCasts_S500x1_S1x500x1) 0x00000000#32
      reduces_S1x500x1_S1 (.inl rfl) rfl _ = _
  refine (Ideal.multiReduction_add_total (shapeCast S1x500x1 x shapeCasts_S500x1_S1x500x1) 0x00000000#32
    reduces_S1x500x1_S1 ht (.inl rfl) rfl _).trans ?_
  rw [← Equiv.sum_comp rowEquiv]
  exact Finset.sum_congr rfl fun p _ => shapeCast_ab_1ab_apply x shapeCasts_S500x1_S1x500x1 0 p 0

/-! ## The last grid point: the pieces of the loss -/

/-- The validity column: one where the size is at least five. -/
def validV (v37 : Vec Ideal S500x1 .f32) : FVec Ideal S500x1 .f32 :=
  sitofp .f32 (extui 32 (cmpf .oge v37 (broadcast S500x1 (Scalar.ofBits .f32 0x40A00000#32 : Ideal .f32))) natLt_1_32)

theorem validV_apply (v37 : Vec Ideal S500x1 .f32) (p : Fin 500) :
    validV v37 (ix2 p 0) = Cert.PathwaySpec.valid (fun p => v37 (ix2 p 0)) p := rfl

/-- The pathway means: the accumulator over the size clamped below at one. -/
def meanV (v37 : Vec Ideal S500x1 .f32) (v40 : Vec Ideal S500x256 .f32) : FVec Ideal S500x256 .f32 :=
  divf v40 (broadcastTo S500x256 (maximumf v37 (broadcast S500x1 (Scalar.ofBits .f32 0x3F800000#32 : Ideal .f32)))
    broadcasts_S500x1_S500x256)

theorem meanV_apply (v37 : Vec Ideal S500x1 .f32) (v40 : Vec Ideal S500x256 .f32) (p : Fin 500) (b : Fin 256) :
    meanV v37 v40 (ix2 p b)
      = Cert.PathwaySpec.meanDiff (fun p => v37 (ix2 p 0)) (fun p b => v40 (ix2 p b)) p b := by
  unfold meanV
  rw [divf_apply, broadcastTo_apply _ broadcasts_S500x1_S500x256 (ix2 p b) (ix2 p 0) (fun a => by
    match a with
    | ⟨0, _⟩ => rfl
    | ⟨1, _⟩ => rfl)]
  rfl

/-- The mean squared pathway mean over the batch. -/
def mseV (v37 : Vec Ideal S500x1 .f32) (v40 : Vec Ideal S500x256 .f32) : FVec Ideal S500x1 .f32 :=
  divf
    (shapeCast S500x1
      (multiReduction .add [1] S500 (mulf (meanV v37 v40) (meanV v37 v40)) 0x00000000#32 reduces_S500x256_S500 (.inl rfl) rfl)
      shapeCasts_S500_S500x1)
    (broadcast S500x1 (Scalar.ofBits .f32 0x43800000#32 : Ideal .f32))

theorem mseV_apply (v37 : Vec Ideal S500x1 .f32) (v40 : Vec Ideal S500x256 .f32) (p : Fin 500) :
    mseV v37 v40 (ix2 p 0) = Cert.PathwaySpec.mse (fun p => v37 (ix2 p 0)) (fun p b => v40 (ix2 p b)) p := by
  unfold mseV
  rw [divf_apply, shapeCast_a_a1_apply, rowSum_apply]
  unfold Cert.PathwaySpec.mse
  congr 1
  exact Finset.sum_congr rfl fun b _ => by rw [mulf_apply, meanV_apply]

/-- THE LAST GRID POINT'S RESULT is the specification's loss of the size column and the accumulator. -/
theorem pay1_eq (v37 : Vec Ideal S500x1 .f32) (v40 : Vec Ideal S500x256 .f32) :
    k0_pay1 (F := Ideal) v37 v40
      = fun _ => Cert.PathwaySpec.lossOf (fun p => v37 (ix2 p 0)) (fun p b => v40 (ix2 p b)) := by
  funext j
  have hN : totalOf (validV v37) = Cert.PathwaySpec.nValid (fun p => v37 (ix2 p 0)) := by
    rw [totalOf_eq]
    exact Finset.sum_congr rfl fun p _ => validV_apply v37 p
  have hT : totalOf (mulf (mseV v37 v40) (validV v37))
      = Cert.PathwaySpec.total (fun p => v37 (ix2 p 0)) (fun p b => v40 (ix2 p b)) := by
    rw [totalOf_eq]
    exact Finset.sum_congr rfl fun p _ => by rw [mulf_apply, mseV_apply, validV_apply]
  show Scalar.select (FloatOps.cmpf .ogt (totalOf (validV v37)) (Ideal.ofBits .f32 0x00000000#32))
      (FloatOps.divf (totalOf (mulf (mseV v37 v40) (validV v37)))
        (FloatOps.maximumf (totalOf (validV v37)) (Ideal.ofBits .f32 0x3F800000#32)))
      (Ideal.ofBits .f32 0x00000000#32) = _
  rw [hN, hT]
  rfl

end Cert.KernelIdeal.PayFacts

end
-- ==== Proof.LibSumBlocks.lean ====
/-
  Sums taken block after block.  A finite family `g : Fin n → M` is read at any natural number (zero outside its
  range), so that a stretch of `B` consecutive terms starting at `B * k` is a sum over `range B` of one function of
  the natural numbers; then the first `B * k` terms plus the next `B` are the first `B * (k + 1)`, in any
  commutative additive monoid (on the extended reals too: only associativity is used).
-/
import Mathlib.Algebra.BigOperators.Fin
import Mathlib.Algebra.BigOperators.Intervals

namespace Cert.LibSumBlocks

variable {M : Type*} [AddCommMonoid M]

/-- A finite family read at a natural number: its entry inside the range, zero outside. -/
def ext {n : ℕ} (g : Fin n → M) (d : ℕ) : M := if h : d < n then g ⟨d, h⟩ else 0

theorem ext_of_lt {n : ℕ} (g : Fin n → M) (d : ℕ) (h : d < n) : ext g d = g ⟨d, h⟩ := dif_pos h

/-- The whole family's sum is the sum of its readings over `range n`. -/
theorem sum_univ_eq_range {n : ℕ} (g : Fin n → M) : ∑ k : Fin n, g k = ∑ d ∈ Finset.range n, ext g d := by
  rw [Finset.sum_range]
  exact Finset.sum_congr rfl fun k _ => (ext_of_lt g k.val k.isLt).symm

/-- A block of `B` terms whose `d'`-th term is the family's entry `B * k + d'` is the sum of the readings there. -/
theorem block_eq_range {n : ℕ} (g : Fin n → M) (B k : ℕ) (h : Fin B → M)
    (hh : ∀ d' : Fin B, ∃ hlt : B * k + d'.val < n, h d' = g ⟨B * k + d'.val, hlt⟩) :
    ∑ d' : Fin B, h d' = ∑ d ∈ Finset.range B, ext g (B * k + d) := by
  rw [Finset.sum_range]
  refine Finset.sum_congr rfl fun d' _ => ?_
  obtain ⟨hlt, e⟩ := hh d'
  rw [e, ext_of_lt g _ hlt]

/-- The first `B * k` terms, then the next `B`: the first `B * (k + 1)`. -/
theorem prefix_add_block (f : ℕ → M) (B k : ℕ) :
    (∑ d ∈ Finset.range (B * k), f d) + (∑ d ∈ Finset.range B, f (B * k + d))
      = ∑ d ∈ Finset.range (B * (k + 1)), f d := by
  rw [Nat.mul_succ, Finset.sum_range_add]

end Cert.LibSumBlocks
-- ==== Proof.BlockStep.lean ====
/-
  A sum over the first 20000 natural numbers taken in eight blocks of 2560, the last one cut short.

  The prefix reached after `t` blocks is `range (min (2560 t) 20000)`. One more block adds the terms
  `f (2560 t + k)`, `k < 2560`, that still lie below 20000 (the others are replaced by zero), and the prefix
  becomes `range (min (2560 (t + 1)) 20000)`. After eight blocks the prefix is all of `range 20000`, which is
  the sum over `Fin 20000`. Any commutative additive monoid: only associativity and the zero are used.
-/
import Mathlib.Algebra.BigOperators.Fin
import Mathlib.Algebra.BigOperators.Intervals
import proofs.«171851_g66838281060554_cont_sun_c4_581_21_alg».proof.Proof.LibSumBlocks

open scoped BigOperators

namespace Cert.BlockStep

variable {M : Type*} [AddCommMonoid M]

/-- A sum over the prefix cut at `N` is the sum over the uncut prefix of the terms below `N`, zero for the rest. -/
theorem sum_range_min (f : ℕ → M) (n N : ℕ) :
    ∑ g ∈ Finset.range (min n N), f g = ∑ g ∈ Finset.range n, (if g < N then f g else 0) := by
  rw [← Finset.sum_filter]
  refine Finset.sum_congr ?_ fun _ _ => rfl
  ext g
  simp only [Finset.mem_range, Finset.mem_filter, lt_min_iff]

/-- ONE BLOCK MORE: the prefix after `t` blocks plus the kept terms of block `t` is the prefix after `t + 1`. -/
theorem block_step (f : ℕ → M) (t : ℕ) :
    (∑ g ∈ Finset.range (min (2560 * t) 20000), f g)
        + ∑ k : Fin 2560, (if 2560 * t + k.val < 20000 then f (2560 * t + k.val) else 0)
      = ∑ g ∈ Finset.range (min (2560 * (t + 1)) 20000), f g := by
  have key := Cert.LibSumBlocks.prefix_add_block (fun g => if g < 20000 then f g else 0) 2560 t
  rw [sum_range_min, sum_range_min, ← key]
  congr 1

/-- Before the first block the prefix is empty. -/
theorem prefix_zero (f : ℕ → M) : ∑ g ∈ Finset.range (min (2560 * 0) 20000), f g = 0 := by
  simp

/-- AFTER EIGHT BLOCKS the prefix is everything: the sum over `Fin 20000`, each entry read at its number. -/
theorem sum_fin_eq_prefix (h : Fin 20000 → M) :
    ∑ g : Fin 20000, h g
      = ∑ g ∈ Finset.range (min (2560 * 8) 20000), (if hg : g < 20000 then h ⟨g, hg⟩ else 0) := by
  have e : min (2560 * 8) 20000 = 20000 := by decide
  rw [e]
  exact Cert.LibSumBlocks.sum_univ_eq_range h

end Cert.BlockStep
-- ==== Proof.KI.Accum.lean ====
/-
  One grid point's accumulation as one more block of a prefix sum over the genes, the buffers' initial values, the
  prefix after eight blocks, and the last point's load of the sizes' first column.

  Read at a natural number `g`, row `p` of the membership matrix is `rowOf M p g` and the membership-weighted
  difference of sample `b` is `dOf E P M p b g` (zero from gene 20000 on). If a buffer entry holds the sum of such
  a function over the genes below `min (2560 t) 20000`, and on the kept columns the loaded blocks are the arrays'
  entries at the global gene index `2560 t + k`, then after point `t`'s accumulation the entry holds the sum over
  the genes below `min (2560 (t + 1)) 20000`. Both buffers start at the zero word, the extended real `0`: the
  empty prefix's sum. After eight blocks the prefix is all 20000 genes: the specification's `size` and `acc`.
-/
import proofs.«171851_g66838281060554_cont_sun_c4_581_21_alg».proof.Proof.KI.PayIdeal
import proofs.«171851_g66838281060554_cont_sun_c4_581_21_alg».proof.Proof.BlockStep
import proofs.«171851_g66838281060554_cont_sun_c4_581_21_alg».proof.Proof.Spec
import Idealize.ShloMosaic.Lib.Pipeline.FrameBody

set_option synthInstance.maxSize 4096
set_option maxRecDepth 65536

noncomputable section

open scoped BigOperators

namespace Cert.KernelIdeal.PayFacts

open Idealize.ShloMosaic Idealize.SL.Sem Idealize.ShloMosaic.ValueIdx
open Cert.KernelIdeal Cert.KernelIdeal.Gen
open Cert.PathwaySpec (ArrBG ArrPG)

/-- Row `p` of the membership matrix read at a natural number: its entry below 20000, zero from there on. -/
def rowOf (M : ArrPG) (p : Fin 500) (g : ℕ) : EReal :=
  if hg : g < 20000 then M (ix2 p ⟨g, hg⟩) else 0

/-- The membership-weighted difference (predicted minus expression) of pathway `p` and sample `b` read at a
    natural number: its value below 20000, zero from there on. -/
def dOf (E P : ArrBG) (M : ArrPG) (p : Fin 500) (b : Fin 256) (g : ℕ) : EReal :=
  if hg : g < 20000 then M (ix2 p ⟨g, hg⟩) * (P (ix2 b ⟨g, hg⟩) - E (ix2 b ⟨g, hg⟩)) else 0

/-! ## The buffers' initial values -/

section AnyInstance
variable {F : FTy → Type} [FloatOps F]

/-- The accumulator's initial value is the zero word everywhere, at every instance. -/
theorem pay2_eq : k0_pay2 (F := F) = broadcast S500x256 (Scalar.ofBits .f32 0x00000000#32 : F .f32) :=
  shapeCast_self _ _

/-- The size buffer's initial value is the zero word everywhere, at every instance. -/
theorem pay3_eq : k0_pay3 (F := F) = broadcast S500x8 (Scalar.ofBits .f32 0x00000000#32 : F .f32) :=
  shapeCast_self _ _

/-- THE LAST POINT'S LOAD OF THE SIZES: the `[500, 1]` rectangle at the origin of the `[500, 8]` buffer reads, at
    row `p`, the buffer's entry `(p, 0)`. -/
theorem col0_at (X : Vec F S500x8 .f32) (p : Fin 500) :
    View.ld (Val := Elt F) X (Rect.unit (s := S500x8) ![0, 0] S500x1.size inb_S500x8_S500x1_0_0) (ix2 p 0)
      = X (ix2 p 0) := by
  show X _ = X _
  refine congrArg X (funext fun a => Fin.ext ?_)
  match a with
  | ⟨0, _⟩ => show 0 + 1 * p.val = p.val; omega
  | ⟨1, _⟩ => rfl

end AnyInstance

/-- At the ideal values the accumulator starts at zero. -/
theorem pay2_at (p : Fin 500) (b : Fin 256) : k0_pay2 (F := Ideal) (ix2 p b) = 0 := by
  rw [pay2_eq]; exact Ideal.ofBits_zero_f32

/-- At the ideal values the size buffer starts at zero. -/
theorem pay3_at (p : Fin 500) (j : Fin 8) : k0_pay3 (F := Ideal) (ix2 p j) = 0 := by
  rw [pay3_eq]; exact Ideal.ofBits_zero_f32

/-! ## One point, for any function of the gene index -/

/-- ONE POINT OF THE ACCUMULATOR: a prefix sum over the genes advances by one block. -/
theorem pay5_step (i : grid0.Coords) (x1 x0 : Vec Ideal S2560x256 .f32) (x2 : Vec Ideal S500x2560 .f32)
    (a : Vec Ideal S500x256 .f32) (p : Fin 500) (b : Fin 256) (f : ℕ → EReal)
    (ha : a (ix2 p b) = ∑ g ∈ Finset.range (min (2560 * (i 0).val) 20000), f g)
    (hx : ∀ k : Fin 2560, 2560 * (i 0).val + k.val < 20000 →
      x2 (ix2 p k) * (x1 (ix2 k b) - x0 (ix2 k b)) = f (2560 * (i 0).val + k.val)) :
    k0_pay5 (F := Ideal) i x1 x0 x2 a (ix2 p b)
      = ∑ g ∈ Finset.range (min (2560 * ((i 0).val + 1)) 20000), f g := by
  rw [pay5_at, ha, ← Cert.BlockStep.block_step f (i 0).val]
  refine congrArg ((∑ g ∈ Finset.range (min (2560 * (i 0).val) 20000), f g) + ·) ?_
  refine Finset.sum_congr rfl fun k _ => ?_
  by_cases h : 2560 * (i 0).val + k.val < 20000
  · rw [if_pos h, if_pos h, hx k h]
  · rw [if_neg h, if_neg h]

/-- ONE POINT OF THE SIZE BUFFER: a prefix sum over the genes advances by one block. -/
theorem pay6_step (i : grid0.Coords) (x2 : Vec Ideal S500x2560 .f32) (s : Vec Ideal S500x8 .f32)
    (p : Fin 500) (c : Fin 8) (f : ℕ → EReal)
    (hs : s (ix2 p c) = ∑ g ∈ Finset.range (min (2560 * (i 0).val) 20000), f g)
    (hx : ∀ k : Fin 2560, 2560 * (i 0).val + k.val < 20000 → x2 (ix2 p k) = f (2560 * (i 0).val + k.val)) :
    k0_pay6 (F := Ideal) i x2 s (ix2 p c)
      = ∑ g ∈ Finset.range (min (2560 * ((i 0).val + 1)) 20000), f g := by
  rw [pay6_at, hs, ← Cert.BlockStep.block_step f (i 0).val]
  refine congrArg ((∑ g ∈ Finset.range (min (2560 * (i 0).val) 20000), f g) + ·) ?_
  refine Finset.sum_congr rfl fun k _ => ?_
  by_cases h : 2560 * (i 0).val + k.val < 20000
  · rw [if_pos h, if_pos h, hx k h]
  · rw [if_neg h, if_neg h]

/-! ## One point, against the argument arrays -/

/-- ONE POINT OF THE SIZES: with the membership block the matrix's columns `2560 t …` where kept, the row's prefix
    sum advances by one block. -/
theorem size_step (i : grid0.Coords) (t : ℕ) (hi : (i 0).val = t) (x2 : Vec Ideal S500x2560 .f32) (M : ArrPG)
    (hx2 : ∀ (p : Fin 500) (k : Fin 2560) (h : 2560 * t + k.val < 20000),
      x2 (ix2 p k) = M (ix2 p ⟨2560 * t + k.val, h⟩))
    (s : Vec Ideal S500x8 .f32) (p : Fin 500) (j : Fin 8)
    (hs : s (ix2 p j) = ∑ g ∈ Finset.range (min (2560 * t) 20000), rowOf M p g) :
    k0_pay6 (F := Ideal) i x2 s (ix2 p j) = ∑ g ∈ Finset.range (min (2560 * (t + 1)) 20000), rowOf M p g := by
  subst hi
  exact pay6_step i x2 s p j (rowOf M p) hs (fun k h => by
    rw [hx2 p k h, rowOf, dif_pos h])

/-- ONE POINT OF THE ACCUMULATOR: with the three blocks the arrays' rows / columns `2560 t …` where kept, the
    weighted difference's prefix sum advances by one block. -/
theorem acc_step (i : grid0.Coords) (t : ℕ) (hi : (i 0).val = t) (x1 x0 : Vec Ideal S2560x256 .f32)
    (x2 : Vec Ideal S500x2560 .f32) (E P : ArrBG) (M : ArrPG)
    (hx1 : ∀ (k : Fin 2560) (b : Fin 256) (h : 2560 * t + k.val < 20000),
      x1 (ix2 k b) = P (ix2 b ⟨2560 * t + k.val, h⟩))
    (hx0 : ∀ (k : Fin 2560) (b : Fin 256) (h : 2560 * t + k.val < 20000),
      x0 (ix2 k b) = E (ix2 b ⟨2560 * t + k.val, h⟩))
    (hx2 : ∀ (p : Fin 500) (k : Fin 2560) (h : 2560 * t + k.val < 20000),
      x2 (ix2 p k) = M (ix2 p ⟨2560 * t + k.val, h⟩))
    (a : Vec Ideal S500x256 .f32) (p : Fin 500) (b : Fin 256)
    (ha : a (ix2 p b) = ∑ g ∈ Finset.range (min (2560 * t) 20000), dOf E P M p b g) :
    k0_pay5 (F := Ideal) i x1 x0 x2 a (ix2 p b)
      = ∑ g ∈ Finset.range (min (2560 * (t + 1)) 20000), dOf E P M p b g := by
  subst hi
  exact pay5_step i x1 x0 x2 a p b (dOf E P M p b) ha (fun k h => by
    rw [hx2 p k h, hx1 k b h, hx0 k b h, dOf, dif_pos h])

/-! ## After eight blocks -/

/-- The row's prefix after eight blocks is the specification's size. -/
theorem size_final (M : ArrPG) (p : Fin 500) :
    (∑ g ∈ Finset.range (min (2560 * 8) 20000), rowOf M p g) = Cert.PathwaySpec.size M p :=
  (Cert.BlockStep.sum_fin_eq_prefix (fun g : Fin 20000 => M (ix2 p g))).symm

/-- The weighted difference's prefix after eight blocks is the specification's weighted sum. -/
theorem acc_final (E P : ArrBG) (M : ArrPG) (p : Fin 500) (b : Fin 256) :
    (∑ g ∈ Finset.range (min (2560 * 8) 20000), dOf E P M p b g) = Cert.PathwaySpec.acc E P M p b :=
  (Cert.BlockStep.sum_fin_eq_prefix (fun g : Fin 20000 => M (ix2 p g) * (P (ix2 b g) - E (ix2 b g)))).symm

end Cert.KernelIdeal.PayFacts

end
-- ==== Proof.KI.Value.lean ====
/-
  The kernel's value on the extended reals. After point n the sizes' accumulator holds, in each of its eight columns,
  the sum of the membership row over the genes below 2560 (n + 1) that exist, and the weighted sums' accumulator the
  same partial sum of membership times (predicted minus expression): each point adds exactly its block's genes, the
  overhanging part of the last block contributing nothing. After the last point these are the row sums over all 20000
  genes, the loss the body then computes from them is the specification's, the write-back puts it in the [1, 1]
  result, and the reshape after the region hands it on as the scalar.
-/
import proofs.«171851_g66838281060554_cont_sun_c4_581_21_alg».proof.Proof.KI.Body
import proofs.«171851_g66838281060554_cont_sun_c4_581_21_alg».proof.Proof.KI.Reads
import proofs.«171851_g66838281060554_cont_sun_c4_581_21_alg».proof.Proof.KI.Accum
import proofs.«171851_g66838281060554_cont_sun_c4_581_21_alg».proof.Proof.Spec

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.PathwaySpec Cert.KernelIdeal.PayFacts Cert.KernelIdeal.Reads Cert.BlockStep Idealize.ShloMosaic.ValueIdx

variable (m : (ℓ : Loc nD τ sig) → Buf (Elt Ideal) ℓ) (ρ : Dev nD → PrngReg)

/-- The three argument arrays on core `c`: expression, predicted, membership. -/
abbrev argE (c : Dev nD) : ArrBG := m ((c : Thread nD τ).loc main_arg0)
abbrev argP (c : Dev nD) : ArrBG := m ((c : Thread nD τ).loc main_arg1)
abbrev argM (c : Dev nD) : ArrPG := m ((c : Thread nD τ).loc main_arg2)

/-- The sizes after point `n`: the membership row summed over the genes the first `n + 1` blocks hold. -/
theorem sizeAt_val (c : Dev nD) (p : Fin 500) (j : Fin 8) : ∀ (n : ℕ) (hn : n < cfg0.N),
    sizeAt m c n hn (ix2 p j) = ∑ g ∈ Finset.range (min (2560 * (n + 1)) 20000), rowOf (argM m c) p g
  | 0, hn =>
    size_step (grid0.coords ⟨0, hn⟩) 0 (coord_val ⟨0, hn⟩) (X2 m c ⟨0, hn⟩) (argM m c)
      (fun p k h => fill0_2_at m c ⟨0, hn⟩ _ p k h) (k0_pay3 (F := Ideal)) p j ((pay3_at p j).trans (prefix_zero _).symm)
  | n + 1, hn =>
    size_step (grid0.coords ⟨n + 1, hn⟩) (n + 1) (coord_val ⟨n + 1, hn⟩) (X2 m c ⟨n + 1, hn⟩) (argM m c)
      (fun p k h => fill0_2_at m c ⟨n + 1, hn⟩ _ p k h) (sizeAt m c n (Nat.lt_of_succ_lt hn)) p j (sizeAt_val c p j n (Nat.lt_of_succ_lt hn))

/-- The weighted sums after point `n`, likewise. -/
theorem accAt_val (c : Dev nD) (p : Fin 500) (b : Fin 256) : ∀ (n : ℕ) (hn : n < cfg0.N),
    accAt m c n hn (ix2 p b) = ∑ g ∈ Finset.range (min (2560 * (n + 1)) 20000), dOf (argE m c) (argP m c) (argM m c) p b g
  | 0, hn =>
    acc_step (grid0.coords ⟨0, hn⟩) 0 (coord_val ⟨0, hn⟩) (X1 m c ⟨0, hn⟩) (X0 m c ⟨0, hn⟩) (X2 m c ⟨0, hn⟩) (argE m c) (argP m c) (argM m c)
      (fun k b h => fill0_1_at m c ⟨0, hn⟩ _ k b h) (fun k b h => fill0_0_at m c ⟨0, hn⟩ _ k b h) (fun p k h => fill0_2_at m c ⟨0, hn⟩ _ p k h)
      (k0_pay2 (F := Ideal)) p b ((pay2_at p b).trans (prefix_zero _).symm)
  | n + 1, hn =>
    acc_step (grid0.coords ⟨n + 1, hn⟩) (n + 1) (coord_val ⟨n + 1, hn⟩) (X1 m c ⟨n + 1, hn⟩) (X0 m c ⟨n + 1, hn⟩) (X2 m c ⟨n + 1, hn⟩) (argE m c) (argP m c) (argM m c)
      (fun k b h => fill0_1_at m c ⟨n + 1, hn⟩ _ k b h) (fun k b h => fill0_0_at m c ⟨n + 1, hn⟩ _ k b h) (fun p k h => fill0_2_at m c ⟨n + 1, hn⟩ _ p k h)
      (accAt m c n (Nat.lt_of_succ_lt hn)) p b (accAt_val c p b n (Nat.lt_of_succ_lt hn))

/-- What the last point stores is the loss of the argument arrays. -/
theorem lossV_eq (c : Dev nD) : lossV m c = fun _ => loss (argE m c) (argP m c) (argM m c) := by
  have hs : (fun p : Fin 500 => col0 (sizeAt m c 7 seven_lt) (ix2 p 0)) = size (argM m c) := by
    funext p
    rw [show col0 (sizeAt m c 7 seven_lt) (ix2 p 0) = sizeAt m c 7 seven_lt (ix2 p 0) from col0_at _ p, sizeAt_val m c p 0 7 seven_lt]
    exact size_final _ p
  have ha : (fun (p : Fin 500) (b : Fin 256) => accAt m c 7 seven_lt (ix2 p b)) = acc (argE m c) (argP m c) (argM m c) := by
    funext p b
    rw [accAt_val m c p b 7 seven_lt]
    exact acc_final _ _ _ p b
  unfold lossV loss
  rw [pay1_eq, hs, ha]

/-- The kernel's run with its result named: every weakly fair execution of @main ends with the scalar result at the
    loss of the argument arrays, and those unchanged. -/
theorem value_run : θ_run defs (onTc (τ := τ) (main (F := Ideal))) ⟨m, fun _ => 0, ρ⟩ (fun r => ∀ c : Dev nD,
      r.2.mem ((c.tc : Thread nD τ).loc main_v3) = (fun _ => loss (argE m c) (argP m c) (argM m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v3 (Pipeline.mem_restRefs_of main_v3 (by decide) (by decide))).trans
        ((tail_main_v3 m (dats m) c).trans (by rw [after0_3, lossV_eq])),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c)))⟩)
    (run_main (F := Ideal) m ρ)

end Cert.KernelIdeal.Hand

end
-- ==== Proof.LibERealFinite.lean ====
/-
  Finite extended reals.

  An extended real is *real* when it is the coercion of a real number, that is, neither +∞ nor -∞.
  The algebraic laws that fail at the infinities (distributivity, cancelling, moving a factor across
  a sum) hold for real extended reals, so a proof that needs them first shows that every value it
  handles is real.  This file has the coercion of a finite sum, the closure of the real extended
  reals under the arithmetic operations (sum, difference, product, finite sums and products, maximum,
  minimum, the rectifier max(x, 0), a quotient by a nonzero real, the exponential), and the facts
  about a maximum taken as a fold of max from -∞ over a nonempty finite set: it is attained, it bounds
  every entry, and it is real when every entry is.  It also has distributivity on real extended
  reals (x · (y + z) = x · y + x · z, x · Σ_i f i = Σ_i x · f i), and the softmax denominator:
  for real x_l over a nonempty finite index set, Σ_l exp(x_l - max_j x_j) is a real ≥ 1, hence not 0;
  and the way in: an x with |x| < +∞ (as the float comparison decides it) is real, as are integer
  conversions and contractions of reals.
-/
import Idealize.ShloMosaic.PureOps.Ideal

namespace Idealize.ShloMosaic.LibERealLaws

open scoped BigOperators

/-! ### The coercion of a finite sum -/

/-- The coercion ℝ → [-∞, +∞] commutes with finite sums:
    the extended real of Σ_{i ∈ s} f i is Σ_{i ∈ s} of the extended reals of the f i. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The coercion ℝ → [-∞, +∞] commutes with finite products:
    the extended real of Π_{i ∈ s} f i is Π_{i ∈ s} of the extended reals of the f i. -/
theorem coe_finset_prod {ι : Type*} (s : Finset ι) (f : ι → ℝ) :
    ((∏ i ∈ s, f i : ℝ) : EReal) = ∏ i ∈ s, (f i : EReal) := by
  classical
  induction s using Finset.induction_on with
  | empty => simp
  | insert a s ha ih => rw [Finset.prod_insert ha, Finset.prod_insert ha, EReal.coe_mul, ih]

/-! ### Real extended reals -/

/-- IsReal x: the extended real x is the coercion of a real number (it is neither +∞ nor -∞). -/
def IsReal (x : EReal) : Prop := ∃ r : ℝ, x = (r : EReal)

/-- The coercion of a real number is real. -/
theorem isReal_coe (r : ℝ) : IsReal (r : EReal) := ⟨r, rfl⟩

/-- 0 is real. -/
theorem isReal_zero : IsReal 0 := ⟨0, rfl⟩

/-- 1 is real. -/
theorem isReal_one : IsReal 1 := ⟨1, rfl⟩

/-- An integer, read as a real and then as an extended real, is real. -/
theorem isReal_intCast (z : ℤ) : IsReal (((z : ℝ)) : EReal) := ⟨z, rfl⟩

/-- A natural number, read as a real and then as an extended real, is real. -/
theorem isReal_natCast (n : ℕ) : IsReal (((n : ℝ)) : EReal) := ⟨n, rfl⟩

namespace IsReal

variable {x y : EReal}

/-- A real extended real is not +∞. -/
theorem ne_top (hx : IsReal x) : x ≠ ⊤ := by
  obtain ⟨r, rfl⟩ := hx; exact EReal.coe_ne_top r

/-- A real extended real is not -∞. -/
theorem ne_bot (hx : IsReal x) : x ≠ ⊥ := by
  obtain ⟨r, rfl⟩ := hx; exact EReal.coe_ne_bot r

/-- A real extended real is the coercion of its real part: x = ↑(toReal x). -/
theorem coe_toReal (hx : IsReal x) : ((x.toReal : ℝ) : EReal) = x :=
  EReal.coe_toReal hx.ne_top hx.ne_bot

/-- The sum of two real extended reals is real. -/
theorem add (hx : IsReal x) (hy : IsReal y) : IsReal (x + y) := by
  obtain ⟨a, rfl⟩ := hx; obtain ⟨b, rfl⟩ := hy
  exact ⟨a + b, (EReal.coe_add a b).symm⟩

/-- The negative of a real extended real is real. -/
theorem neg (hx : IsReal x) : IsReal (-x) := by
  obtain ⟨a, rfl⟩ := hx
  exact ⟨-a, (EReal.coe_neg a).symm⟩

/-- The difference of two real extended reals is real. -/
theorem sub (hx : IsReal x) (hy : IsReal y) : IsReal (x - y) := by
  obtain ⟨a, rfl⟩ := hx; obtain ⟨b, rfl⟩ := hy
  exact ⟨a - b, (EReal.coe_sub a b).symm⟩

/-- The product of two real extended reals is real. -/
theorem mul (hx : IsReal x) (hy : IsReal y) : IsReal (x * y) := by
  obtain ⟨a, rfl⟩ := hx; obtain ⟨b, rfl⟩ := hy
  exact ⟨a * b, (EReal.coe_mul a b).symm⟩

/-- The maximum of two real extended reals is real. -/
theorem max (hx : IsReal x) (hy : IsReal y) : IsReal (max x y) := by
  rcases max_choice x y with h | h <;> rw [h] <;> assumption

/-- The minimum of two real extended reals is real. -/
theorem min (hx : IsReal x) (hy : IsReal y) : IsReal (min x y) := by
  rcases min_choice x y with h | h <;> rw [h] <;> assumption

/-- The rectifier max(x, 0) of a real extended real is real. -/
theorem relu (hx : IsReal x) : IsReal (Max.max x 0) := hx.max isReal_zero

/-- The rectifier of a real extended real is the coercion of the real rectifier:
    max(↑r, 0) = ↑(max(r, 0)). -/
theorem relu_coe (r : ℝ) : Max.max (r : EReal) 0 = ((Max.max r 0 : ℝ) : EReal) := by
  rw [← EReal.coe_zero]; exact (EReal.coe_strictMono.monotone.map_max).symm

/-- The absolute value max(x, -x) of a real extended real is real. -/
theorem abs (hx : IsReal x) : IsReal (Max.max x (-x)) := hx.max hx.neg

/-- A finite sum of real extended reals is real. -/
theorem sum {ι : Type*} {s : Finset ι} {f : ι → EReal} (hf : ∀ i ∈ s, IsReal (f i)) :
    IsReal (∑ i ∈ s, f i) := by
  classical
  induction s using Finset.induction_on with
  | empty => rw [Finset.sum_empty]; exact isReal_zero
  | insert a s ha ih =>
    rw [Finset.sum_insert ha]
    exact (hf a (Finset.mem_insert_self a s)).add (ih fun i hi => hf i (Finset.mem_insert_of_mem hi))

/-- A sum over a whole finite index type of real extended reals is real. -/
theorem sum_univ {ι : Type*} [Fintype ι] {f : ι → EReal} (hf : ∀ i, IsReal (f i)) :
    IsReal (∑ i, f i) := sum fun i _ => hf i

/-- A finite product of real extended reals is real. -/
theorem prod {ι : Type*} {s : Finset ι} {f : ι → EReal} (hf : ∀ i ∈ s, IsReal (f i)) :
    IsReal (∏ i ∈ s, f i) := by
  classical
  induction s using Finset.induction_on with
  | empty => rw [Finset.prod_empty]; exact isReal_one
  | insert a s ha ih =>
    rw [Finset.prod_insert ha]
    exact (hf a (Finset.mem_insert_self a s)).mul (ih fun i hi => hf i (Finset.mem_insert_of_mem hi))

/-- A family of real extended reals is the coercion of a family of reals: if every f i is real
    there is g : ι → ℝ with f i = ↑(g i) for every i. -/
theorem exists_fun {ι : Type*} {f : ι → EReal} (hf : ∀ i, IsReal (f i)) :
    ∃ g : ι → ℝ, f = fun i => (g i : EReal) := by
  choose g hg using hf
  exact ⟨g, funext hg⟩

/-- The exponential of a real extended real (the exponential extended by exp(-∞) = 0,
    exp(+∞) = +∞) is the coercion of a positive real. -/
theorem exp_pos (hx : IsReal x) : ∃ r : ℝ, 0 < r ∧ Ideal.exp x = (r : EReal) := by
  obtain ⟨a, rfl⟩ := hx
  exact ⟨Real.exp a, Real.exp_pos a, Ideal.exp_coe a⟩

/-- The exponential of a real extended real is real. -/
theorem exp (hx : IsReal x) : IsReal (Ideal.exp x) := by
  obtain ⟨r, _, h⟩ := hx.exp_pos; exact ⟨r, h⟩

/-- The quotient of a real extended real by a nonzero real one is the real quotient:
    ↑a / ↑b = ↑(a / b) for b ≠ 0, division being the one that sends x / 0 to ±∞. -/
theorem div_coe (a : ℝ) {b : ℝ} (hb : b ≠ 0) :
    Ideal.div (a : EReal) (b : EReal) = ((a / b : ℝ) : EReal) := by
  rw [Ideal.div_coe hb, ← EReal.coe_mul, mul_one_div]

/-- The quotient of a real extended real by a nonzero real one is real. -/
theorem div (hx : IsReal x) (hy : IsReal y) (h0 : y ≠ 0) : IsReal (Ideal.div x y) := by
  obtain ⟨a, rfl⟩ := hx; obtain ⟨b, rfl⟩ := hy
  have hb : b ≠ 0 := fun h => h0 (by rw [h, EReal.coe_zero])
  exact ⟨a / b, div_coe a hb⟩

/-- Multiplication distributes over addition on real extended reals: x · (y + z) = x · y + x · z.
    (It fails at the infinities: -1 · (+∞ + -∞) = +∞ but -1 · +∞ + -1 · -∞ = -∞.) -/
theorem mul_add {z : EReal} (hx : IsReal x) (hy : IsReal y) (hz : IsReal z) :
    x * (y + z) = x * y + x * z := by
  obtain ⟨a, rfl⟩ := hx; obtain ⟨b, rfl⟩ := hy; obtain ⟨c, rfl⟩ := hz
  rw [← EReal.coe_add, ← EReal.coe_mul, ← EReal.coe_mul, ← EReal.coe_mul, ← EReal.coe_add, _root_.mul_add]

/-- Multiplication distributes over addition from the right on real extended reals:
    (x + y) · z = x · z + y · z. -/
theorem add_mul {z : EReal} (hx : IsReal x) (hy : IsReal y) (hz : IsReal z) :
    (x + y) * z = x * z + y * z := by
  rw [mul_comm, mul_add hz hx hy, mul_comm z x, mul_comm z y]

/-- A real factor moves into a finite sum of real extended reals: x · Σ_{i ∈ s} f i = Σ_{i ∈ s} x · f i. -/
theorem mul_sum {ι : Type*} {s : Finset ι} {f : ι → EReal} (hx : IsReal x)
    (hf : ∀ i ∈ s, IsReal (f i)) : x * ∑ i ∈ s, f i = ∑ i ∈ s, x * f i := by
  classical
  induction s using Finset.induction_on with
  | empty => rw [Finset.sum_empty, Finset.sum_empty, mul_zero]
  | insert a s ha ih =>
    have hs : ∀ i ∈ s, IsReal (f i) := fun i hi => hf i (Finset.mem_insert_of_mem hi)
    rw [Finset.sum_insert ha, Finset.sum_insert ha,
      mul_add hx (hf a (Finset.mem_insert_self a s)) (sum hs), ih hs]

/-- A real factor moves into a finite sum of real extended reals from the right:
    (Σ_{i ∈ s} f i) · x = Σ_{i ∈ s} f i · x. -/
theorem sum_mul {ι : Type*} {s : Finset ι} {f : ι → EReal} (hx : IsReal x)
    (hf : ∀ i ∈ s, IsReal (f i)) : (∑ i ∈ s, f i) * x = ∑ i ∈ s, f i * x := by
  rw [mul_comm, mul_sum hx hf]
  exact Finset.sum_congr rfl fun i _ => mul_comm _ _

end IsReal

/-- An extended real is real exactly when it is neither -∞ nor +∞. -/
theorem isReal_iff {x : EReal} : IsReal x ↔ x ≠ ⊥ ∧ x ≠ ⊤ :=
  ⟨fun h => ⟨h.ne_bot, h.ne_top⟩, fun h => ⟨x.toReal, (EReal.coe_toReal h.2 h.1).symm⟩⟩

/-! ### The maximum as a fold of max from -∞ -/

/-- The bit pattern 0xFF800000 of the 32-bit format denotes -∞, the value a maximum is folded from. -/
theorem ofBits_neg_inf_f32 : Ideal.ofBits .f32 0xFF800000#32 = ⊥ := by
  simp [Ideal.ofBits, Ideal.ieee]

/-- Every entry is below the maximum: f i ≤ max_{j ∈ s} f j (the fold of max from any start b). -/
theorem le_fold_max_of_mem {ι : Type*} {s : Finset ι} (b : EReal) (f : ι → EReal) {i : ι} (hi : i ∈ s) :
    f i ≤ s.fold Max.max b f :=
  (Finset.le_fold_max (f i)).mpr (Or.inr ⟨i, hi, le_rfl⟩)

/-- Over a nonempty finite set the maximum folded from -∞ is attained:
    max_{j ∈ s} f j = f i for some i ∈ s. -/
theorem exists_mem_fold_max_eq {ι : Type*} {s : Finset ι} (hs : s.Nonempty) (f : ι → EReal) :
    ∃ i ∈ s, s.fold Max.max ⊥ f = f i := by
  induction hs using Finset.Nonempty.cons_induction with
  | singleton a =>
    exact ⟨a, Finset.mem_singleton_self a, by rw [Finset.fold_singleton]; exact max_eq_left bot_le⟩
  | cons a s ha hs ih =>
    obtain ⟨i, hi, h⟩ := ih
    rw [Finset.fold_cons, h]
    rcases le_total (f a) (f i) with hle | hle
    · exact ⟨i, Finset.mem_cons.mpr (Or.inr hi), max_eq_right hle⟩
    · exact ⟨a, Finset.mem_cons_self a s, max_eq_left hle⟩

/-- Over a nonempty finite set the maximum, folded from -∞, of real extended reals is real. -/
theorem IsReal.fold_max {ι : Type*} {s : Finset ι} (hs : s.Nonempty) {f : ι → EReal}
    (hf : ∀ i ∈ s, IsReal (f i)) : IsReal (s.fold Max.max ⊥ f) := by
  obtain ⟨i, hi, h⟩ := exists_mem_fold_max_eq hs f
  rw [h]; exact hf i hi

/-- Over a nonempty finite index type the maximum, folded from -∞, of real extended reals is real. -/
theorem IsReal.fold_max_univ {ι : Type*} [Fintype ι] [Nonempty ι] {f : ι → EReal}
    (hf : ∀ i, IsReal (f i)) : IsReal ((Finset.univ : Finset ι).fold Max.max ⊥ f) :=
  IsReal.fold_max Finset.univ_nonempty fun i _ => hf i

/-- The bit pattern 0x0000 of the 16-bit brain format denotes 0, the value a rectifier compares with. -/
theorem ofBits_zero_bf16 : Ideal.ofBits .bf16 0x0000#16 = 0 := by
  simp [Ideal.ofBits, Ideal.ieee]

/-! ### Reality from the float finiteness test, and of integer conversions and contractions -/

/-- The bit pattern 0x7F800000 of the 32-bit format denotes +∞. -/
theorem ofBits_pos_inf_f32 : Ideal.ofBits .f32 0x7F800000#32 = ⊤ := by
  simp [Ideal.ofBits, Ideal.ieee]

/-- An extended real whose absolute value max(x, -x) is below +∞ is real. -/
theorem isReal_of_abs_lt_top {x : EReal} (h : Max.max x (-x) < ⊤) : IsReal x := by
  induction x using EReal.rec with
  | bot => rw [EReal.neg_bot, max_eq_right bot_le] at h; exact absurd h (lt_irrefl _)
  | top => rw [max_eq_left le_top] at h; exact absurd h (lt_irrefl _)
  | coe r => exact ⟨r, rfl⟩

/-- If the ordered less-than comparison of two extended reals answers true (the one-bit word 1),
    the first is below the second. -/
theorem lt_of_cmp_olt {a b : EReal} (h : Ideal.cmp .olt a b = 1#1) : a < b := by
  by_cases hlt : a < b
  · exact hlt
  · exfalso; simp [Ideal.cmp, hlt] at h

/-- The finiteness test |x| < +∞ as a float comparison: if the ordered less-than comparison of
    max(x, -x) with the value of the pattern 0x7F800000 (+∞) answers true, x is real. -/
theorem isReal_of_cmp_abs_lt_inf {x : EReal}
    (h : Ideal.cmp .olt (Max.max x (-x)) (Ideal.ofBits .f32 0x7F800000#32) = 1#1) : IsReal x := by
  rw [ofBits_pos_inf_f32] at h
  exact isReal_of_abs_lt_top (lt_of_cmp_olt h)

/-- A machine integer converted to a float, signed (its integer value read as a real), is real. -/
theorem isReal_sitofp {w : ℕ} (φ : FTy) (b : BitVec w) : IsReal (FloatOps.sitofp (F := Ideal) φ b) :=
  ⟨(b.toInt : ℝ), rfl⟩

/-- A machine integer converted to a float, unsigned (its natural value read as a real), is real. -/
theorem isReal_uitofp {w : ℕ} (φ : FTy) (b : BitVec w) : IsReal (FloatOps.uitofp (F := Ideal) φ b) :=
  ⟨(b.toNat : ℝ), rfl⟩

/-- A contraction Σ_k a_k · b_k of real extended reals over a finite index type is real. -/
theorem IsReal.dot {κ : Type*} [Fintype κ] {a b : κ → EReal} (ha : ∀ k, IsReal (a k))
    (hb : ∀ k, IsReal (b k)) : IsReal (∑ k, a k * b k) :=
  IsReal.sum_univ fun k => (ha k).mul (hb k)

/-- A contraction onto an accumulator, c + Σ_k a_k · b_k, of real extended reals is real. -/
theorem IsReal.add_dot {κ : Type*} [Fintype κ] {c : EReal} {a b : κ → EReal} (hc : IsReal c)
    (ha : ∀ k, IsReal (a k)) (hb : ∀ k, IsReal (b k)) : IsReal (c + ∑ k, a k * b k) :=
  hc.add (IsReal.dot ha hb)

/-! ### The softmax denominator -/

/-- The softmax denominator over a nonempty finite set.  For real x_l (l ∈ t) and m = max_{l ∈ t} x_l
    (folded from -∞), the sum Σ_{l ∈ t} exp(x_l - m) is the coercion of a real s ≥ 1: every term is a
    positive real and the term at an index where the maximum is attained is exp 0 = 1. -/
theorem exists_softmax_denominator_finset {ι : Type*} {t : Finset ι} (ht : t.Nonempty) {x : ι → EReal}
    (hx : ∀ l ∈ t, IsReal (x l)) :
    ∃ s : ℝ, 1 ≤ s ∧ ∑ l ∈ t, Ideal.exp (x l - t.fold Max.max ⊥ x) = (s : EReal) := by
  obtain ⟨i0, hi0, hm⟩ := exists_mem_fold_max_eq ht x
  rw [hm]
  refine ⟨∑ l ∈ t, Real.exp ((x l).toReal - (x i0).toReal), ?_, ?_⟩
  · calc (1 : ℝ) = Real.exp ((x i0).toReal - (x i0).toReal) := by rw [sub_self, Real.exp_zero]
      _ ≤ ∑ l ∈ t, Real.exp ((x l).toReal - (x i0).toReal) :=
        Finset.single_le_sum (f := fun l => Real.exp ((x l).toReal - (x i0).toReal))
          (fun l _ => (Real.exp_pos _).le) hi0
  · rw [coe_finset_sum]
    refine Finset.sum_congr rfl fun l hl => ?_
    obtain ⟨a, ha⟩ := hx l hl
    obtain ⟨b, hb⟩ := hx i0 hi0
    rw [ha, hb, ← EReal.coe_sub, Ideal.exp_coe]
    simp only [EReal.toReal_coe]

/-- The softmax denominator over a nonempty finite index type.  For real x_l and m = max_l x_l (folded
    from -∞), Σ_l exp(x_l - m) is the coercion of a real s ≥ 1; in particular it is real and not 0. -/
theorem exists_softmax_denominator {ι : Type*} [Fintype ι] [Nonempty ι] {x : ι → EReal}
    (hx : ∀ l, IsReal (x l)) :
    ∃ s : ℝ, 1 ≤ s ∧ ∑ l, Ideal.exp (x l - (Finset.univ : Finset ι).fold Max.max ⊥ x) = (s : EReal) :=
  exists_softmax_denominator_finset Finset.univ_nonempty fun l _ => hx l

/-- The softmax denominator is real: for real x_l over a nonempty finite index type,
    Σ_l exp(x_l - max_j x_j) is real. -/
theorem isReal_softmax_denominator {ι : Type*} [Fintype ι] [Nonempty ι] {x : ι → EReal}
    (hx : ∀ l, IsReal (x l)) :
    IsReal (∑ l, Ideal.exp (x l - (Finset.univ : Finset ι).fold Max.max ⊥ x)) := by
  obtain ⟨s, _, h⟩ := exists_softmax_denominator hx; exact ⟨s, h⟩

/-- The softmax denominator is not 0: for real x_l over a nonempty finite index type,
    Σ_l exp(x_l - max_j x_j) ≥ 1 > 0. -/
theorem softmax_denominator_ne_zero {ι : Type*} [Fintype ι] [Nonempty ι] {x : ι → EReal}
    (hx : ∀ l, IsReal (x l)) :
    ∑ l, Ideal.exp (x l - (Finset.univ : Finset ι).fold Max.max ⊥ x) ≠ 0 := by
  obtain ⟨s, hs, h⟩ := exists_softmax_denominator hx
  rw [h]
  exact EReal.coe_ne_zero.mpr (ne_of_gt (lt_of_lt_of_le one_pos hs))

end Idealize.ShloMosaic.LibERealLaws
-- ==== Proof.RefAlg.lean ====
/-
  Program-free facts behind "the reference computes the pathway-coherence loss".

  The reference divides two contractions by the clamped pathway size and subtracts; the specification
  divides one contraction of the difference.  For real entries and a real nonzero divisor
      (Σ_g p_g · m_g) / s − (Σ_g e_g · m_g) / s = (Σ_g m_g · (p_g − e_g)) / s,
  which fails at the infinities, so it is stated for real extended reals.  The other differences need no
  finiteness: a one-bit word converted unsigned is the same real as the word widened and converted signed
  (both 0 or 1); choosing between x and 0 on a bit is multiplying x by that 0 or 1; a sum started from the
  zero word is the sum; a sum over a rank-one index set is the sum over its coordinate.
-/
import Idealize.ShloMosaic.PureOps.Ideal
import Idealize.ShloMosaic.PureOps.Ideal.Laws
import Idealize.ShloMosaic.Lib.ValueIdx
import proofs.«171851_g66838281060554_cont_sun_c4_581_21_alg».proof.Proof.LibERealFinite
import proofs.«171851_g66838281060554_cont_sun_c4_581_21_alg».proof.Proof.LibRealAlg
import proofs.«171851_g66838281060554_cont_sun_c4_581_21_alg».proof.Proof.Spec

noncomputable section

open scoped BigOperators

namespace Cert.RefSide

open Idealize.ShloMosaic Idealize.ShloMosaic.ValueIdx Idealize.ShloMosaic.LibERealLaws Cert.PathwaySpec

/-! ### The quotient of a difference -/

/-- For real families e, p, m over a finite index type and a real nonzero s,
    (Σ_g p_g · m_g) / s − (Σ_g e_g · m_g) / s = (Σ_g m_g · (p_g − e_g)) / s. -/
theorem div_sub_div {ι : Type*} [Fintype ι] (e p m : ι → EReal) (s : EReal)
    (he : ∀ i, IsReal (e i)) (hp : ∀ i, IsReal (p i)) (hm : ∀ i, IsReal (m i))
    (hs : IsReal s) (hs0 : s ≠ 0) :
    Ideal.div (∑ g, p g * m g) s - Ideal.div (∑ g, e g * m g) s
      = Ideal.div (∑ g, m g * (p g - e g)) s := by
  obtain ⟨e', rfl⟩ := IsReal.exists_fun he
  obtain ⟨p', rfl⟩ := IsReal.exists_fun hp
  obtain ⟨m', rfl⟩ := IsReal.exists_fun hm
  obtain ⟨s', rfl⟩ := hs
  have hs' : s' ≠ 0 := fun h => hs0 (by rw [h, EReal.coe_zero])
  simp only [← EReal.coe_sub, ← EReal.coe_mul, ← coe_finset_sum]
  rw [IsReal.div_coe _ hs', IsReal.div_coe _ hs', IsReal.div_coe _ hs', ← EReal.coe_sub,
    EReal.coe_eq_coe_iff, ← sub_div, ← Finset.sum_sub_distrib]
  congr 1
  exact Finset.sum_congr rfl fun g _ => by ring

/-! ### The float words -/

/-- The word of one is the real one. -/
theorem w1_eq : w1 = ((1 : ℝ) : EReal) := Cert.LibRealAlg.ofBits_one

/-- The word of zero is zero. -/
theorem w0_eq : w0 = 0 := Ideal.ofBits_zero_f32

/-- A real clamped below at one is real. -/
theorem isReal_max_w1 {x : EReal} (hx : IsReal x) : IsReal (max x w1) := by
  rw [w1_eq]; exact hx.max (isReal_coe 1)

/-- Anything clamped below at one is not zero: it is at least one. -/
theorem max_w1_ne_zero (x : EReal) : max x w1 ≠ 0 := by
  rw [w1_eq]
  intro h
  have h1 : ((1 : ℝ) : EReal) ≤ max x ((1 : ℝ) : EReal) := le_max_right _ _
  rw [h, ← EReal.coe_zero, EReal.coe_le_coe_iff] at h1
  exact absurd h1 (by norm_num)

/-! ### One-bit words -/

/-- A one-bit word converted unsigned is the word widened to 32 bits and converted signed:
    both are 0 at the word 0 and 1 at the word 1. -/
theorem uitofp_bit (b : BitVec 1) :
    FloatOps.uitofp (F := Ideal) .f32 b = FloatOps.sitofp (F := Ideal) .f32 (b.setWidth 32) := by
  rcases BitVec.eq_zero_or_eq_one b with h | h <;> subst h
  · show (((0#1 : BitVec 1).toNat : ℝ) : EReal) = ((((0#1 : BitVec 1).setWidth 32).toInt : ℝ) : EReal)
    rw [show (0#1 : BitVec 1).toNat = 0 from by decide,
      show ((0#1 : BitVec 1).setWidth 32).toInt = 0 from by decide]
    simp
  · show (((1#1 : BitVec 1).toNat : ℝ) : EReal) = ((((1#1 : BitVec 1).setWidth 32).toInt : ℝ) : EReal)
    rw [show (1#1 : BitVec 1).toNat = 1 from by decide,
      show ((1#1 : BitVec 1).setWidth 32).toInt = 1 from by decide]
    simp

/-- Choosing x on the bit 1 and the zero word on the bit 0 is multiplying x by the converted bit. -/
theorem select_bit (b : BitVec 1) (x : EReal) :
    Scalar.select b x w0 = x * FloatOps.sitofp (F := Ideal) .f32 (b.setWidth 32) := by
  rcases BitVec.eq_zero_or_eq_one b with h | h <;> subst h
  · rw [select_zero, w0_eq]
    show (0 : EReal) = x * ((((0#1 : BitVec 1).setWidth 32).toInt : ℝ) : EReal)
    rw [show ((0#1 : BitVec 1).setWidth 32).toInt = 0 from by decide]
    simp
  · rw [select_one]
    show x = x * ((((1#1 : BitVec 1).setWidth 32).toInt : ℝ) : EReal)
    rw [show ((1#1 : BitVec 1).setWidth 32).toInt = 1 from by decide]
    simp

/-! ### A sum over a rank-one index set -/

/-- A rank-one index set is its coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {A : Type*} [AddCommMonoid A] {n : Nat} (f : (⟨1, ![n]⟩ : Shape).Idx → A) :
    ∑ i, f i = ∑ a : Fin n, f (ix1 a) := by
  rw [← Equiv.sum_comp (idxEquiv1 (n := n)).symm f]
  rfl

end Cert.RefSide

end
-- ==== Proof.RefSide.lean ====
/-
  The reference's value is the pathway-coherence loss of its three argument arrays, when every entry is real.

  The reference program is read one operation at a time.  With b a sample, p a pathway, g a gene:
    operation 0 is the pathway size, Σ_g M[p,g] (a sum started from the zero word);
    operations 6 and 11 are the contractions Σ_g E[b,g] · M[p,g] and Σ_g P[b,g] · M[p,g] against the transposed
    membership matrix; operations 9 and 14 divide them by the size clamped below at one, and operation 15 subtracts.
  For real entries that difference is the membership-weighted sum of P − E over the clamped size, the
  specification's pathway mean of the difference.  The squares are summed over the FIRST axis of the
  [256, 500] array (operation 17), divided by 256 (operation 19), masked by the bit "size ≥ 5" (operation 22),
  summed over the pathways (operation 23) and divided by the number of valid pathways clamped below at one
  (operations 20, 21, 25, 26), zero when there is none (operations 24, 27).
-/
import proofs.«171851_g66838281060554_cont_sun_c4_581_21_alg».proof.Proof.RefReadP
import proofs.«171851_g66838281060554_cont_sun_c4_581_21_alg».proof.Proof.Spec
import proofs.«171851_g66838281060554_cont_sun_c4_581_21_alg».proof.Proof.RefAlg

noncomputable section

open scoped BigOperators

namespace Cert.RefSide

open Idealize.ShloMosaic Idealize.ShloMosaic.ValueIdx Idealize.ShloMosaic.LibERealLaws
open Cert.ReferenceIdeal Cert.ReferenceIdeal.ReadP Cert.PathwaySpec

variable (E P : (⟨S256x20000, .f32⟩ : BufTy).Contents (Elt Ideal))
variable (M : (⟨S500x20000, .f32⟩ : BufTy).Contents (Elt Ideal))

/-! ### The pathway sizes, the validity bit, the clamped size -/

/-- Operation 0 at pathway p: the row sum of the membership matrix. -/
theorem v0_at (p : Fin 500) : val_main_v0 (F := Ideal) M (ix1 p) = size M p := by
  rw [val_main_v0_apply, val_main_cst_apply, Ideal.ofBits_def, Ideal.ofBits_zero_f32, zero_add]
  exact Finset.sum_congr rfl fun g _ => congrArg M
    (funext fun a => by match a with | ⟨0, _⟩ => rfl | ⟨1, _⟩ => rfl)

/-- Operation 2 at pathway p: the bit "size ≥ 5". -/
theorem v2_at (p : Fin 500) : val_main_v2 (F := Ideal) M (ix1 p) = Ideal.cmp .oge (size M p) w5 := by
  rw [val_main_v2_apply, v0_at, val_main_v1_apply, val_main_cst_0_apply, Ideal.cmpf_def, Ideal.ofBits_def]
  rfl

/-- Operation 4 at pathway p: the size clamped below at one. -/
theorem v4_at (p : Fin 500) : val_main_v4 (F := Ideal) M (ix1 p) = max (size M p) w1 := by
  rw [val_main_v4_apply, v0_at, val_main_v3_apply, val_main_cst_1_apply, Ideal.maximumf_def, Ideal.ofBits_def]
  rfl

/-! ### The two pathway means and their difference -/

/-- Operation 6 at (b, p): the contraction of the expression row with the membership row. -/
theorem v6_at (b : Fin 256) (p : Fin 500) :
    val_main_v6 (F := Ideal) E M (ix2 b p) = ∑ g : Fin 20000, E (ix2 b g) * M (ix2 p g) := by
  rw [val_main_v6_apply]
  refine Finset.sum_congr rfl fun g _ => ?_
  rw [val_main_v5_apply]
  exact congrArg₂ (· * ·)
    (congrArg E (funext fun a => by match a with | ⟨0, _⟩ => rfl | ⟨1, _⟩ => rfl))
    (congrArg M (funext fun a => by match a with | ⟨0, _⟩ => rfl | ⟨1, _⟩ => rfl))

/-- Operation 11 at (b, p): the contraction of the predicted row with the membership row. -/
theorem v11_at (b : Fin 256) (p : Fin 500) :
    val_main_v11 (F := Ideal) P M (ix2 b p) = ∑ g : Fin 20000, P (ix2 b g) * M (ix2 p g) := by
  rw [val_main_v11_apply]
  refine Finset.sum_congr rfl fun g _ => ?_
  rw [val_main_v10_apply]
  exact congrArg₂ (· * ·)
    (congrArg P (funext fun a => by match a with | ⟨0, _⟩ => rfl | ⟨1, _⟩ => rfl))
    (congrArg M (funext fun a => by match a with | ⟨0, _⟩ => rfl | ⟨1, _⟩ => rfl))

/-- Operation 8 at (b, p): the clamped size of pathway p, whatever the sample. -/
theorem v8_at (b : Fin 256) (p : Fin 500) :
    val_main_v8 (F := Ideal) M (ix2 b p) = max (size M p) w1 := by
  rw [val_main_v8_apply, val_main_v7_apply]
  have e : idx_main_v7 (idx_main_v8 (ix2 b p)) = ix1 p :=
    funext fun a => by match a with | ⟨0, _⟩ => rfl
  rw [e, v4_at]

/-- Operation 13 at (b, p): the clamped size of pathway p again. -/
theorem v13_at (b : Fin 256) (p : Fin 500) :
    val_main_v13 (F := Ideal) M (ix2 b p) = max (size M p) w1 := by
  rw [val_main_v13_apply, val_main_v12_apply]
  have e : idx_main_v12 (idx_main_v13 (ix2 b p)) = ix1 p :=
    funext fun a => by match a with | ⟨0, _⟩ => rfl
  rw [e, v4_at]

/-- Operation 9 at (b, p): the pathway mean of the expression. -/
theorem v9_at (b : Fin 256) (p : Fin 500) :
    val_main_v9 (F := Ideal) E M (ix2 b p)
      = Ideal.div (∑ g : Fin 20000, E (ix2 b g) * M (ix2 p g)) (max (size M p) w1) := by
  rw [val_main_v9_apply, v6_at, v8_at, Ideal.hostDivf_def]

/-- Operation 14 at (b, p): the pathway mean of the prediction. -/
theorem v14_at (b : Fin 256) (p : Fin 500) :
    val_main_v14 (F := Ideal) P M (ix2 b p)
      = Ideal.div (∑ g : Fin 20000, P (ix2 b g) * M (ix2 p g)) (max (size M p) w1) := by
  rw [val_main_v14_apply, v11_at, v13_at, Ideal.hostDivf_def]

variable (hE : ∀ i, IsReal (E i)) (hP : ∀ i, IsReal (P i)) (hM : ∀ i, IsReal (M i))

include hE hP hM in
/-- Operation 15 at (b, p): for real entries the difference of the two pathway means is the pathway mean
    of the difference. -/
theorem v15_at (b : Fin 256) (p : Fin 500) :
    val_main_v15 (F := Ideal) E P M (ix2 b p) = meanDiff (size M) (acc E P M) p b := by
  rw [val_main_v15_apply, v14_at, v9_at, Ideal.subf_def]
  exact div_sub_div (fun g => E (ix2 b g)) (fun g => P (ix2 b g)) (fun g => M (ix2 p g)) _
    (fun g => hE _) (fun g => hP _) (fun g => hM _)
    (isReal_max_w1 (IsReal.sum_univ fun g => hM _)) (max_w1_ne_zero _)

/-! ### The mean square over the batch, masked and averaged over the valid pathways -/

include hE hP hM in
/-- Operation 17 at pathway p: the squares summed over the samples (the first axis of the [256, 500] array). -/
theorem v17_at (p : Fin 500) :
    val_main_v17 (F := Ideal) E P M (ix1 p)
      = ∑ b : Fin 256, meanDiff (size M) (acc E P M) p b * meanDiff (size M) (acc E P M) p b := by
  rw [val_main_v17_apply, val_main_cst_2_apply, Ideal.ofBits_def, Ideal.ofBits_zero_f32, zero_add]
  refine Finset.sum_congr rfl fun b _ => ?_
  have e : idx_main_v17 (ix1 p) b = ix2 b p :=
    funext fun a => by match a with | ⟨0, _⟩ => rfl | ⟨1, _⟩ => rfl
  rw [e, val_main_v16_apply, v15_at E P M hE hP hM, Ideal.mulf_def]

include hE hP hM in
/-- Operation 19 at pathway p: the mean over the batch of the squared pathway mean. -/
theorem v19_at (p : Fin 500) :
    val_main_v19 (F := Ideal) E P M (ix1 p) = mse (size M) (acc E P M) p := by
  rw [val_main_v19_apply, v17_at E P M hE hP hM, val_main_v18_apply, val_main_cst_3_apply,
    Ideal.hostDivf_def, Ideal.ofBits_def]
  rfl

/-- Operation 20 at pathway p: the validity bit as a float. -/
theorem v20_at (p : Fin 500) : val_main_v20 (F := Ideal) M (ix1 p) = valid (size M) p := by
  rw [val_main_v20_apply, v2_at, uitofp_bit]
  rfl

/-- Operation 21: the number of valid pathways. -/
theorem v21_at (i : S_.Idx) : val_main_v21 (F := Ideal) M i = nValid (size M) := by
  rw [val_main_v21_apply, val_main_cst_4_apply, Ideal.ofBits_def, Ideal.ofBits_zero_f32, zero_add, sum_idx1]
  exact Finset.sum_congr rfl fun p _ => v20_at M p

include hE hP hM in
/-- Operation 22 at pathway p: the mean square where the pathway is valid, zero elsewhere. -/
theorem v22_at (p : Fin 500) :
    val_main_v22 (F := Ideal) E P M (ix1 p) = mse (size M) (acc E P M) p * valid (size M) p := by
  rw [val_main_v22_apply, v2_at, v19_at E P M hE hP hM, val_main_call0_v1_apply, val_main_call0_v0_apply,
    val_main_cst_5_apply, Ideal.ofBits_def]
  exact select_bit _ _

include hE hP hM in
/-- Operation 23: the sum of the valid pathways' mean squares. -/
theorem v23_at (i : S_.Idx) :
    val_main_v23 (F := Ideal) E P M i = total (size M) (acc E P M) := by
  rw [val_main_v23_apply, val_main_cst_6_apply, Ideal.ofBits_def, Ideal.ofBits_zero_f32, zero_add, sum_idx1]
  exact Finset.sum_congr rfl fun p _ => v22_at E P M hE hP hM p

include hE hP hM in
/-- The reference's result is the loss of its three argument arrays, when every entry is real. -/
theorem ref_eq_loss :
    Cert.ReferenceIdeal.ReadP.val_main_v27 (F := Ideal) E P M = fun _ => Cert.PathwaySpec.loss E P M := by
  funext i
  rw [val_main_v27_apply, val_main_v24_apply, val_main_v26_apply, val_main_v25_apply, v21_at,
    v23_at E P M hE hP hM, val_main_cst_7_apply, val_main_cst_8_apply, val_main_cst_9_apply,
    Ideal.cmpf_def, Ideal.hostDivf_def, Ideal.maximumf_def]
  simp only [Ideal.ofBits_def]
  rfl

end Cert.RefSide

end
-- ==== Proof.RefPre.lean ====
/-
  Finiteness from the precondition.

  The precondition is the conjunction, over the three argument arrays, of "every entry x has |x| < +∞"
  (each a reduction by "and" over the whole array of the comparison of max(x, −x) with the word of +∞).
  When it answers true every entry of every array is therefore a real extended real.
-/
import proofs.«171851_g66838281060554_cont_sun_c4_581_21_alg».proof.ReferenceIdeal
import proofs.«171851_g66838281060554_cont_sun_c4_581_21_alg».proof.Pre_finite_inputs
import proofs.«171851_g66838281060554_cont_sun_c4_581_21_alg».proof.Proof.LibERealFinite
import Idealize.ShloMosaic.Lib.ReduceAll
import Idealize.ShloMosaic.Lib.ValueIdx

noncomputable section

namespace Cert.RefSide

open Idealize.ShloMosaic Idealize.ShloMosaic.LibERealLaws Cert.ReferenceIdeal

/-- The scalar shape has one index. -/
instance subsingleton_scalar_idx : Subsingleton Cert.Pre_finite_inputs.S_.Idx :=
  ⟨fun a b => funext fun d => d.elim0⟩

/-- If the finiteness predicate answers true, every entry of the three argument arrays is real. -/
theorem isReal_of_pre [Cert.Pre_finite_inputs.Facts]
    (E P : (⟨S256x20000, .f32⟩ : BufTy).Contents (Elt Ideal))
    (M : (⟨S500x20000, .f32⟩ : BufTy).Contents (Elt Ideal))
    (h : Cert.Pre_finite_inputs.fn (F := Ideal) E P M = fun _ => 1#1) :
    (∀ i, IsReal (E i)) ∧ (∀ i, IsReal (P i)) ∧ (∀ i, IsReal (M i)) := by
  have h0 := congrFun h ValueIdx.ix0
  dsimp only [Cert.Pre_finite_inputs.fn] at h0
  obtain ⟨h01, h2⟩ := IntOp.andi_eq_one.1 h0
  obtain ⟨hE, hP⟩ := IntOp.andi_eq_one.1 h01
  exact ⟨fun i => isReal_of_cmp_abs_lt_inf (Host.reduce_andi_all _ _ _ _ _ hE i),
    fun i => isReal_of_cmp_abs_lt_inf (Host.reduce_andi_all _ _ _ _ _ hP i),
    fun i => isReal_of_cmp_abs_lt_inf (Host.reduce_andi_all _ _ _ _ _ h2 i)⟩

end Cert.RefSide

end
-- ==== Proof.lean ====
/-
  The certificate of the pathway-coherence loss kernel against its reference.

  Both programs take expression E and predicted P, [256, 20000] (sample, gene), and a membership matrix M,
  [500, 20000] (pathway, gene), and return one number. With size p = Σ_g M[p,g] and
  acc p b = Σ_g M[p,g] · (P[b,g] − E[b,g]), the loss is the mean over the pathways of at least five genes of the mean
  over the samples of (acc p b / max (size p) 1)², zero when no pathway qualifies.

  The kernel walks the genes in eight blocks of 2560; the last block overhangs the 20000 genes and the body selects
  zero there, so what the staging buffers hold past the arrays' end never enters a result. It carries the two sums in
  scratch buffers from point to point, and at the last point computes the loss from them. Each frame claim is that
  run read at the argument arrays: at the word level and on the extended reals it is one text.

  The reference forms (Σ_g P[b,g] M[p,g]) / s − (Σ_g E[b,g] M[p,g]) / s and masks with a select; for finite inputs —
  which the precondition gives — distributing M over the difference and the real divisor over the subtraction turns
  it into the same function of E, P and M. Nothing was rewritten by the idealization, so that conjunct is trivial.
-/
import proofs.«171851_g66838281060554_cont_sun_c4_581_21_alg».proof.Defs
import proofs.«171851_g66838281060554_cont_sun_c4_581_21_alg».proof.Proof.Gen.Kernel
import proofs.«171851_g66838281060554_cont_sun_c4_581_21_alg».proof.Proof.Gen.KernelIdeal
import proofs.«171851_g66838281060554_cont_sun_c4_581_21_alg».proof.Proof.Gen.ReferenceIdeal
import proofs.«171851_g66838281060554_cont_sun_c4_581_21_alg».proof.Proof.Gen.Pre_finite_inputs
import proofs.«171851_g66838281060554_cont_sun_c4_581_21_alg».proof.Proof.K.Body
import proofs.«171851_g66838281060554_cont_sun_c4_581_21_alg».proof.Proof.KI.Value
import proofs.«171851_g66838281060554_cont_sun_c4_581_21_alg».proof.Proof.RefSide
import proofs.«171851_g66838281060554_cont_sun_c4_581_21_alg».proof.Proof.RefPre
import Idealize.ShloMosaic.Adequacy
import Idealize.ShloMosaic.Init

noncomputable section

namespace Cert.Proof

open Idealize.ShloMosaic Idealize.SL.Sem

/-- The word-level kernel runs and leaves its arguments as they were. -/
theorem frame_k : Cert.frame_Kernel := fun m ρ _ => Cert.Kernel.Hand.frame m ρ
/-- So does the kernel read on the extended reals. -/
theorem frame_ki : Cert.frame_KernelIdeal := fun m ρ _ => Cert.KernelIdeal.Hand.frame m ρ
/-- The reference is host operations only: its run, the result forgotten. -/
theorem frame_ri : Cert.frame_ReferenceIdeal := fun m ρ _ =>
  (θ_run Cert.ReferenceIdeal.defs _ _).mono (fun _ h c => (h c).2) (Cert.ReferenceIdeal.ValueP.run (F := Ideal) m ρ)

/-- On the extended reals the kernel's scalar and the reference's are the loss of the argument arrays, which agree:
    the kernel's by its accumulated sums, the reference's by the algebra of finite entries. -/
theorem algebraic : Cert.algebraic_KernelIdeal_ReferenceIdeal := by
  intro m ρ m' ρ' hpre hagree
  refine ⟨fun c => (fun _ => Cert.PathwaySpec.loss (Cert.KernelIdeal.Hand.argE m c) (Cert.KernelIdeal.Hand.argP m c) (Cert.KernelIdeal.Hand.argM m c)),
    Cert.KernelIdeal.Hand.value_run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v27_eq, (hagree c).1, (hagree c).2.1, (hagree c).2.2]
  obtain ⟨hE, hP, hM⟩ := Cert.RefSide.isReal_of_pre _ _ _ (hpre c)
  exact Cert.RefSide.ref_eq_loss _ _ _ hE hP hM

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
